-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S1024x1920 : Shape := ⟨2, ![1024, 1920]⟩
abbrev S1024x1 : Shape := ⟨2, ![1024, 1]⟩
abbrev S1024 : Shape := ⟨1, ![1024]⟩
abbrev S_ : Shape := ⟨0, ![]⟩
abbrev S4096x2 : Shape := ⟨2, ![4096, 2]⟩

abbrev nBuf : Space → Nat
  | .hbm => 126
  | .vmem => 6
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .f32⟩
  | .hbm, ⟨3, _⟩ => ⟨S4096, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1, .i32⟩
  | .hbm, ⟨43, _⟩ => ⟨S4096x2, .i32⟩
  | .hbm, ⟨44, _⟩ => ⟨S4096, .f32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x1, .i32⟩
  | .hbm, ⟨61, _⟩ => ⟨S4096x2, .i32⟩
  | .hbm, ⟨62, _⟩ => ⟨S4096, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S4096x1, .i32⟩
  | .hbm, ⟨78, _⟩ => ⟨S4096x1, .i32⟩
  | .hbm, ⟨79, _⟩ => ⟨S4096x2, .i32⟩
  | .hbm, ⟨80, _⟩ => ⟨S4096, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i1⟩
  | .hbm, ⟨87, _⟩ => ⟨S_, .f32⟩
  | .hbm, ⟨88, _⟩ => ⟨S_, .f32⟩
  | .hbm, ⟨89, _⟩ => ⟨S4096, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S_, .i32⟩
  | .hbm, ⟨96, _⟩ => ⟨S4096, .i32⟩
  | .hbm, ⟨97, _⟩ => ⟨S4096, .i1⟩
  | .hbm, ⟨98, _⟩ => ⟨S_, .i32⟩
  | .hbm, ⟨99, _⟩ => ⟨S4096, .i32⟩
  | .hbm, ⟨100, _⟩ => ⟨S4096, .i1⟩
  | .hbm, ⟨101, _⟩ => ⟨S_, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096, .f32⟩
  | .hbm, ⟨106, _⟩ => ⟨S_, .f32⟩
  | .hbm, ⟨107, _⟩ => ⟨S4096, .f32⟩
  | .hbm, ⟨108, _⟩ => ⟨S4096, .f32⟩
  | .hbm, ⟨109, _⟩ => ⟨S4096, .f32⟩
  | .hbm, ⟨110, _⟩ => ⟨S4096, .f32⟩
  | .hbm, ⟨111, _⟩ => ⟨S4096, .f32⟩
  | .hbm, ⟨112, _⟩ => ⟨S_, .f32⟩
  | .hbm, ⟨113, _⟩ => ⟨S4096, .f32⟩
  | .hbm, ⟨114, _⟩ => ⟨S4096, .f32⟩
  | .hbm, ⟨115, _⟩ => ⟨S4096, .f32⟩
  | .hbm, ⟨116, _⟩ => ⟨S4096, .f32⟩
  | .hbm, ⟨117, _⟩ => ⟨S4096, .f32⟩
  | .hbm, ⟨118, _⟩ => ⟨S4096, .f32⟩
  | .hbm, ⟨119, _⟩ => ⟨S4096, .f32⟩
  | .hbm, ⟨120, _⟩ => ⟨S4096, .f32⟩
  | .hbm, ⟨121, _⟩ => ⟨S4096, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .local _ .vmem, ⟨0, _⟩ => ⟨S1024x1920, .f32⟩
  | .local _ .vmem, ⟨1, _⟩ => ⟨S1024x1920, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_c_4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_c_5 : Ref sig .tc := ⟨.hbm, 27, rfl⟩
abbrev main_v9 : Ref sig .tc := ⟨.hbm, 28, rfl⟩
abbrev main_v10 : Ref sig .tc := ⟨.hbm, 29, rfl⟩
abbrev main_c_6 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_7 : Ref sig .tc := ⟨.hbm, 34, rfl⟩
abbrev main_v14 : Ref sig .tc := ⟨.hbm, 35, rfl⟩
abbrev main_v15 : Ref sig .tc := ⟨.hbm, 36, rfl⟩
abbrev main_c_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_9 : Ref sig .tc := ⟨.hbm, 45, rfl⟩
abbrev main_v23 : Ref sig .tc := ⟨.hbm, 46, rfl⟩
abbrev main_v24 : Ref sig .tc := ⟨.hbm, 47, rfl⟩
abbrev main_c_10 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_11 : Ref sig .tc := ⟨.hbm, 52, rfl⟩
abbrev main_v28 : Ref sig .tc := ⟨.hbm, 53, rfl⟩
abbrev main_v29 : Ref sig .tc := ⟨.hbm, 54, rfl⟩
abbrev main_c_12 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_13 : Ref sig .tc := ⟨.hbm, 63, rfl⟩
abbrev main_v37 : Ref sig .tc := ⟨.hbm, 64, rfl⟩
abbrev main_v38 : Ref sig .tc := ⟨.hbm, 65, rfl⟩
abbrev main_c_14 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_15 : Ref sig .tc := ⟨.hbm, 70, rfl⟩
abbrev main_v42 : Ref sig .tc := ⟨.hbm, 71, rfl⟩
abbrev main_v43 : Ref sig .tc := ⟨.hbm, 72, rfl⟩
abbrev main_c_16 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_17 : Ref sig .tc := ⟨.hbm, 81, rfl⟩
abbrev main_v51 : Ref sig .tc := ⟨.hbm, 82, rfl⟩
abbrev main_v52 : Ref sig .tc := ⟨.hbm, 83, rfl⟩
abbrev main_c_18 : Ref sig .tc := ⟨.hbm, 84, rfl⟩
abbrev main_v53 : Ref sig .tc := ⟨.hbm, 85, rfl⟩
abbrev main_v54 : Ref sig .tc := ⟨.hbm, 86, rfl⟩
abbrev main_cst : Ref sig .tc := ⟨.hbm, 87, rfl⟩
abbrev main_cst_19 : Ref sig .tc := ⟨.hbm, 88, rfl⟩
abbrev main_call2_v0 : Ref sig .tc := ⟨.hbm, 89, rfl⟩
abbrev main_call2_v1 : Ref sig .tc := ⟨.hbm, 90, rfl⟩
abbrev main_v55 : Ref sig .tc := ⟨.hbm, 91, rfl⟩
abbrev main_cst_20 : Ref sig .tc := ⟨.hbm, 92, rfl⟩
abbrev main_call3_v0 : Ref sig .tc := ⟨.hbm, 93, rfl⟩
abbrev main_v56 : Ref sig .tc := ⟨.hbm, 94, rfl⟩
abbrev main_c_21 : Ref sig .tc := ⟨.hbm, 95, rfl⟩
abbrev main_v57 : Ref sig .tc := ⟨.hbm, 96, rfl⟩
abbrev main_v58 : Ref sig .tc := ⟨.hbm, 97, rfl⟩
abbrev main_c_22 : Ref sig .tc := ⟨.hbm, 98, rfl⟩
abbrev main_v59 : Ref sig .tc := ⟨.hbm, 99, rfl⟩
abbrev main_v60 : Ref sig .tc := ⟨.hbm, 100, rfl⟩
abbrev main_cst_23 : Ref sig .tc := ⟨.hbm, 101, rfl⟩
abbrev main_cst_24 : Ref sig .tc := ⟨.hbm, 102, rfl⟩
abbrev main_call4_v0 : Ref sig .tc := ⟨.hbm, 103, rfl⟩
abbrev main_call4_v1 : Ref sig .tc := ⟨.hbm, 104, rfl⟩
abbrev main_v61 : Ref sig .tc := ⟨.hbm, 105, rfl⟩
abbrev main_cst_25 : Ref sig .tc := ⟨.hbm, 106, rfl⟩
abbrev main_call5_v0 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_26 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_27 : Ref sig .tc := ⟨.hbm, 122, rfl⟩
abbrev main_v75 : Ref sig .tc := ⟨.hbm, 123, rfl⟩
abbrev main_cst_28 : Ref sig .tc := ⟨.hbm, 124, rfl⟩
abbrev main_v76 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 27], ![false, false]⟩

def k0_cond3 (i : grid0.Coords) : BitVec 1 :=
  let arg1 : BitVec 32 := BitVec.ofNat 32 (i 1).val
  let c26_i32_3 : BitVec 32 := 26#32
  let v7 : BitVec 1 := Scalar.cmpi .eq arg1 c26_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1920_S1024x1920_0_0 : ∀ a, (![0, 0] : Fin 2 → Nat) a + S1024x1920.size a ≤ S1024x1920.size a
  h_S1024x1920 : 0 < S1024x1920.numel
  reduces_S1024x1920_S1024 : S1024x1920.Reduces [1] S1024
  shapeCasts_S1024_S1024x1 : S1024.ShapeCasts S1024x1
  broadcasts_S1024x1_S1024x1920 : S1024x1.Broadcasts S1024x1920
  iota_S1024x1920_d1_w32 : S1024x1920.Iotas .tc 32 [1]
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096_S_d0 : S4096.ReducesTo [0] S_
  h_S_ : 0 < S_.numel
  gather_S4096x50257_S4096x2_S4096_n_01_n_n_01_1_11_wf : GatherDims.WF S4096x50257 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1920.size a < S4096x50257.size a
  hwx0_0 : ∀ i : grid0.Coords, EltTy.bits .f32 = 32 ∨ (Rect.unit (s := S4096x50257) (fun a => cc0_transform_0 i a * S1024x1920.size a) (fun a => (Pipeline.Clip.of (cc0_transform_0 i a) (S1024x1920.size a) (S4096x50257.size a)).extent (S1024x1920.size a)) fun a => Pipeline.Clip.inb (Pipeline.Clip.ok_of (hstart0_0 i a))).WholeWords (EltTy.packing .f32)
  hwxs0_0 : ∀ i : grid0.Coords, EltTy.bits .f32 = 32 ∨ (Rect.unit (s := S1024x1920) (fun _ => 0) (fun a => (Pipeline.Clip.of (cc0_transform_0 i a) (S1024x1920.size a) (S4096x50257.size a)).extent (S1024x1920.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)

variable [Facts₀]

def gather_S4096x50257_S4096x2_S4096_n_01_n_n_01_1_11 : GatherDims S4096x50257 S4096x2 S4096 where
  offsetDims := []
  collapsedSliceDims := [0, 1]
  operandBatchingDims := []
  startIndicesBatchingDims := []
  startIndexMap := [0, 1]
  indexVectorDim := 1
  sliceSizes := ![1, 1]
  wf := gather_S4096x50257_S4096x2_S4096_n_01_n_n_01_1_11_wf

abbrev win0_0 : Pipeline.Window sig grid0 :=
  Pipeline.Window.ofSpecClip (Memref.whole main_arg0) S1024x1920.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 136
  | .vmem => 0
  | .smem => 0
  | _ => 0

abbrev hbmTy0_0 (i : Nat) : BufTy := match i % 128 with
  | 0 => ⟨S4096x50257, .f32⟩
  | 1 => ⟨S4096, .i32⟩
  | 2 => ⟨S_, .f32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x50257, .f32⟩
  | 9 => ⟨S4096x50257, .f32⟩
  | 10 => ⟨S4096x50257, .f32⟩
  | 11 => ⟨S_, .f32⟩
  | 12 => ⟨S4096, .f32⟩
  | 13 => ⟨S4096x1, .f32⟩
  | 14 => ⟨S4096x1, .f32⟩
  | 15 => ⟨S4096x50257, .f32⟩
  | 16 => ⟨S4096x50257, .f32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096, .f32⟩
  | 36 => ⟨S_, .i32⟩
  | 37 => ⟨S4096, .i32⟩
  | 38 => ⟨S4096, .i32⟩
  | 39 => ⟨S_, .i32⟩
  | 40 => ⟨S_, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096x1, .i32⟩
  | 63 => ⟨S4096x2, .i32⟩
  | 64 => ⟨S4096, .f32⟩
  | 65 => ⟨S_, .i32⟩
  | 66 => ⟨S4096, .i32⟩
  | 67 => ⟨S4096, .i32⟩
  | 68 => ⟨S_, .i32⟩
  | 69 => ⟨S_, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x1, .i32⟩
  | 92 => ⟨S4096x2, .i32⟩
  | 93 => ⟨S4096, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i1⟩
  | 100 => ⟨S_, .f32⟩
  | 101 => ⟨S_, .f32⟩
  | 102 => ⟨S4096, .f32⟩
  | 103 => ⟨S4096, .f32⟩
  | 104 => ⟨S4096, .f32⟩
  | 105 => ⟨S_, .f32⟩
  | 106 => ⟨S4096, .f32⟩
  | 107 => ⟨S4096, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i1⟩
  | 114 => ⟨S_, .f32⟩
  | 115 => ⟨S_, .f32⟩
  | 116 => ⟨S4096, .f32⟩
  | 117 => ⟨S4096, .f32⟩
  | 118 => ⟨S4096, .f32⟩
  | 119 => ⟨S_, .f32⟩
  | 120 => ⟨S4096, .f32⟩
  | 121 => ⟨S4096, .f32⟩
  | 122 => ⟨S_, .f32⟩
  | 123 => ⟨S4096, .f32⟩
  | 124 => ⟨S4096, .f32⟩
  | 125 => ⟨S4096, .f32⟩
  | 126 => ⟨S4096, .f32⟩
  | 127 => ⟨S4096, .f32⟩
  | _ => ⟨S4096x50257, .f32⟩

abbrev hbmTy0_1 (i : Nat) : BufTy := match i % 128 with
  | 0 => ⟨S4096, .f32⟩
  | 1 => ⟨S4096, .f32⟩
  | 2 => ⟨S4096, .f32⟩
  | 3 => ⟨S4096, .f32⟩
  | 4 => ⟨S_, .f32⟩
  | 5 => ⟨S_, .f32⟩
  | 6 => ⟨S_, .f32⟩
  | 7 => ⟨S_, .f32⟩
  | _ => ⟨S4096x50257, .f32⟩

abbrev hbmTy (i : Nat) : BufTy := match i / 128 with
  | 0 => hbmTy0_0 i
  | 1 => hbmTy0_1 i
  | _ => ⟨S4096x50257, .f32⟩

abbrev bufTy : (tb : Table) → Fin (tcTables nBuf tb) → BufTy
  | .hbm, ⟨i, _⟩ => hbmTy i
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v18 : Ref sig .tc := ⟨.hbm, 46, rfl⟩
abbrev main_c_6 : Ref sig .tc := ⟨.hbm, 47, rfl⟩
abbrev main_v19 : Ref sig .tc := ⟨.hbm, 48, rfl⟩
abbrev main_v20 : Ref sig .tc := ⟨.hbm, 49, rfl⟩
abbrev main_c_7 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_8 : Ref sig .tc := ⟨.hbm, 54, rfl⟩
abbrev main_v24 : Ref sig .tc := ⟨.hbm, 55, rfl⟩
abbrev main_v25 : Ref sig .tc := ⟨.hbm, 56, rfl⟩
abbrev main_c_9 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_10 : Ref sig .tc := ⟨.hbm, 65, rfl⟩
abbrev main_v33 : Ref sig .tc := ⟨.hbm, 66, rfl⟩
abbrev main_v34 : Ref sig .tc := ⟨.hbm, 67, rfl⟩
abbrev main_c_11 : Ref sig .tc := ⟨.hbm, 68, rfl⟩
abbrev main_c_12 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v35 : Ref sig .tc := ⟨.hbm, 75, rfl⟩
abbrev main_c_13 : Ref sig .tc := ⟨.hbm, 76, rfl⟩
abbrev main_v36 : Ref sig .tc := ⟨.hbm, 77, rfl⟩
abbrev main_v37 : Ref sig .tc := ⟨.hbm, 78, rfl⟩
abbrev main_c_14 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_15 : Ref sig .tc := ⟨.hbm, 83, rfl⟩
abbrev main_v41 : Ref sig .tc := ⟨.hbm, 84, rfl⟩
abbrev main_v42 : Ref sig .tc := ⟨.hbm, 85, rfl⟩
abbrev main_c_16 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_17 : Ref sig .tc := ⟨.hbm, 94, rfl⟩
abbrev main_v50 : Ref sig .tc := ⟨.hbm, 95, rfl⟩
abbrev main_v51 : Ref sig .tc := ⟨.hbm, 96, rfl⟩
abbrev main_c_18 : Ref sig .tc := ⟨.hbm, 97, rfl⟩
abbrev main_v52 : Ref sig .tc := ⟨.hbm, 98, rfl⟩
abbrev main_v53 : Ref sig .tc := ⟨.hbm, 99, rfl⟩
abbrev main_cst : Ref sig .tc := ⟨.hbm, 100, rfl⟩
abbrev main_cst_19 : Ref sig .tc := ⟨.hbm, 101, rfl⟩
abbrev main_call3_v0 : Ref sig .tc := ⟨.hbm, 102, rfl⟩
abbrev main_call3_v1 : Ref sig .tc := ⟨.hbm, 103, rfl⟩
abbrev main_v54 : Ref sig .tc := ⟨.hbm, 104, rfl⟩
abbrev main_cst_20 : Ref sig .tc := ⟨.hbm, 105, rfl⟩
abbrev main_call4_v0 : Ref sig .tc := ⟨.hbm, 106, rfl⟩
abbrev main_v55 : Ref sig .tc := ⟨.hbm, 107, rfl⟩
abbrev main_c_21 : Ref sig .tc := ⟨.hbm, 108, rfl⟩
abbrev main_v56 : Ref sig .tc := ⟨.hbm, 109, rfl⟩
abbrev main_v57 : Ref sig .tc := ⟨.hbm, 110, rfl⟩
abbrev main_c_22 : Ref sig .tc := ⟨.hbm, 111, rfl⟩
abbrev main_v58 : Ref sig .tc := ⟨.hbm, 112, rfl⟩
abbrev main_v59 : Ref sig .tc := ⟨.hbm, 113, rfl⟩
abbrev main_cst_23 : Ref sig .tc := ⟨.hbm, 114, rfl⟩
abbrev main_cst_24 : Ref sig .tc := ⟨.hbm, 115, rfl⟩
abbrev main_call5_v0 : Ref sig .tc := ⟨.hbm, 116, rfl⟩
abbrev main_call5_v1 : Ref sig .tc := ⟨.hbm, 117, rfl⟩
abbrev main_v60 : Ref sig .tc := ⟨.hbm, 118, rfl⟩
abbrev main_cst_25 : Ref sig .tc := ⟨.hbm, 119, rfl⟩
abbrev main_call6_v0 : Ref sig .tc := ⟨.hbm, 120, rfl⟩
abbrev main_v61 : Ref sig .tc := ⟨.hbm, 121, rfl⟩
abbrev main_cst_26 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_27 : Ref sig .tc := ⟨.hbm, 132, rfl⟩
abbrev main_v71 : Ref sig .tc := ⟨.hbm, 133, rfl⟩
abbrev main_cst_28 : Ref sig .tc := ⟨.hbm, 134, rfl⟩
abbrev main_v72 : Ref sig .tc := ⟨.hbm, 135, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  concatenates_S4096x1_S4096x1_S4096x2_d1 : Shape.Concatenates [S4096x1, S4096x1] S4096x2 1
  reducesTo_S4096_S_d0 : S4096.ReducesTo [0] S_
  gather_S4096x50257_S4096x2_S4096_n_01_n_n_01_1_11_wf : GatherDims.WF S4096x50257 S4096x2 S4096 [] [0, 1] [] [0, 1] [] 1 ![1, 1]

variable [Facts₀]

def gather_S4096x50257_S4096x2_S4096_n_01_n_n_01_1_11 : GatherDims S4096x50257 S4096x2 S4096 where
  offsetDims := []
  collapsedSliceDims := [0, 1]
  operandBatchingDims := []
  startIndicesBatchingDims := []
  startIndexMap := [0, 1]
  indexVectorDim := 1
  sliceSizes := ![1, 1]
  wf := gather_S4096x50257_S4096x2_S4096_n_01_n_n_01_1_11_wf

class Facts : Prop extends Facts₀ where

variable [Facts]
-- ==== Proof.K.Base.lean ====
/-
  The streaming log-sum-exp kernel, point by point: what decides which of its three branches a grid
  point takes, and where its windows are idle.

  The grid is 4 row blocks by 27 column tiles, walked row-major: point t is row block t / 27, column
  tile t % 27. The body's three conditionals read only the column-tile coordinate j = t % 27:
  j = 0 seeds the running maximum and the running sum, j < 26 folds a full tile into them, j = 26
  folds the last (partial, masked) tile and stores maximum + log(sum) to the output block. So a point
  is in exactly one of three cases: first tile (seed, then fold), middle tile (fold), last tile
  (masked fold, then store). The output block is stored — and written back — only at the last tile
  of each row block; at every other point its staging buffer is handed back untouched.
-/
import proofs.«131330_j46755013984641_2_alg».proof.Proof.Gen.Kernel.Launch
import proofs.«131330_j46755013984641_2_alg».proof.Proof.Gen.Kernel.Skeleton
import proofs.«131330_j46755013984641_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- "This is the first column tile": the body's first conditional, as a chain over the coordinates. -/
abbrev cond0_0 (i : grid0.Coords) : Prop := (Scalar.cmpi .ne (Scalar.extui (Scalar.cmpi .eq (BitVec.ofNat 32 (i 1).val) 0#32)) 0#32) = 1#1
/-- It holds exactly at the points whose column tile is 0. -/
theorem hcond0_0 : ∀ t : Fin cfg0.N, cond0_0 (grid0.coords t) ↔ t.val % 27 = 0 :=
  (by decide +kernel : ∀ t : Fin grid0.N, cond0_0 (grid0.coords t) ↔ t.val % 27 = 0)

/-- "This is not the last column tile": the second conditional. -/
abbrev cond0_1 (i : grid0.Coords) : Prop := (Scalar.cmpi .ne (Scalar.extui (Scalar.cmpi .slt (BitVec.ofNat 32 (i 1).val) 26#32)) 0#32) = 1#1
/-- It holds exactly at the points whose column tile is below 26. -/
theorem hcond0_1 : ∀ t : Fin cfg0.N, cond0_1 (grid0.coords t) ↔ t.val % 27 < 26 :=
  (by decide +kernel : ∀ t : Fin grid0.N, cond0_1 (grid0.coords t) ↔ t.val % 27 < 26)

/-- "This is the last column tile": the third conditional. -/
abbrev cond0_2 (i : grid0.Coords) : Prop := k0_cond3 i = 1#1
/-- It holds exactly at the points whose column tile is 26. -/
theorem hcond0_2 : ∀ t : Fin cfg0.N, cond0_2 (grid0.coords t) ↔ t.val % 27 = 26 :=
  (by decide +kernel : ∀ t : Fin grid0.N, cond0_2 (grid0.coords t) ↔ t.val % 27 = 26)

/-- The column-tile coordinate of point t is t % 27, the row-block coordinate t / 27. -/
theorem coords_col : ∀ t : Fin cfg0.N, ((grid0.coords t) 1).val = t.val % 27 :=
  (by decide +kernel : ∀ t : Fin grid0.N, ((grid0.coords t) 1).val = t.val % 27)
theorem coords_row : ∀ t : Fin cfg0.N, ((grid0.coords t) 0).val = t.val / 27 :=
  (by decide +kernel : ∀ t : Fin grid0.N, ((grid0.coords t) 0).val = t.val / 27)

/-! ## Where the windows are idle -/

/-- The input window is never idle. -/
theorem liveAt0_0 : ∀ t : Fin cfg0.N, cfg0.idle 0 (grid0.coords t) = false := by decide +kernel
/-- Off the last column tile the output window is idle, -/
theorem idleAt0_1 : ∀ t : Fin cfg0.N, ¬cond0_2 (grid0.coords t) → cfg0.idle 1 (grid0.coords t) = true := by decide +kernel
/-- and its block is not written back there; -/
theorem noFlush0_1 : ∀ t : Fin cfg0.N, ¬cond0_2 (grid0.coords t) → (cfg0.win 1).flush t = false := by decide +kernel
/-- at the last column tile it is live. -/
theorem liveAt0_1 : ∀ t : Fin cfg0.N, cond0_2 (grid0.coords t) → cfg0.idle 1 (grid0.coords t) = false := by decide +kernel
/-- The output window is never fetched. -/
theorem noFetch0_1 : ∀ t : Fin cfg0.N, (cfg0.win 1).fetch t = false := by decide +kernel

/-! ## The memrefs the body is called with -/

abbrev ms0_0 (t : Fin cfg0.N) : Memref sig .tc .vmem S1024x1920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The running maximum's column and the running sum's column: the kernel's two scratch buffers. -/
abbrev scM0_0 : Memref sig .tc .vmem S1024x1 .f32 := Memref.whole cc0_scratch0
abbrev scM0_1 : Memref sig .tc .vmem S1024x1 .f32 := Memref.whole cc0_scratch1

/-- The region's own invariant, opened: the two scratch columns each owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
/-
  The first column tile of a row block: the body seeds the maximum column with the finite stand-in
  for minus infinity and the sum column with zero (whatever the two columns held), then folds the
  tile exactly as a middle tile does; the output block's buffer is not touched. Each column ends with
  two whole stores (the seed, then the fold), found by running the body.
-/
import proofs.«131330_j46755013984641_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on any whole memrefs: the input block at `x0`, the output's buffer at
    `xi1` (handed back untouched), the two scratch columns at anything; it ends with the two columns
    overwritten by the pieces `LS0`, `LS1` (found by the run). -/
noncomputable def kernelRun0_A (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : cond0_1 i) (hc2 : ¬cond0_2 i)
    (x0 : Vec F S1024x1920 .f32) :
    Σ' (LS0 : List (View.Piece (Elt F) S1024x1 .f32)), { LS1 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Hand

end
-- ==== Proof.K.RunB.lean ====
/-
  A middle column tile (not the first, not the last): the body loads the input block and both scratch
  columns, folds the tile into them — new maximum, rescaled sum plus the tile's sum of exponentials —
  and stores both columns whole; the output block's buffer is not touched. The stores each column ends
  with are found by running the body.
-/
import proofs.«131330_j46755013984641_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile, on any whole memrefs: the input block at `x0`, the output's buffer at
    `xi1` (handed back untouched), the maximum column at `xs0`, the sum column at `xs1`; it ends with the
    two columns overwritten by the pieces `LS0`, `LS1` (found by the run). -/
noncomputable def kernelRun0_B (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (hc2 : ¬cond0_2 i)
    (x0 : Vec F S1024x1920 .f32) (xs0 : Vec F S1024x1 .f32) (xs1 : Vec F S1024x1 .f32) :
    Σ' (LS0 : List (View.Piece (Elt F) S1024x1 .f32)), { LS1 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Hand

end
-- ==== Proof.K.RunC.lean ====
/-
  The last column tile of a row block: only the columns inside the array count, so the body masks
  the block by a select (the stand-in for minus infinity under the maximum, zero under the sum), folds
  it into the two scratch columns, stores them, reads the sum column back and stores
  maximum + log(sum) to the output block — one whole store. What each buffer ends with is found by
  running the body.
-/
import proofs.«131330_j46755013984641_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile, on any whole memrefs: the input block at `x0`, the output's buffer at
    anything, the maximum column at `xs0`, the sum column at `xs1`; it ends with the output's buffer
    overwritten by the pieces `L1` and the two columns by `LS0`, `LS1` (found by the run). -/
noncomputable def kernelRun0_C (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (hc2 : cond0_2 i)
    (x0 : Vec F S1024x1920 .f32) (xs0 : Vec F S1024x1 .f32) (xs1 : Vec F S1024x1 .f32) :
    Σ' (L1 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg2 harg2 arg3 harg3 arg4 harg4 arg5 harg5) K } := by
  refine ⟨?_, ?_, ?_, fun E K => ?run⟩
  case run =>
    simp only [cc0_kernel_eq_skeleton]; unfold cc0_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1 | exact hc2)
    sl_step
    iapply Hk
    isplitl [H0]
    · iexists _; isplitr; · ipureintro; exact harg2.read_unread _
      iexact H0
    isplitl [H1]
    · iexists _; iexact H1
    isplitl [HS0]
    · iexists _; iexact HS0
    iexists _; iexact HS1

end Cert.Kernel.Hand

end
-- ==== Proof.K.Body.lean ====
/-
  The streaming log-sum-exp kernel's body obligation, for the claim that reads nothing of what it computes.

  The proof data: the two arrays as the program is launched (nothing runs before the region); after the body at
  point t the input window's buffer still holds the array's block there — the part of the block inside the array,
  filled out past the array's last column with a word nothing reads (the last column tile overhangs the array, so
  the window is stated only on the part its transfers move) —; the output window is forgotten: it is handed to the
  body at any contents and taken back at any contents. The invariant carried from point to point is the region's
  own: the two scratch columns each owned at some contents, and the generator register. So at every point the
  body's run applies whichever of the three cases the point is in — first tile, middle tile, last tile — and the
  columns are handed back at whatever the run left in them.
-/
import proofs.«131330_j46755013984641_2_alg».proof.Proof.K.RunA
import proofs.«131330_j46755013984641_2_alg».proof.Proof.K.RunB
import proofs.«131330_j46755013984641_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- Core `c`'s TensorCore buffers when the region is entered: as launched (the region is the program's first line). -/
abbrev V (c : Dev nD) (b : Ref sig .tc) : Buf (Elt F) ((c : Thread nD τ).loc b) := m ((c : Thread nD τ).loc b)

/-- The input window's block at point `t` as the fetch reads it: its part inside the array (1920 columns at a full
    tile, 337 at the last). -/
def iblk (c : Dev nD) (t : Fin cfg0.N) : (win0_0.xblock (grid0.coords t)).Idx → Elt F .f32 :=
  (win0_0.blk t).view.read (Elt F) (V m c main_arg0)

/-- That block filled out to the staging buffer's shape: past the array's last column the zero word, which nothing
    reads (the window is stated on the moved part only). -/
def iblkF (c : Dev nD) (t : Fin cfg0.N) : S1024x1920.Idx → Elt F .f32 :=
  win0_0.fill (grid0.coords t) (fun _ => Scalar.ofBits .f32 0#32) (iblk m c t)

/-- The output window is forgotten: nothing of what the kernel leaves there is named. -/
def forgets0 : Fin 2 → Bool := fun w => w.val == 1

/-- The proof data of the one pipeline on core `c`: the arrays as launched; after the body the input's buffer at
    its block, the output's unnamed; the invariant the region's own (the two scratch columns at some contents, the
    generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblkF m c t
    | ⟨1, h⟩ => Pipeline.Dat.unnamed (cfg := cfg0) ⟨1, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblkF m c t := by dsimp only [dats]

/-- What the body finds in the input's buffer: just fetched — the block on the part inside the array, `d` elsewhere. -/
theorem before0_0 (c : Dev nD) (t : Fin cfg0.N) (d) :
    (dats m 0 c).before 0 t d = win0_0.fill (grid0.coords t) d (iblk m c t) := by
  unfold Dat.before; rw [if_pos (fetch0_0 t)]; rfl

/-! ## The body at any point -/

/-- A memref's elements at any contents of their buffer are owned at some contents. -/
theorem owns_some (c : Dev nD) {sh : Shape} (M : Memref sig .tc .vmem sh .f32) (g : M.view.ty.Contents (Elt F)) :
    (M.view.loc (c : Thread nD τ) ↦[M.view.set]{fullShare} g : sProp 𝕄) ⊢ iprop(∃ d, owns (c : Thread nD τ) M fullShare d) := by
  iintro H
  iexists (M.view.read (Elt F) g)
  iapply (owns_intro (c : Thread nD τ) M fullShare g)
  iexact H

set_option maxHeartbeats 1200000 in
/-- The body at any point, whatever the input's buffer holds: the point is a first, a middle or a last tile by its
    column-tile coordinate; each case's run takes the output's buffer and the two columns at whatever they hold and
    hands all three back at some contents, the input's buffer as it was. -/
theorem body_any (c : Dev nD) (t : Fin cfg0.N) (x0 : Vec F S1024x1920 .f32) (K : PUnit → sProp 𝕄) :
    iprop(owns (c : Thread nD τ) (ms0_0 t) fullShare x0 ∗ (∃ X, owns (c : Thread nD τ) (ms0_1 t) fullShare X)
        ∗ (∃ d, owns (c : Thread nD τ) scM0_0 fullShare d) ∗ (∃ d, owns (c : Thread nD τ) scM0_1 fullShare d)
        ∗ (iprop(owns (c : Thread nD τ) (ms0_0 t) fullShare x0 ∗ (∃ X, owns (c : Thread nD τ) (ms0_1 t) fullShare X)
            ∗ (∃ d, owns (c : Thread nD τ) scM0_0 fullShare d) ∗ (∃ d, owns (c : Thread nD τ) scM0_1 fullShare d)) -∗ K ⟨⟩))
      ⊢ wp frame (wpE (defs₀ (F := F)) Variants.none c none) Set.univ (bodyAt0 t) K := by
  have hN : t.val < 108 := lt_of_lt_of_eq t.isLt (show cfg0.N = 108 from N_0)
  by_cases h0 : t.val % 27 = 0
  · -- a first tile
    have hc0 : cond0_0 (grid0.coords t) := (hcond0_0 t).mpr h0
    have hc1 : cond0_1 (grid0.coords t) := (hcond0_1 t).mpr (by omega)
    have hc2 : ¬cond0_2 (grid0.coords t) := fun h => by have := (hcond0_2 t).mp h; omega
    iintro ⟨H0, ⟨%X1, H1⟩, HS0, HS1, Hk⟩
    iapply ((kernelRun0_A c (grid0.coords t) (ms0_0 t) (hs0_0 t) (ms0_1 t) (hs0_1 t) scM0_0 (Memref.isWhole_whole _) scM0_1 (Memref.isWhole_whole _) hc0 hc1 hc2 x0).2.2 X1 Set.univ K)
    isplitl [H0]; · iexact H0
    isplitl [H1]; · iexact H1
    isplitl [HS0]; · iexact HS0
    isplitl [HS1]; · iexact HS1
    iintro ⟨H0, H1, ⟨%f0, HS0⟩, ⟨%f1, HS1⟩⟩
    iapply Hk
    isplitl [H0]; · iexact H0
    isplitl [H1]; · iexists X1; iexact H1
    isplitl [HS0]; · iapply (owns_some c scM0_0 _); iexact HS0
    iapply (owns_some c scM0_1 _); iexact HS1
  · by_cases h2 : t.val % 27 = 26
    · -- a last tile
      have hc0 : ¬cond0_0 (grid0.coords t) := fun h => h0 ((hcond0_0 t).mp h)
      have hc1 : ¬cond0_1 (grid0.coords t) := fun h => by have := (hcond0_1 t).mp h; omega
      have hc2 : cond0_2 (grid0.coords t) := (hcond0_2 t).mpr h2
      iintro ⟨H0, H1, ⟨%xs0, HS0⟩, ⟨%xs1, HS1⟩, Hk⟩
      iapply ((kernelRun0_C c (grid0.coords t) (ms0_0 t) (hs0_0 t) (ms0_1 t) (hs0_1 t) scM0_0 (Memref.isWhole_whole _) scM0_1 (Memref.isWhole_whole _) hc0 hc1 hc2 x0 xs0 xs1).2.2.2 Set.univ K)
      isplitl [H0]; · iexact H0
      isplitl [H1]; · iexact H1
      isplitl [HS0]; · iexact HS0
      isplitl [HS1]; · iexact HS1
      iintro ⟨H0, ⟨%f1, H1⟩, ⟨%f0, HS0⟩, ⟨%f1', HS1⟩⟩
      iapply Hk
      isplitl [H0]; · iexact H0
      isplitl [H1]; · iapply (owns_some c (ms0_1 t) _); iexact H1
      isplitl [HS0]; · iapply (owns_some c scM0_0 _); iexact HS0
      iapply (owns_some c scM0_1 _); iexact HS1
    · -- a middle tile
      have hc0 : ¬cond0_0 (grid0.coords t) := fun h => h0 ((hcond0_0 t).mp h)
      have hc1 : cond0_1 (grid0.coords t) := (hcond0_1 t).mpr (by omega)
      have hc2 : ¬cond0_2 (grid0.coords t) := fun h => h2 ((hcond0_2 t).mp h)
      iintro ⟨H0, ⟨%X1, H1⟩, ⟨%xs0, HS0⟩, ⟨%xs1, HS1⟩, Hk⟩
      iapply ((kernelRun0_B c (grid0.coords t) (ms0_0 t) (hs0_0 t) (ms0_1 t) (hs0_1 t) scM0_0 (Memref.isWhole_whole _) scM0_1 (Memref.isWhole_whole _) hc0 hc1 hc2 x0 xs0 xs1).2.2 X1 Set.univ K)
      isplitl [H0]; · iexact H0
      isplitl [H1]; · iexact H1
      isplitl [HS0]; · iexact HS0
      isplitl [HS1]; · iexact HS1
      iintro ⟨H0, H1, ⟨%f0, HS0⟩, ⟨%f1, HS1⟩⟩
      iapply Hk
      isplitl [H0]; · iexact H0
      isplitl [H1]; · iexists X1; iexact H1
      isplitl [HS0]; · iapply (owns_some c scM0_0 _); iexact HS0
      iapply (owns_some c scM0_1 _); iexact HS1

/-! ## The body obligation -/

/-- What the body is called with at point `t`: the invariant, what the core owes, the input's buffer at what it
    finds there, the output's at anything; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ X, owns (c : Thread nD τ) (ms0_1 t) fullShare X))

/-- and what it returns: the input's buffer at its block on the part inside the array, anything past it; the
    output's at anything. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare
        (win0_0.fill (grid0.coords t) d (win0_0.cut (grid0.coords t) ((dats m 0 c).after 0 t))))
    ∗ (∃ X, owns (c : Thread nD τ) (ms0_1 t) fullShare X))

set_option maxHeartbeats 1200000 in
/-- The body at any point: the input's buffer holds its block filled out with what was there (`before0_0`); the
    invariant opens to the two scratch columns (`PhiA0_eq`), which the run takes at some contents and hands back at
    some contents; the input's buffer comes back as it was, which on the part inside the array is the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, after0_0]
  rw [show (dats m 0 c).Φ t.succ = (Pipeline.ΦA spec0 c : sProp 𝕄) from rfl,
    show (dats m 0 c).Φ t.castSucc = (Pipeline.ΦA spec0 c : sProp 𝕄) from rfl,
    show (dats m 0 c).owesAt () t.succ = (dats m 0 c).owesAt () t.castSucc from rfl, PhiA0_eq]
  iintro ⟨⟨⟨HS0, HS1⟩, Hr⟩, Ho, ⟨%d0, H0⟩, H1⟩
  iapply (body_any c t (win0_0.fill (grid0.coords t) d0 (iblk m c t)) _)
  isplitl [H0]; · iexact H0
  isplitl [H1]; · iexact H1
  isplitl [HS0]; · iexact HS0
  isplitl [HS1]; · iexact HS1
  iintro ⟨H0, H1, HS0, HS1⟩
  isplitl [HS0 HS1 Hr]
  · isplitl [HS0 HS1]
    · isplitl [HS0]; · iexact HS0
      iexact HS1
    iexact Hr
  isplitl [Ho]; · iexact Ho
  isplitl [H0]
  · iexists d0
    unfold iblkF; rw [win0_0.cut_fill]; iexact H0
  iexact H1

/-- The library's body obligation, in the form the loop uses (the input window stated on the moved part), the output
    window forgotten. -/
theorem body_obligation (c : Dev nD) :
    BodyObligationLoose (dats (F := F) m 0 c) (defs₀ (F := F)) Variants.none () Set.univ forgets0 := fun t => by
  rw [bigSep_W0, bigSep_W0]
  exact sound_body m c t

end Cert.Kernel.Hand

end
-- ==== Proof.K.Arg1.lean ====
/-
  No host operation after the region writes the program's second argument (the targets): every one of them writes
  only its own result buffer, a reference different from that argument. One fact per stretch of operations.
-/
import proofs.«131330_j46755013984641_2_alg».proof.Proof.Gen.Kernel.Launch
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]

/-- No operation of this stretch writes the second argument. -/
theorem hostOps1_keeps1 : (hostOps1 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_1_keeps1 : (hostOps1_1 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_2_keeps1 : (hostOps1_2 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_3_keeps1 : (hostOps1_3 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_4_keeps1 : (hostOps1_4 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_5_keeps1 : (hostOps1_5 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_6_keeps1 : (hostOps1_6 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_7_keeps1 : (hostOps1_7 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_8_keeps1 : (hostOps1_8 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_9_keeps1 : (hostOps1_9 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_10_keeps1 : (hostOps1_10 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_11_keeps1 : (hostOps1_11 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_12_keeps1 : (hostOps1_12 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

end Cert.Kernel.Hand

end
-- ==== Proof.TailK.Fresh.lean ====
/-
  The host operations that follow the region allocate nothing: each writes its own result buffer, which the
  program's signature already holds, so its set of freshly allocated buffers is empty. One fact per stretch.
-/
import proofs.«131330_j46755013984641_2_alg».proof.Proof.Gen.Kernel.Launch
import Idealize.ShloMosaic.Lib.Pipeline.FrameSuffix

noncomputable section

namespace Cert.Kernel.Tail

open Idealize.ShloMosaic Idealize.ShloMosaic.TcCoe
open Idealize.SL Idealize.SL.Sem
open Cert.Kernel.Gen

variable {F : FTy → Type} [FloatOps F]

/-- No operation of this stretch allocates a buffer. -/
theorem hostOps1_fresh : (hostOps1 : List (HloOp τ sig (Elt F))).Forall fun op => op.fresh = ∅ := by
  simp only [List.Forall]; repeat' constructor

/-- No operation of this stretch allocates a buffer. -/
theorem hostOps1_1_fresh : (hostOps1_1 : List (HloOp τ sig (Elt F))).Forall fun op => op.fresh = ∅ := by
  simp only [List.Forall]; repeat' constructor

/-- No operation of this stretch allocates a buffer. -/
theorem hostOps1_2_fresh : (hostOps1_2 : List (HloOp τ sig (Elt F))).Forall fun op => op.fresh = ∅ := by
  simp only [List.Forall]; repeat' constructor

/-- No operation of this stretch allocates a buffer. -/
theorem hostOps1_3_fresh : (hostOps1_3 : List (HloOp τ sig (Elt F))).Forall fun op => op.fresh = ∅ := by
  simp only [List.Forall]; repeat' constructor

/-- No operation of this stretch allocates a buffer. -/
theorem hostOps1_4_fresh : (hostOps1_4 : List (HloOp τ sig (Elt F))).Forall fun op => op.fresh = ∅ := by
  simp only [List.Forall]; repeat' constructor

/-- No operation of this stretch allocates a buffer. -/
theorem hostOps1_5_fresh : (hostOps1_5 : List (HloOp τ sig (Elt F))).Forall fun op => op.fresh = ∅ := by
  simp only [List.Forall]; repeat' constructor

/-- No operation of this stretch allocates a buffer. -/
theorem hostOps1_6_fresh : (hostOps1_6 : List (HloOp τ sig (Elt F))).Forall fun op => op.fresh = ∅ := by
  simp only [List.Forall]; repeat' constructor

/-- No operation of this stretch allocates a buffer. -/
theorem hostOps1_7_fresh : (hostOps1_7 : List (HloOp τ sig (Elt F))).Forall fun op => op.fresh = ∅ := by
  simp only [List.Forall]; repeat' constructor

/-- No operation of this stretch allocates a buffer. -/
theorem hostOps1_8_fresh : (hostOps1_8 : List (HloOp τ sig (Elt F))).Forall fun op => op.fresh = ∅ := by
  simp only [List.Forall]; repeat' constructor

/-- No operation of this stretch allocates a buffer. -/
theorem hostOps1_9_fresh : (hostOps1_9 : List (HloOp τ sig (Elt F))).Forall fun op => op.fresh = ∅ := by
  simp only [List.Forall]; repeat' constructor

/-- No operation of this stretch allocates a buffer. -/
theorem hostOps1_10_fresh : (hostOps1_10 : List (HloOp τ sig (Elt F))).Forall fun op => op.fresh = ∅ := by
  simp only [List.Forall]; repeat' constructor

/-- No operation of this stretch allocates a buffer. -/
theorem hostOps1_11_fresh : (hostOps1_11 : List (HloOp τ sig (Elt F))).Forall fun op => op.fresh = ∅ := by
  simp only [List.Forall]; repeat' constructor

/-- No operation of this stretch allocates a buffer. -/
theorem hostOps1_12_fresh : (hostOps1_12 : List (HloOp τ sig (Elt F))).Forall fun op => op.fresh = ∅ := by
  simp only [List.Forall]; repeat' constructor

end Cert.Kernel.Tail

end
-- ==== Proof.TailK.Keep.lean ====
/-
  No host operation after the region writes one of the pipeline's two arrays: the first window's array is the
  program's first argument, the second window's array is the region's result, and every later operation writes
  only its own result buffer, a reference different from both. One fact per stretch, then one over the two windows.
-/
import proofs.«131330_j46755013984641_2_alg».proof.Proof.Gen.Kernel.Launch
import Idealize.ShloMosaic.Lib.Pipeline.FrameSuffix

noncomputable section

namespace Cert.Kernel.Tail

open Idealize.ShloMosaic Idealize.ShloMosaic.TcCoe
open Idealize.SL Idealize.SL.Sem
open Cert.Kernel.Gen

variable {F : FTy → Type} [FloatOps F]

/-- The two windows' arrays: the first argument and the region's result. -/
theorem arrRef_cases (w : Fin 2) : Pipeline.arrRef (cfgs 0).spec w = main_arg0 ∨ Pipeline.arrRef (cfgs 0).spec w = main_v0 := by
  fin_cases w
  · exact Or.inl rfl
  · exact Or.inr rfl

/-- No operation of this stretch writes the first argument or the region's result. -/
theorem hostOps1_keeps : (hostOps1 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_1_keeps : (hostOps1_1 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_2_keeps : (hostOps1_2 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_3_keeps : (hostOps1_3 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_4_keeps : (hostOps1_4 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_5_keeps : (hostOps1_5 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_6_keeps : (hostOps1_6 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_7_keeps : (hostOps1_7 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_8_keeps : (hostOps1_8 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_9_keeps : (hostOps1_9 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_10_keeps : (hostOps1_10 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_11_keeps : (hostOps1_11 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_12_keeps : (hostOps1_12 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

end Cert.Kernel.Tail

end
-- ==== Proof.TailK.Main.lean ====
/-
  The host tail of @main: the thirteen stretches of host operations that follow the region, as one list, with the
  four facts the frame run around a region asks of the lines after it — they touch only the pipeline's arrays and
  the buffers that bypass the region, they allocate nothing, they write neither array, and @main is the region
  continued by exactly these lines.
-/
import proofs.«131330_j46755013984641_2_alg».proof.Proof.TailK.Fresh
import proofs.«131330_j46755013984641_2_alg».proof.Proof.TailK.Keep

noncomputable section

namespace Cert.Kernel.Tail

open Idealize.ShloMosaic Idealize.ShloMosaic.TcCoe
open Idealize.SL Idealize.SL.Sem
open Cert.Kernel.Gen

variable {F : FTy → Type} [FloatOps F]

/-- The stretches of host operations after the region, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Membership in the list of stretches, as the thirteen cases. -/
theorem mem_tailOps {ops : List (HloOp τ sig (Elt F))} (h : ops ∈ (tailOps (F := F))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 ∨ ops = hostOps1_10 ∨ ops = hostOps1_11 ∨ ops = hostOps1_12 := by
  simpa only [tailOps, List.mem_cons, List.mem_nil_iff, or_false] using h

/-- Every operation of every stretch touches TensorCore references only. -/
theorem tail_tcRefs : ∀ ops ∈ (tailOps (F := F)), ∀ op ∈ ops, op.bufs ⊆ StableHlo.tcRefs τ sig := by
  intro ops hops op hop
  rcases mem_tailOps hops with rfl | rfl | rfl | rfl | rfl | rfl | rfl | rfl | rfl | rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
  · exact (List.forall_iff_forall_mem.mp hostOps1_4_sub) op hop
  · exact (List.forall_iff_forall_mem.mp hostOps1_5_sub) op hop
  · exact (List.forall_iff_forall_mem.mp hostOps1_6_sub) op hop
  · exact (List.forall_iff_forall_mem.mp hostOps1_7_sub) op hop
  · exact (List.forall_iff_forall_mem.mp hostOps1_8_sub) op hop
  · exact (List.forall_iff_forall_mem.mp hostOps1_9_sub) op hop
  · exact (List.forall_iff_forall_mem.mp hostOps1_10_sub) op hop
  · exact (List.forall_iff_forall_mem.mp hostOps1_11_sub) op hop
  · exact (List.forall_iff_forall_mem.mp hostOps1_12_sub) op hop

/-- The lines after the region touch the pipeline's arrays and the bypassing buffers only: each operation's buffers are
    unscoped TensorCore references, and with nothing prefetched every such reference is one or the other. -/
theorem hsub : ∀ ops ∈ (tailOps (F := F)), ∀ op ∈ ops,
    op.bufs ⊆ Pipeline.tailRefs sig Pipeline.Prefetch.none (cfgs 0).spec := by
  rw [Pipeline.tailRefs_none (cfgs 0).spec launch0.win.arr_unscoped]
  intro ops hops op hop
  exact Pipeline.sub_ucRefs op (tail_tcRefs ops hops op hop)

/-- They allocate nothing. -/
theorem hfresh : ∀ ops ∈ (tailOps (F := F)), ∀ op ∈ ops, op.fresh = ∅ := by
  intro ops hops op hop
  rcases mem_tailOps hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- No operation of any stretch writes the first argument or the region's result. -/
theorem tail_keeps : ∀ ops ∈ (tailOps (F := F)), ∀ op ∈ ops,
    Proc.devRef (τ := τ) .tc main_arg0 ∉ op.writes ∧ Proc.devRef (τ := τ) .tc main_v0 ∉ op.writes := by
  intro ops hops op hop
  rcases mem_tailOps hops with rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop

/-- And write no array of the pipeline. -/
theorem hkeep : ∀ ops ∈ (tailOps (F := F)), ∀ op ∈ ops, ∀ w,
    Proc.devRef .tc (Pipeline.arrRef (cfgs 0).spec w) ∉ op.writes := by
  intro ops hops op hop w
  rcases arrRef_cases w with e | e
  · rw [e]; exact (tail_keeps ops hops op hop).1
  · rw [e]; exact (tail_keeps ops hops op hop).2

/-- @main is the region continued by the lines after it, nothing before it: from the launch contents it reduces to
    the region's call followed by the thirteen stretches, the unscoped buffers still at the launch contents. -/
theorem hmain (𝒱₀ : Variants) (m : (ℓ : Loc nD τ sig) → Buf (Elt F) ℓ) :
    Pipeline.HMainK (Ix := Unit) (Name := ℕ) (U := UR sig nD τ) (Lvl := ℕ) cfgs 0 defs₀ 𝒱₀ m (main (F := F))
      (fun c b => m ((c.tc : Thread nD τ).loc b))
      (fun _ => Pipeline.chain ((tailOps (F := F)).map StableHlo.seq)) :=
  Pipeline.hmain_around cfgs 0 defs₀ 𝒱₀ m main [] tailOps (by simp only [List.Forall]) (by simp only [List.Forall])
    main_chain

end Cert.Kernel.Tail

end
-- ==== Proof.K.Frame.lean ====
/-
  The frame of the streaming log-sum-exp program: from any launch memory with zero counters, every weakly fair
  execution of @main terminates without a fault and leaves both arguments as they were.

  @main is the kernel's region followed by host operations. The region stages the first argument through its
  input window and never writes it: after the run the array holds what it held at entry. The second argument is
  staged by no window and is written by no host operation after the region (each writes its own result buffer), so it
  bypasses the region and is among the buffers left untouched to the end. Nothing is claimed of what the kernel
  stores: the output window is forgotten, and the set of buffers the later operations may write is everything but
  the second argument.
-/
import proofs.«131330_j46755013984641_2_alg».proof.Proof.K.Body
import proofs.«131330_j46755013984641_2_alg».proof.Proof.K.Arg1
import proofs.«131330_j46755013984641_2_alg».proof.Proof.TailK.Main

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

/-- The launch memory of core `c`, buffer by buffer. -/
abbrev V₀ (c : Dev nD) : Valuation τ sig (Elt F) := fun b => m (c, b)

/-- The buffers the operations after the region may write: every one but the second argument. -/
abbrev T : Finset (Ref sig .tc) := Finset.univ.erase main_arg1

/-- No operation after the region writes the second argument. -/
theorem tail_keeps1 : ∀ ops ∈ (Tail.tailOps (F := F)), ∀ op ∈ ops,
    Proc.devRef (τ := τ) .tc main_arg1 ∉ op.writes := by
  intro ops hops op hop
  rcases Tail.mem_tailOps hops with rfl | rfl | rfl | rfl | rfl | rfl | rfl | rfl | rfl | rfl | rfl | rfl | rfl
  · exact (List.forall_iff_forall_mem.mp hostOps1_keeps1) op hop
  · exact (List.forall_iff_forall_mem.mp hostOps1_1_keeps1) op hop
  · exact (List.forall_iff_forall_mem.mp hostOps1_2_keeps1) op hop
  · exact (List.forall_iff_forall_mem.mp hostOps1_3_keeps1) op hop
  · exact (List.forall_iff_forall_mem.mp hostOps1_4_keeps1) op hop
  · exact (List.forall_iff_forall_mem.mp hostOps1_5_keeps1) op hop
  · exact (List.forall_iff_forall_mem.mp hostOps1_6_keeps1) op hop
  · exact (List.forall_iff_forall_mem.mp hostOps1_7_keeps1) op hop
  · exact (List.forall_iff_forall_mem.mp hostOps1_8_keeps1) op hop
  · exact (List.forall_iff_forall_mem.mp hostOps1_9_keeps1) op hop
  · exact (List.forall_iff_forall_mem.mp hostOps1_10_keeps1) op hop
  · exact (List.forall_iff_forall_mem.mp hostOps1_11_keeps1) op hop
  · exact (List.forall_iff_forall_mem.mp hostOps1_12_keeps1) op hop

/-- So whatever they write is in `T`. -/
theorem hT : ∀ ops ∈ (Tail.tailOps (F := F)), ∀ op ∈ ops, ∀ b : Ref sig .tc,
    Proc.devRef (τ := τ) .tc b ∈ op.writes → b ∈ T := by
  intro ops hops op hop b hb
  refine Finset.mem_erase.mpr ⟨?_, Finset.mem_univ b⟩
  rintro rfl
  exact tail_keeps1 ops hops op hop hb

/-- The second argument bypasses the region — it is unscoped and no window's array — and is outside `T`. -/
theorem arg1_mem : main_arg1 ∈ Pipeline.restRefs sig (cfgs 0).spec \ T := by
  refine Finset.mem_sdiff.mpr ⟨Pipeline.mem_restRefs_of main_arg1 rfl fun w => ?_, fun h => (Finset.mem_erase.mp h).1 rfl⟩
  rcases Tail.arrRef_cases w with e | e
  · rw [show ((cfgs 0).spec w).arr.view.ref = Pipeline.arrRef (cfgs 0).spec w from rfl, e]; decide
  · rw [show ((cfgs 0).spec w).arr.view.ref = Pipeline.arrRef (cfgs 0).spec w from rfl, e]; decide

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has the input array at contents it may hold after every
    write-back (its entry contents: it is never written), nothing stated of the forgotten output, and every
    bypassing buffer outside `T` — the second argument — as the region found it. -/
theorem run_main : θ_run defs (onTc (τ := τ) (main (F := F))) (s₀ m ρ)
    (Pipeline.RDat.FramePostR (cfgs 0) (fun c => (dats m 0 c).toRForget forgets0) T (fun c b => V₀ m c (Proc.devRef .tc b))) :=
  Pipeline.RDat.θ_run_frame_around_T cfgs (0 : Fin 1) launch0 defs₀ Variants.none (fun c => (dats m 0 c).toRForget forgets0) T m ρ main
    (hbody := fun c => (body_obligation m c).toRForget)
    (hshare := fun c => ((dats m 0 c).toRForget forgets0).share_full fun _ => rfl)
    (howed := fun _ _ => rfl)
    (V₀ := V₀ m) (opss := Tail.tailOps)
    (hsub := Tail.hsub) (hfresh := Tail.hfresh) (hkeep := Tail.hkeep) (hT := hT)
    (hmain := Tail.hmain Variants.none m)
    (hA := A_eq m) (hΦ := fun _ _ => rfl)

/-- info: 'Cert.Kernel.Hand.run_main' depends on axioms: [propext, Classical.choice, Quot.sound] -/
#guard_msgs in #print axioms run_main

/-- THE FRAME, at any `F`: both arguments end as launched. The first is the input window's array, never written
    (`RDat.ArrAt_in`); the second bypasses the region and is outside `T`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets0).ArrAt_in 0 rfl _) _) ((h c).1 0)).trans (A_eq m c 0),
     (h c).2 main_arg1 arg1_mem⟩) (run_main m ρ)

end Cert.Kernel.Hand

end
-- ==== Proof.KI.Base.lean ====
/-
  The streaming log-sum-exp kernel, point by point: what decides which of its three branches a grid
  point takes, and where its windows are idle.

  The grid is 4 row blocks by 27 column tiles, walked row-major: point t is row block t / 27, column
  tile t % 27. The body's three conditionals read only the column-tile coordinate j = t % 27:
  j = 0 seeds the running maximum and the running sum, j < 26 folds a full tile into them, j = 26
  folds the last (partial, masked) tile and stores maximum + log(sum) to the output block. So a point
  is in exactly one of three cases: first tile (seed, then fold), middle tile (fold), last tile
  (masked fold, then store). The output block is stored — and written back — only at the last tile
  of each row block; at every other point its staging buffer is handed back untouched.
-/
import proofs.«131330_j46755013984641_2_alg».proof.Proof.Gen.KernelIdeal.Launch
import proofs.«131330_j46755013984641_2_alg».proof.Proof.Gen.KernelIdeal.Skeleton
import proofs.«131330_j46755013984641_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- "This is the first column tile": the body's first conditional, as a chain over the coordinates. -/
abbrev cond0_0 (i : grid0.Coords) : Prop := (Scalar.cmpi .ne (Scalar.extui (Scalar.cmpi .eq (BitVec.ofNat 32 (i 1).val) 0#32)) 0#32) = 1#1
/-- It holds exactly at the points whose column tile is 0. -/
theorem hcond0_0 : ∀ t : Fin cfg0.N, cond0_0 (grid0.coords t) ↔ t.val % 27 = 0 :=
  (by decide +kernel : ∀ t : Fin grid0.N, cond0_0 (grid0.coords t) ↔ t.val % 27 = 0)

/-- "This is not the last column tile": the second conditional. -/
abbrev cond0_1 (i : grid0.Coords) : Prop := (Scalar.cmpi .ne (Scalar.extui (Scalar.cmpi .slt (BitVec.ofNat 32 (i 1).val) 26#32)) 0#32) = 1#1
/-- It holds exactly at the points whose column tile is below 26. -/
theorem hcond0_1 : ∀ t : Fin cfg0.N, cond0_1 (grid0.coords t) ↔ t.val % 27 < 26 :=
  (by decide +kernel : ∀ t : Fin grid0.N, cond0_1 (grid0.coords t) ↔ t.val % 27 < 26)

/-- "This is the last column tile": the third conditional. -/
abbrev cond0_2 (i : grid0.Coords) : Prop := k0_cond3 i = 1#1
/-- It holds exactly at the points whose column tile is 26. -/
theorem hcond0_2 : ∀ t : Fin cfg0.N, cond0_2 (grid0.coords t) ↔ t.val % 27 = 26 :=
  (by decide +kernel : ∀ t : Fin grid0.N, cond0_2 (grid0.coords t) ↔ t.val % 27 = 26)

/-- The column-tile coordinate of point t is t % 27, the row-block coordinate t / 27. -/
theorem coords_col : ∀ t : Fin cfg0.N, ((grid0.coords t) 1).val = t.val % 27 :=
  (by decide +kernel : ∀ t : Fin grid0.N, ((grid0.coords t) 1).val = t.val % 27)
theorem coords_row : ∀ t : Fin cfg0.N, ((grid0.coords t) 0).val = t.val / 27 :=
  (by decide +kernel : ∀ t : Fin grid0.N, ((grid0.coords t) 0).val = t.val / 27)

/-! ## Where the windows are idle -/

/-- The input window is never idle. -/
theorem liveAt0_0 : ∀ t : Fin cfg0.N, cfg0.idle 0 (grid0.coords t) = false := by decide +kernel
/-- Off the last column tile the output window is idle, -/
theorem idleAt0_1 : ∀ t : Fin cfg0.N, ¬cond0_2 (grid0.coords t) → cfg0.idle 1 (grid0.coords t) = true := by decide +kernel
/-- and its block is not written back there; -/
theorem noFlush0_1 : ∀ t : Fin cfg0.N, ¬cond0_2 (grid0.coords t) → (cfg0.win 1).flush t = false := by decide +kernel
/-- at the last column tile it is live. -/
theorem liveAt0_1 : ∀ t : Fin cfg0.N, cond0_2 (grid0.coords t) → cfg0.idle 1 (grid0.coords t) = false := by decide +kernel
/-- The output window is never fetched. -/
theorem noFetch0_1 : ∀ t : Fin cfg0.N, (cfg0.win 1).fetch t = false := by decide +kernel

/-! ## The memrefs the body is called with -/

abbrev ms0_0 (t : Fin cfg0.N) : Memref sig .tc .vmem S1024x1920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The running maximum's column and the running sum's column: the kernel's two scratch buffers. -/
abbrev scM0_0 : Memref sig .tc .vmem S1024x1 .f32 := Memref.whole cc0_scratch0
abbrev scM0_1 : Memref sig .tc .vmem S1024x1 .f32 := Memref.whole cc0_scratch1

/-- The region's own invariant, opened: the two scratch columns each owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Spec.lean ====
/-
  The quantity both programs compute per row: the log-sum-exp of a finite family of reals,
  log (∑ₖ exp (x k)), written without any shift. For every real a,
  a + log (∑ₖ exp (x k - a)) is this number (exp a · ∑ₖ exp (x k - a) = ∑ₖ exp (x k), all terms
  positive), so a running maximum, a finite stand-in for it, or the true row maximum as the shift
  all give the same value.
-/
import Mathlib.Analysis.SpecialFunctions.Log.Basic
import Mathlib.Analysis.SpecialFunctions.Exp

namespace Cert.Lse

/-- log (∑ₖ exp (x k)) over a finite index type. -/
noncomputable def lse {ι : Type*} [Fintype ι] (x : ι → ℝ) : ℝ := Real.log (∑ k, Real.exp (x k))

/-- The sum under the logarithm is positive when the family is not empty. -/
theorem sum_exp_pos {ι : Type*} [Fintype ι] [Nonempty ι] (x : ι → ℝ) : 0 < ∑ k, Real.exp (x k) :=
  Finset.sum_pos (fun k _ => Real.exp_pos (x k)) Finset.univ_nonempty

/-- Shift invariance: a + log (∑ₖ exp (x k - a)) = log (∑ₖ exp (x k)). -/
theorem shift_add_log {ι : Type*} [Fintype ι] [Nonempty ι] (x : ι → ℝ) (a : ℝ) :
    a + Real.log (∑ k, Real.exp (x k - a)) = lse x := by
  unfold lse
  have h : ∑ k, Real.exp (x k) = Real.exp a * ∑ k, Real.exp (x k - a) := by
    rw [Finset.mul_sum]
    exact Finset.sum_congr rfl fun k _ => by rw [← Real.exp_add]; congr 1; ring
  have hp : 0 < ∑ k, Real.exp (x k - a) := sum_exp_pos fun k => x k - a
  rw [h, Real.log_mul (Real.exp_pos a).ne' hp.ne', Real.log_exp]

end Cert.Lse
-- ==== Proof.KI.Data.lean ====
/-
  The idealized kernel's run on real inputs: what its buffers hold, point by point.

  Fix the input matrix's real entries xr (every entry of pred is a real under the precondition).
  Point t works on row block t / 27 and column tile t % 27; after it, columns
  0 … min(1920·(t % 27 + 1), 50257) − 1 of the block's rows have been folded in. The two scratch
  columns then hold, for each row, a real shift a and a real sum s with

      s · exp a = ∑ (k among the columns folded so far) exp (x k)

  — the running maximum is only ONE admissible shift; the identity holds for whatever shift the
  recurrence carried (here: the maximum of the finite stand-in for −∞ and the entries so far), and
  it is all the final value needs: once every column is in, a + log s = log ∑ₖ exp (x k). That
  number, the row's log-sum-exp, is what the output block holds after the last column tile.
-/
import proofs.«131330_j46755013984641_2_alg».proof.Proof.KI.Base
import proofs.«131330_j46755013984641_2_alg».proof.Proof.Spec
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (xr : Dev nD → Fin 4096 → Fin 50257 → ℝ)

/-- Core c's buffers when the region is entered: as launched (@main starts with the region). -/
abbrev V (c : Dev nD) (b : Ref sig .tc) : Buf (Elt Ideal) ((c : Thread nD τ).loc b) := m ((c : Thread nD τ).loc b)

/-- Window w's block at point t, read off its array: the part of the block inside the array. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The array row that row q of point n's block is: 1024 · (n / 27) + q (reduced mod 4096 only to
    be a row number without a side condition; for n < 108 and q < 1024 nothing is reduced). -/
def rowOf (n q : ℕ) : Fin 4096 := ⟨(1024 * (n / 27) + q) % 4096, Nat.mod_lt _ (by norm_num)⟩

/-- How many columns of the row have been folded in after point n. -/
def colsDone (n : ℕ) : ℕ := min (1920 * (n % 27 + 1)) 50257

/-- The output block at point n: each row's log-sum-exp. -/
def lseBlk (c : Dev nD) (n : ℕ) : Vec Ideal S1024x1 .f32 :=
  fun y => ((Cert.Lse.lse (xr c (rowOf n (y 0).val)) : ℝ) : EReal)

/-- What the two scratch columns hold after point n: per row a real shift and a real sum, whose
    product sum · exp shift is the sum of the exponentials of the columns folded so far. -/
def Good (c : Dev nD) (n : ℕ) (sm ss : Vec Ideal S1024x1 .f32) : Prop :=
  ∀ r : Fin 1024, ∃ a s : ℝ, sm (ix2 r (0 : Fin 1)) = ((a : ℝ) : EReal) ∧ ss (ix2 r (0 : Fin 1)) = ((s : ℝ) : EReal) ∧
    s * Real.exp a = ∑ k ∈ (Finset.univ.filter fun k : Fin 50257 => k.val < colsDone n), Real.exp (xr c (rowOf n r.val) k)

/-- The region's invariant before point n: before the first point the region's own (the scratch
    columns at anything); afterwards the scratch columns at contents the point before left `Good`. -/
def PhiS (c : Dev nD) : (n : ℕ) → sProp 𝕄
  | 0 => Pipeline.ΦA spec0 c
  | n + 1 => iprop(iprop(∃ sm ss, ⌜Good xr c n sm ss⌝ ∗ owns (c : Thread nD τ) scM0_0 fullShare sm ∗ owns (c : Thread nD τ) scM0_1 fullShare ss) ∗ (∃ r, prngReg c r))

theorem PhiS_zero (c : Dev nD) : PhiS xr c 0 = Pipeline.ΦA spec0 c := rfl
theorem PhiS_succ (c : Dev nD) (n : ℕ) :
    PhiS xr c (n + 1) = iprop(iprop(∃ sm ss, ⌜Good xr c n sm ss⌝ ∗ owns (c : Thread nD τ) scM0_0 fullShare sm ∗ owns (c : Thread nD τ) scM0_1 fullShare ss) ∗ (∃ r, prngReg c r)) := rfl
theorem PhiS_pos (c : Dev nD) (n : ℕ) (hz : n ≠ 0) :
    PhiS xr c n = iprop(iprop(∃ sm ss, ⌜Good xr c (n - 1) sm ss⌝ ∗ owns (c : Thread nD τ) scM0_0 fullShare sm ∗ owns (c : Thread nD τ) scM0_1 fullShare ss) ∗ (∃ r, prngReg c r)) := by
  cases n with
  | zero => exact absurd rfl hz
  | succ n => rfl

/-- The proof data of the one pipeline on core c: the arrays as launched; after the body at point t
    the input's staging buffer holds its block (zero past the array's edge, where nothing is stated),
    the output's holds the rows' log-sum-exps; the invariant is `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => lseBlk xr c t.val
  Φ t := PhiS xr c t.val
  q _ := fullShare
  owed _ := 0

theorem A_eq (c : Dev nD) (w : Fin cfg0.W) : (dats m xr 0 c).A w = V m c (Pipeline.arrRef spec0 w) := by
  dsimp only [dats]
theorem Phi_eq (c : Dev nD) (t : Fin (cfg0.N + 1)) : (dats m xr 0 c).Φ t = PhiS xr c t.val := by
  dsimp only [dats]
theorem after0_0 (c : Dev nD) (t : Fin cfg0.N) :
    (dats m xr 0 c).after 0 t = win0_0.fill (grid0.coords t) (fun _ => (0 : EReal)) (iblk m c 0 t) := by dsimp only [dats]
theorem after0_1 (c : Dev nD) (t : Fin cfg0.N) : (dats m xr 0 c).after 1 t = lseBlk xr c t.val := by dsimp only [dats]

/-- The input window is fetched at every point: its staging buffer holds the block where the fetch
    landed it and contents nothing names (`d`) past the array's edge. -/
theorem before0_0 (c : Dev nD) (t : Fin cfg0.N) (d) :
    (dats m xr 0 c).before 0 t d = win0_0.fill (grid0.coords t) d (iblk m c 0 t) := by
  unfold Dat.before; rw [if_pos (fetch0_0 t)]; rfl

end Cert.KernelIdeal.Hand

end
-- ==== Proof.Tail.Fresh.lean ====
/-
  The host operations that follow the region allocate nothing: each writes its own result buffer, which the
  program's signature already holds, so its set of freshly allocated buffers is empty. One fact per stretch.
-/
import proofs.«131330_j46755013984641_2_alg».proof.Proof.Gen.KernelIdeal.Launch
import Idealize.ShloMosaic.Lib.Pipeline.FrameSuffix

noncomputable section

namespace Cert.KernelIdeal.Tail

open Idealize.ShloMosaic Idealize.ShloMosaic.TcCoe
open Idealize.SL Idealize.SL.Sem
open Cert.KernelIdeal.Gen

variable {F : FTy → Type} [FloatOps F]

/-- No operation of this stretch allocates a buffer. -/
theorem hostOps1_fresh : (hostOps1 : List (HloOp τ sig (Elt F))).Forall fun op => op.fresh = ∅ := by
  simp only [List.Forall]; repeat' constructor

/-- No operation of this stretch allocates a buffer. -/
theorem hostOps1_1_fresh : (hostOps1_1 : List (HloOp τ sig (Elt F))).Forall fun op => op.fresh = ∅ := by
  simp only [List.Forall]; repeat' constructor

/-- No operation of this stretch allocates a buffer. -/
theorem hostOps1_2_fresh : (hostOps1_2 : List (HloOp τ sig (Elt F))).Forall fun op => op.fresh = ∅ := by
  simp only [List.Forall]; repeat' constructor

/-- No operation of this stretch allocates a buffer. -/
theorem hostOps1_3_fresh : (hostOps1_3 : List (HloOp τ sig (Elt F))).Forall fun op => op.fresh = ∅ := by
  simp only [List.Forall]; repeat' constructor

/-- No operation of this stretch allocates a buffer. -/
theorem hostOps1_4_fresh : (hostOps1_4 : List (HloOp τ sig (Elt F))).Forall fun op => op.fresh = ∅ := by
  simp only [List.Forall]; repeat' constructor

/-- No operation of this stretch allocates a buffer. -/
theorem hostOps1_5_fresh : (hostOps1_5 : List (HloOp τ sig (Elt F))).Forall fun op => op.fresh = ∅ := by
  simp only [List.Forall]; repeat' constructor

/-- No operation of this stretch allocates a buffer. -/
theorem hostOps1_6_fresh : (hostOps1_6 : List (HloOp τ sig (Elt F))).Forall fun op => op.fresh = ∅ := by
  simp only [List.Forall]; repeat' constructor

/-- No operation of this stretch allocates a buffer. -/
theorem hostOps1_7_fresh : (hostOps1_7 : List (HloOp τ sig (Elt F))).Forall fun op => op.fresh = ∅ := by
  simp only [List.Forall]; repeat' constructor

/-- No operation of this stretch allocates a buffer. -/
theorem hostOps1_8_fresh : (hostOps1_8 : List (HloOp τ sig (Elt F))).Forall fun op => op.fresh = ∅ := by
  simp only [List.Forall]; repeat' constructor

/-- No operation of this stretch allocates a buffer. -/
theorem hostOps1_9_fresh : (hostOps1_9 : List (HloOp τ sig (Elt F))).Forall fun op => op.fresh = ∅ := by
  simp only [List.Forall]; repeat' constructor

/-- No operation of this stretch allocates a buffer. -/
theorem hostOps1_10_fresh : (hostOps1_10 : List (HloOp τ sig (Elt F))).Forall fun op => op.fresh = ∅ := by
  simp only [List.Forall]; repeat' constructor

/-- No operation of this stretch allocates a buffer. -/
theorem hostOps1_11_fresh : (hostOps1_11 : List (HloOp τ sig (Elt F))).Forall fun op => op.fresh = ∅ := by
  simp only [List.Forall]; repeat' constructor

/-- No operation of this stretch allocates a buffer. -/
theorem hostOps1_12_fresh : (hostOps1_12 : List (HloOp τ sig (Elt F))).Forall fun op => op.fresh = ∅ := by
  simp only [List.Forall]; repeat' constructor

end Cert.KernelIdeal.Tail

end
-- ==== Proof.Tail.Keep.lean ====
/-
  No host operation after the region writes one of the pipeline's two arrays: the first window's array is the
  program's first argument, the second window's array is the region's result, and every later operation writes
  only its own result buffer, a reference different from both. One fact per stretch, then one over the two windows.
-/
import proofs.«131330_j46755013984641_2_alg».proof.Proof.Gen.KernelIdeal.Launch
import Idealize.ShloMosaic.Lib.Pipeline.FrameSuffix

noncomputable section

namespace Cert.KernelIdeal.Tail

open Idealize.ShloMosaic Idealize.ShloMosaic.TcCoe
open Idealize.SL Idealize.SL.Sem
open Cert.KernelIdeal.Gen

variable {F : FTy → Type} [FloatOps F]

/-- The two windows' arrays: the first argument and the region's result. -/
theorem arrRef_cases (w : Fin 2) : Pipeline.arrRef (cfgs 0).spec w = main_arg0 ∨ Pipeline.arrRef (cfgs 0).spec w = main_v0 := by
  fin_cases w
  · exact Or.inl rfl
  · exact Or.inr rfl

/-- No operation of this stretch writes the first argument or the region's result. -/
theorem hostOps1_keeps : (hostOps1 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_1_keeps : (hostOps1_1 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_2_keeps : (hostOps1_2 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_3_keeps : (hostOps1_3 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_4_keeps : (hostOps1_4 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_5_keeps : (hostOps1_5 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_6_keeps : (hostOps1_6 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_7_keeps : (hostOps1_7 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_8_keeps : (hostOps1_8 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_9_keeps : (hostOps1_9 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_10_keeps : (hostOps1_10 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_11_keeps : (hostOps1_11 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the first argument or the region's result. -/
theorem hostOps1_12_keeps : (hostOps1_12 : List (HloOp τ sig (Elt F))).Forall fun op =>
    Proc.devRef (τ := τ) .tc main_arg0 ∉ op.writes ∧ Proc.devRef (τ := τ) .tc main_v0 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

end Cert.KernelIdeal.Tail

end
-- ==== Proof.Tail.Main.lean ====
/-
  The host tail of @main: the thirteen stretches of host operations that follow the region, as one list, with the
  four facts the frame run around a region asks of the lines after it — they touch only the pipeline's arrays and
  the buffers that bypass the region, they allocate nothing, they write neither array, and @main is the region
  continued by exactly these lines.
-/
import proofs.«131330_j46755013984641_2_alg».proof.Proof.Tail.Fresh
import proofs.«131330_j46755013984641_2_alg».proof.Proof.Tail.Keep

noncomputable section

namespace Cert.KernelIdeal.Tail

open Idealize.ShloMosaic Idealize.ShloMosaic.TcCoe
open Idealize.SL Idealize.SL.Sem
open Cert.KernelIdeal.Gen

variable {F : FTy → Type} [FloatOps F]

/-- The stretches of host operations after the region, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Membership in the list of stretches, as the thirteen cases. -/
theorem mem_tailOps {ops : List (HloOp τ sig (Elt F))} (h : ops ∈ (tailOps (F := F))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 ∨ ops = hostOps1_10 ∨ ops = hostOps1_11 ∨ ops = hostOps1_12 := by
  simpa only [tailOps, List.mem_cons, List.mem_nil_iff, or_false] using h

/-- Every operation of every stretch touches TensorCore references only. -/
theorem tail_tcRefs : ∀ ops ∈ (tailOps (F := F)), ∀ op ∈ ops, op.bufs ⊆ StableHlo.tcRefs τ sig := by
  intro ops hops op hop
  rcases mem_tailOps hops with rfl | rfl | rfl | rfl | rfl | rfl | rfl | rfl | rfl | rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
  · exact (List.forall_iff_forall_mem.mp hostOps1_4_sub) op hop
  · exact (List.forall_iff_forall_mem.mp hostOps1_5_sub) op hop
  · exact (List.forall_iff_forall_mem.mp hostOps1_6_sub) op hop
  · exact (List.forall_iff_forall_mem.mp hostOps1_7_sub) op hop
  · exact (List.forall_iff_forall_mem.mp hostOps1_8_sub) op hop
  · exact (List.forall_iff_forall_mem.mp hostOps1_9_sub) op hop
  · exact (List.forall_iff_forall_mem.mp hostOps1_10_sub) op hop
  · exact (List.forall_iff_forall_mem.mp hostOps1_11_sub) op hop
  · exact (List.forall_iff_forall_mem.mp hostOps1_12_sub) op hop

/-- The lines after the region touch the pipeline's arrays and the bypassing buffers only: each operation's buffers are
    unscoped TensorCore references, and with nothing prefetched every such reference is one or the other. -/
theorem hsub : ∀ ops ∈ (tailOps (F := F)), ∀ op ∈ ops,
    op.bufs ⊆ Pipeline.tailRefs sig Pipeline.Prefetch.none (cfgs 0).spec := by
  rw [Pipeline.tailRefs_none (cfgs 0).spec launch0.win.arr_unscoped]
  intro ops hops op hop
  exact Pipeline.sub_ucRefs op (tail_tcRefs ops hops op hop)

/-- They allocate nothing. -/
theorem hfresh : ∀ ops ∈ (tailOps (F := F)), ∀ op ∈ ops, op.fresh = ∅ := by
  intro ops hops op hop
  rcases mem_tailOps hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- No operation of any stretch writes the first argument or the region's result. -/
theorem tail_keeps : ∀ ops ∈ (tailOps (F := F)), ∀ op ∈ ops,
    Proc.devRef (τ := τ) .tc main_arg0 ∉ op.writes ∧ Proc.devRef (τ := τ) .tc main_v0 ∉ op.writes := by
  intro ops hops op hop
  rcases mem_tailOps hops with rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop

/-- And write no array of the pipeline. -/
theorem hkeep : ∀ ops ∈ (tailOps (F := F)), ∀ op ∈ ops, ∀ w,
    Proc.devRef .tc (Pipeline.arrRef (cfgs 0).spec w) ∉ op.writes := by
  intro ops hops op hop w
  rcases arrRef_cases w with e | e
  · rw [e]; exact (tail_keeps ops hops op hop).1
  · rw [e]; exact (tail_keeps ops hops op hop).2

/-- @main is the region continued by the lines after it, nothing before it: from the launch contents it reduces to
    the region's call followed by the thirteen stretches, the unscoped buffers still at the launch contents. -/
theorem hmain (𝒱₀ : Variants) (m : (ℓ : Loc nD τ sig) → Buf (Elt F) ℓ) :
    Pipeline.HMainK (Ix := Unit) (Name := ℕ) (U := UR sig nD τ) (Lvl := ℕ) cfgs 0 defs₀ 𝒱₀ m (main (F := F))
      (fun c b => m ((c.tc : Thread nD τ).loc b))
      (fun _ => Pipeline.chain ((tailOps (F := F)).map StableHlo.seq)) :=
  Pipeline.hmain_around cfgs 0 defs₀ 𝒱₀ m main [] tailOps (by simp only [List.Forall]) (by simp only [List.Forall])
    main_chain

end Cert.KernelIdeal.Tail

end
-- ==== Proof.KI.Launch.lean ====
/-
  The idealized kernel's launch: from the body obligation and the region invariant's two ends to the run of @main.

  @main is the kernel's region followed by the host operations that turn the column of row log-sum-exps into the
  loss. Given that the body, at every point, carries the proof data's invariant and leaves the staging buffers as
  the data say, every weakly fair execution of @main terminates, each array of the pipeline ends at what the data
  compute for it after every write-back, and every other buffer ends at what the host operations make of the
  contents the region leaves.
-/
import proofs.«131330_j46755013984641_2_alg».proof.Proof.KI.Data
import proofs.«131330_j46755013984641_2_alg».proof.Proof.Tail.Main

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (xr : Dev nD → Fin 4096 → Fin 50257 → ℝ) (ρ : Dev nD → PrngReg)

/-- The launch memory of core `c`, buffer by buffer. -/
abbrev V₀ (c : Dev nD) : Valuation τ sig (Elt Ideal) := fun b => m (c, b)

-- the launch theorem's implicit arguments are found by unifying its conclusion with this one, which takes unfolding
-- plain definitions in a metavariable's type
set_option backward.isDefEq.respectTransparency.types false in
/-- At the compiled mesh, from any memory with zero counters: if the body meets its obligation at every point
    (`hbody`) and the invariant starts from and ends in the region's own (`hin`, `hout`), every weakly fair execution
    of @main terminates, every array of the pipeline ends at what the proof data compute after every write-back, and
    every other unscoped buffer at what the host operations after the region make of the region's exit contents. -/
theorem run_main
    (hbody : ∀ c, BodyObligationLoose (dats m xr 0 c) (defs₀ (F := Ideal)) Variants.none () Set.univ)
    (hin : ∀ c, (Pipeline.ΦA spec0 c : sProp 𝕄) ⊢ (dats m xr 0 c).Φ 0)
    (hout : ∀ c, (dats m xr 0 c).Φ (Fin.last cfg0.N) ⊢ (Pipeline.ΦA spec0 c : sProp 𝕄)) :
    θ_run defs (onTc (τ := τ) (main (F := Ideal))) (s₀ m ρ)
      (Pipeline.FramePost cfgs (dats m xr) 0 (Pipeline.afterTail₀ cfgs (dats m xr) 0 (V₀ m) Tail.tailOps)) :=
  Pipeline.θ_run_frame_around_track cfgs (dats m xr) (0 : Fin 1) launch0 defs₀ Variants.none m ρ main
    (hbody := hbody)
    (hshare := fun c => (dats m xr 0 c).share_full fun _ => rfl)
    (howed := fun _ _ => rfl)
    (V₀ := V₀ m) (opss := Tail.tailOps)
    (hsub := Tail.hsub) (hfresh := Tail.hfresh) (hkeep := Tail.hkeep)
    (hmain := Tail.hmain Variants.none m)
    (hA := A_eq m xr) (hin := hin) (hout := hout)

end Cert.KernelIdeal.Hand

end
-- ==== Proof.Bridge.KTail.lean ====
import proofs.«131330_j46755013984641_2_alg».proof.KernelIdeal
import Idealize.ShloMosaic.PureOps.Ideal

/-! The host tail of the kernel program as one pure term: the operations after the streamed log-sum-exp
    column, each operand replaced by the term of the operation that produces it. -/

noncomputable section

namespace Cert.KernelIdeal.Tail

open Cert.KernelIdeal Idealize.ShloMosaic

variable [Facts]
open Facts₀ Facts

/-- The row numbers 0 … 4095. -/
def iota : IVec S4096 32 := iotaInDim S4096 32 0

/-- A 32-bit integer constant on every row. -/
def bI (v : BitVec 32) : IVec S4096 32 := broadcastInDim S4096 ![] bcast_S_S4096 (constantI S_ 32 v)

/-- A float constant (given by its word) on every row. -/
def bF (w : BitVec 32) : FVec Ideal S4096 .f32 :=
  broadcastInDim S4096 ![] bcast_S_S4096 (constant (F := Ideal) S_ .f32 w)

/-- The row numbers with a negative one wrapped by the row count. -/
def rowIdx : IVec S4096 32 := select (cmpi .slt iota (bI 0#32)) (addi iota (bI 4096#32)) iota

/-- A column number with a negative one wrapped by the column count. -/
def wrap (t : IVec S4096 32) : IVec S4096 32 := select (cmpi .slt t (bI 0#32)) (addi t (bI 50257#32)) t

/-- A column number clipped into 0 … 50256. -/
def clip (t : IVec S4096 32) : IVec S4096 32 :=
  minsi (broadcastInDim S4096 ![] bcast_S_S4096 (id (constantI S_ 32 50256#32)))
    (maxsi (broadcastInDim S4096 ![] bcast_S_S4096 (id (constantI S_ 32 0#32))) t)

/-- The left neighbour's column, clipped. -/
def colL (x1 : IVec S4096 32) : IVec S4096 32 := clip (subi x1 (bI 1#32))

/-- The right neighbour's column, clipped. -/
def colR (x1 : IVec S4096 32) : IVec S4096 32 := clip (addi x1 (bI 1#32))

/-- The (row, column) pairs a gather reads: the wrapped row numbers beside the wrapped columns. -/
def idx (t : IVec S4096 32) : IVec S4096x2 32 :=
  concatenate S4096x2 1
    [⟨S4096x1, broadcastInDim S4096x1 ![0] bcast_S4096_S4096x1_0 rowIdx⟩,
     ⟨S4096x1, broadcastInDim S4096x1 ![0] bcast_S4096_S4096x1_0 (wrap t)⟩]
    concatenates_S4096x1_S4096x1_S4096x2_d1

/-- One entry per row of `x`, at the column `t` names. -/
def gat (x : FVec Ideal S4096x50257 .f32) (t : IVec S4096 32) : FVec Ideal S4096 .f32 :=
  Host.gather gather_S4096x50257_S4096x2_S4096_n_01_n_n_01_1_11 x (idx t)

/-- The left neighbour's weight: 0 at column 0, 0.2 at the last column, 0.1 elsewhere. -/
def wL (x1 : IVec S4096 32) : FVec Ideal S4096 .f32 :=
  select (cmpi .eq x1 (bI 0#32)) (bF 0x00000000#32)
    (select (cmpi .eq x1 (bI 50256#32)) (bF 0x3E4CCCCD#32) (bF 0x3DCCCCCD#32))

/-- The right neighbour's weight: 0.2 at column 0, 0 at the last column, 0.1 elsewhere. -/
def wR (x1 : IVec S4096 32) : FVec Ideal S4096 .f32 :=
  select (cmpi .eq x1 (bI 0#32)) (bF 0x3E4CCCCD#32)
    (select (cmpi .eq x1 (bI 50256#32)) (bF 0x00000000#32) (bF 0x3DCCCCCD#32))

/-- The weighted sum of three per-row values, negated, summed over the rows, divided by the row count. -/
def loss3 (a b c wl wr : FVec Ideal S4096 .f32) : FVec Ideal S_ .f32 :=
  Host.divf
    (Host.reduceAdd
      (Host.negf (addf (addf (mulf (bF 0x3F4CCCCD#32) a) (mulf (id wl) b)) (mulf (id wr) c)))
      (constant (F := Ideal) S_ .f32 0x00000000#32) reducesTo_S4096_S_d0 h_S_)
    (constant (F := Ideal) S_ .f32 0x45800000#32)

/-- The log-sum-exp column read as a vector over the rows. -/
def lseVec (L : FVec Ideal S4096x1 .f32) : FVec Ideal S4096 .f32 :=
  fun i => shapeCast S4096 L shapeCasts_S4096x1_S4096 i

/-- The host tail: the three gathered entries less the row's log-sum-exp, weighted, negated, averaged. -/
def KTail (x0 : FVec Ideal S4096x50257 .f32) (x1 : IVec S4096 32) (L : FVec Ideal S4096x1 .f32) :
    FVec Ideal S_ .f32 :=
  loss3 (subf (gat x0 x1) (lseVec L)) (subf (gat x0 (colL x1)) (lseVec L)) (subf (gat x0 (colR x1)) (lseVec L))
    (wL x1) (wR x1)

end Cert.KernelIdeal.Tail

end
-- ==== Proof.Tail.Value.lean ====
/-
  What the host tail computes. The operations after the region, run in order from any contents of the buffers, leave in
  the program's result buffer the composed term of the three buffers they read from outside: the first argument (the
  logits), the second argument (the target columns) and the region's result (the log-sum-exp column). That term is
  `KTail`: three gathered entries per row less the row's log-sum-exp, weighted, negated and averaged over the rows.
-/
import proofs.«131330_j46755013984641_2_alg».proof.Proof.Tail.Main
import proofs.«131330_j46755013984641_2_alg».proof.Proof.Bridge.KTail
import Idealize.ShloMosaic.Lib.StableHlo.Run

noncomputable section

namespace Cert.KernelIdeal.Tail

open Idealize.ShloMosaic Idealize.ShloMosaic.TcCoe
open Idealize.SL Idealize.SL.Sem Idealize.ShloMosaic.StableHlo
open Cert.KernelIdeal.Gen

-- one pass over the 123 operations: each result buffer read at its own operation's function of its operands' contents,
-- every other buffer at what was there; the fold is deep, so is the recursion
set_option maxRecDepth 131072 in
set_option maxHeartbeats 53600000 in
/-- The result buffer after the tail, from any contents `W`: `KTail` of the logits, the targets and the log-sum-exp
    column as `W` holds them. Each operation's result is its function applied to its operands' results, outermost first;
    what remains is the same term as `KTail` with its definitions opened. -/
theorem tail_value (W : Valuation τ sig (Elt Ideal)) :
    StableHlo.after (tailOps (F := Ideal)).flatten W (Proc.devRef .tc main_v76)
      = KTail (W (Proc.devRef .tc main_arg0)) (W (Proc.devRef .tc main_arg1)) (W (Proc.devRef .tc main_v0)) := by
  simp only [tailOps, List.flatten_cons, List.flatten_nil, List.cons_append, List.nil_append, List.append_nil]
  after_results_simp
  rfl

end Cert.KernelIdeal.Tail

end
-- ==== Proof.Tail.Unchanged.lean ====
/-
  The host tail leaves its three inputs as they were: no operation after the region writes the first argument, the
  second argument or the region's result, so each holds after the tail what it held before.
-/
import proofs.«131330_j46755013984641_2_alg».proof.Proof.Tail.Main
import Idealize.ShloMosaic.Lib.StableHlo.Run

noncomputable section

namespace Cert.KernelIdeal.Tail

open Idealize.ShloMosaic Idealize.ShloMosaic.TcCoe
open Idealize.SL Idealize.SL.Sem
open Cert.KernelIdeal.Gen

variable {F : FTy → Type} [FloatOps F]

/-- No operation of this stretch writes the second argument. -/
theorem hostOps1_keeps_arg1 : (hostOps1 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_1_keeps_arg1 : (hostOps1_1 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_2_keeps_arg1 : (hostOps1_2 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_3_keeps_arg1 : (hostOps1_3 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_4_keeps_arg1 : (hostOps1_4 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_5_keeps_arg1 : (hostOps1_5 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_6_keeps_arg1 : (hostOps1_6 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_7_keeps_arg1 : (hostOps1_7 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_8_keeps_arg1 : (hostOps1_8 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_9_keeps_arg1 : (hostOps1_9 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_10_keeps_arg1 : (hostOps1_10 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_11_keeps_arg1 : (hostOps1_11 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of this stretch writes the second argument. -/
theorem hostOps1_12_keeps_arg1 : (hostOps1_12 : List (HloOp τ sig (Elt F))).Forall fun op =>
    Proc.devRef (τ := τ) .tc main_arg1 ∉ op.writes := by
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- No operation of any stretch writes the second argument. -/
theorem tail_keeps_arg1 : ∀ ops ∈ (tailOps (F := F)), ∀ op ∈ ops, Proc.devRef (τ := τ) .tc main_arg1 ∉ op.writes := by
  intro ops hops op hop
  rcases mem_tailOps hops with rfl | rfl | rfl | rfl | rfl | rfl | rfl | rfl | rfl | rfl | rfl | rfl | rfl
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_4_keeps_arg1) op hop
  · exact (List.forall_iff_forall_mem.mp hostOps1_5_keeps_arg1) op hop
  · exact (List.forall_iff_forall_mem.mp hostOps1_6_keeps_arg1) op hop
  · exact (List.forall_iff_forall_mem.mp hostOps1_7_keeps_arg1) op hop
  · exact (List.forall_iff_forall_mem.mp hostOps1_8_keeps_arg1) op hop
  · exact (List.forall_iff_forall_mem.mp hostOps1_9_keeps_arg1) op hop
  · exact (List.forall_iff_forall_mem.mp hostOps1_10_keeps_arg1) op hop
  · exact (List.forall_iff_forall_mem.mp hostOps1_11_keeps_arg1) op hop
  · exact (List.forall_iff_forall_mem.mp hostOps1_12_keeps_arg1) op hop

/-- The first argument after the tail is what it was. -/
theorem tail_arg0 (W : Valuation τ sig (Elt F)) :
    StableHlo.after (tailOps (F := F)).flatten W (Proc.devRef .tc main_arg0) = W (Proc.devRef .tc main_arg0) :=
  StableHlo.after_of_forall_not_mem _ _ fun op hop => by
    obtain ⟨ops, hops, hop'⟩ := List.mem_flatten.mp hop
    exact (tail_keeps ops hops op hop').1

/-- The region's result after the tail is what it was. -/
theorem tail_v0 (W : Valuation τ sig (Elt F)) :
    StableHlo.after (tailOps (F := F)).flatten W (Proc.devRef .tc main_v0) = W (Proc.devRef .tc main_v0) :=
  StableHlo.after_of_forall_not_mem _ _ fun op hop => by
    obtain ⟨ops, hops, hop'⟩ := List.mem_flatten.mp hop
    exact (tail_keeps ops hops op hop').2

/-- The second argument after the tail is what it was. -/
theorem tail_arg1 (W : Valuation τ sig (Elt F)) :
    StableHlo.after (tailOps (F := F)).flatten W (Proc.devRef .tc main_arg1) = W (Proc.devRef .tc main_arg1) :=
  StableHlo.after_of_forall_not_mem _ _ fun op hop => by
    obtain ⟨ops, hops, hop'⟩ := List.mem_flatten.mp hop
    exact tail_keeps_arg1 ops hops op hop'

end Cert.KernelIdeal.Tail

end
-- ==== Proof.Blk.Facts.lean ====
/-
  The two windows' block indices and the input window's cut sizes, at each grid point.

  The grid is 4 row blocks by 27 column tiles walked row-major. The input window's block at point t is
  block (t / 27, t % 27) of 1024 x 1920 entries; at column tile 26 only 50257 - 26 * 1920 = 337 of the
  block's 1920 columns lie inside the array, and the transfer moves only those. The output window's
  block at point t is block (t / 27, 0) of 1024 x 1 entries.
-/
import proofs.«131330_j46755013984641_2_alg».proof.Proof.KI.Base
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The input window's block index at point t is (t / 27, t % 27). -/
theorem index0_0 : ∀ t : Fin cfg0.N, win0_0.index t (0 : Fin 2) = t.val / 27 ∧ win0_0.index t (1 : Fin 2) = t.val % 27 :=
  (by decide +kernel : ∀ t : Fin grid0.N, win0_0.index t (0 : Fin 2) = t.val / 27 ∧ win0_0.index t (1 : Fin 2) = t.val % 27)

/-- What the input window's transfer at point t moves: all 1024 rows; all 1920 columns of a full
    tile, the first 337 of the last one. -/
theorem xsize0_0 : ∀ t : Fin cfg0.N, win0_0.xsize (grid0.coords t) (0 : Fin 2) = 1024
    ∧ win0_0.xsize (grid0.coords t) (1 : Fin 2) = if t.val % 27 = 26 then 337 else 1920 :=
  (by decide +kernel : ∀ t : Fin grid0.N, win0_0.xsize (grid0.coords t) (0 : Fin 2) = 1024
    ∧ win0_0.xsize (grid0.coords t) (1 : Fin 2) = if t.val % 27 = 26 then 337 else 1920)

/-- The output window's block index at point t is (t / 27, 0). -/
theorem index0_1 : ∀ t : Fin cfg0.N, win0_1.index t (0 : Fin 2) = t.val / 27 ∧ win0_1.index t (1 : Fin 2) = 0 :=
  (by decide +kernel : ∀ t : Fin grid0.N, win0_1.index t (0 : Fin 2) = t.val / 27 ∧ win0_1.index t (1 : Fin 2) = 0)

end Cert.KernelIdeal.Hand

end
-- ==== Proof.Blk.Out.lean ====
/-
  The two arrays after the run.

  The output's blocks are written back at the last column tile of each row block: point 27 * b + 26
  writes rows 1024 * b ... 1024 * b + 1023, and what it writes is, row by row, the row's log-sum-exp.
  The four write-backs tile the 4096 rows, so the output array ends holding each row's log-sum-exp.
  The input array is only read: it ends as it began.
-/
import proofs.«131330_j46755013984641_2_alg».proof.Proof.Blk.Facts
import proofs.«131330_j46755013984641_2_alg».proof.Proof.KI.Data
import Idealize.ShloMosaic.Lib.Pipeline.Value
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (xr : Dev nD → Fin 4096 → Fin 50257 → ℝ)

/-- The output array the run ends with: each row's log-sum-exp. -/
def lseArr (c : Dev nD) : S4096x1.Idx → EReal :=
  fun i => ((Cert.Lse.lse (xr c ⟨(i 0).val % 4096, Nat.mod_lt _ (by norm_num)⟩) : ℝ) : EReal)

/-- At row R it is the log-sum-exp of row R. -/
theorem lseArr_apply (c : Dev nD) (R : Fin 4096) :
    lseArr xr c (ix2 R (0 : Fin 1)) = ((Cert.Lse.lse (xr c R) : ℝ) : EReal) := by
  have e : (⟨(ix2 R (0 : Fin 1) 0).val % 4096, Nat.mod_lt _ (by norm_num)⟩ : Fin 4096) = R :=
    Fin.ext (by show R.val % 4096 = R.val; exact Nat.mod_eq_of_lt R.isLt)
  unfold lseArr
  rw [e]

/-- What point t writes back is block t of that array: row y of the block is array row
    1024 * (t / 27) + y. -/
theorem flushed_out (c : Dev nD) (t : Fin cfg0.N) :
    (dats m xr 0 c).flushed 1 t = ((cfg0.win 1).blk t).view.read (Elt Ideal) (lseArr xr c) := by
  obtain ⟨i0, i1⟩ := index0_1 t
  show (cfg0.win 1).cut (grid0.coords t) ((dats m xr 0 c).after 1 t) = _
  rw [after0_1]
  funext j
  show lseBlk xr c t.val ((cfg0.win 1).xinj (grid0.coords t) j) = lseArr xr c (((cfg0.win 1).blk t).view.emb j)
  have e : rowOf t.val (j 0).val = (⟨((((cfg0.win 1).blk t).view.emb j) 0).val % 4096, Nat.mod_lt _ (by norm_num)⟩ : Fin 4096) :=
    Fin.ext (by
      show (1024 * (t.val / 27) + (j 0).val) % 4096 = (win0_1.index t (0 : Fin 2) * 1024 + 1 * (j 0).val) % 4096
      rw [i0]; congr 1; omega)
  unfold lseBlk lseArr
  show ((Cert.Lse.lse (xr c (rowOf t.val (j 0).val)) : ℝ) : EReal) = _
  rw [e]

/-- An index of the array is in point t's block iff each coordinate is in the block's range. -/
theorem mem_blk_out (t : Fin cfg0.N) (i : S4096x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- Every row R of the array is in the block written back at point 27 * (R / 1024) + 26. -/
theorem cover_out (i : S4096x1.Idx) :
    ∃ t : Fin cfg0.N, (cfg0.win 1).flush t = true ∧ i ∈ ((cfg0.win 1).blk t).view.set := by
  have h0 : (i 0).val < 4096 := (i 0).isLt
  have h1 : (i 1).val < 1 := (i 1).isLt
  obtain ⟨t, ht⟩ : ∃ t : Fin cfg0.N, t.val = 27 * ((i 0).val / 1024) + 26 :=
    ⟨⟨27 * ((i 0).val / 1024) + 26, by show _ < grid0.N; rw [N_0]; omega⟩, rfl⟩
  obtain ⟨i0, i1⟩ := index0_1 t
  refine ⟨t, (flush0_1 t).mpr (by omega), ?_⟩
  rw [mem_blk_out]
  intro a
  match a with
  | ⟨0, _⟩ =>
    show win0_1.index t (0 : Fin 2) * 1024 ≤ (i 0).val ∧ (i 0).val < win0_1.index t (0 : Fin 2) * 1024 + 1024
    rw [i0]; omega
  | ⟨1, _⟩ =>
    show win0_1.index t (1 : Fin 2) * 1 ≤ (i 1).val ∧ (i 1).val < win0_1.index t (1 : Fin 2) * 1 + 1
    rw [i1]; omega

/-- The output array after the run: each row's log-sum-exp. -/
theorem out_final (c : Dev nD) : (dats m xr 0 c).arrAt 1 cfg0.N = lseArr xr c :=
  (dats m xr 0 c).arrAt_eq_of_cover 1 (lseArr xr c) (fun t _ => flushed_out m xr c t) cover_out

/-- The input array after the run: as launched. -/
theorem in_final (c : Dev nD) : (dats m xr 0 c).arrAt 0 cfg0.N = V m c main_arg0 := by
  rw [(dats m xr 0 c).arrAt_in 0 rfl cfg0.N, A_eq]

end Cert.KernelIdeal.Hand

end
-- ==== Proof.KI.Frame.lean ====
/-
  The idealized kernel's run, read at the program's result and at its two arguments.

  After the region the output array holds each row's log-sum-exp and the input array what it held at launch; the
  second argument is no window's array and stays at its launch contents. The host operations after the region write
  none of the three, and from any contents of the buffers they leave in the program's result buffer the composed term
  of exactly those three buffers. So the result buffer ends holding that term of the launch logits, the launch targets
  and the column of row log-sum-exps, and both arguments end as launched.
-/
import proofs.«131330_j46755013984641_2_alg».proof.Proof.KI.Launch
import proofs.«131330_j46755013984641_2_alg».proof.Proof.Tail.Value
import proofs.«131330_j46755013984641_2_alg».proof.Proof.Tail.Unchanged
import proofs.«131330_j46755013984641_2_alg».proof.Proof.Blk.Out

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (xr : Dev nD → Fin 4096 → Fin 50257 → ℝ) (ρ : Dev nD → PrngReg)

/-! ## What the region leaves, buffer by buffer -/

/-- The region's exit contents on core `c`: the two arrays at what the proof data compute after every write-back,
    every other buffer as launched. -/
abbrev exitV (c : Dev nD) : Valuation τ sig (Elt Ideal) :=
  Pipeline.withArrays (cfgs 0).spec c (V₀ m c) fun w => (dats m xr 0 c).arrAt w (cfgs 0).N

/-- The first argument is the input window's array: it leaves the region as launched. -/
theorem exitV_arg0 (c : Dev nD) : exitV m xr c (Proc.devRef .tc main_arg0) = m ((c.tc : Thread nD τ).loc main_arg0) :=
  (Pipeline.withArrays_arr (cfgs 0).spec launch0.win.arr_inj c (V₀ m c) (fun w => (dats m xr 0 c).arrAt w (cfgs 0).N) 0).trans
    (in_final m xr c)

/-- The region's result is the output window's array: it leaves the region holding each row's log-sum-exp. -/
theorem exitV_v0 (c : Dev nD) : exitV m xr c (Proc.devRef .tc main_v0) = lseArr xr c :=
  (Pipeline.withArrays_arr (cfgs 0).spec launch0.win.arr_inj c (V₀ m c) (fun w => (dats m xr 0 c).arrAt w (cfgs 0).N) 1).trans
    (out_final m xr c)

/-- No window's array is the second argument, -/
theorem arrRef_ne_arg1 (w : Fin 2) : Pipeline.arrRef (cfgs 0).spec w ≠ main_arg1 := by
  rcases Tail.arrRef_cases w with e | e
  · rw [e]; decide
  · rw [e]; decide

/-- so it leaves the region as launched. -/
theorem exitV_arg1 (c : Dev nD) : exitV m xr c (Proc.devRef .tc main_arg1) = m ((c.tc : Thread nD τ).loc main_arg1) :=
  Pipeline.withArrays_of_ne (cfgs 0).spec c (V₀ m c) (fun w => (dats m xr 0 c).arrAt w (cfgs 0).N) main_arg1 arrRef_ne_arg1

/-- Nor is any window's array the program's result buffer. -/
theorem arrRef_ne_v76 (w : Fin 2) : Pipeline.arrRef (cfgs 0).spec w ≠ main_v76 := by
  rcases Tail.arrRef_cases w with e | e
  · rw [e]; decide
  · rw [e]; decide

/-! ## After the host operations -/

/-- The program's result buffer after the host operations: their composed term of the launch logits, the launch
    targets and the column of row log-sum-exps. -/
theorem afterTail_v76 (c : Dev nD) :
    Pipeline.afterTail₀ cfgs (dats m xr) 0 (V₀ m) Tail.tailOps c main_v76
      = Tail.KTail (m ((c.tc : Thread nD τ).loc main_arg0)) (m ((c.tc : Thread nD τ).loc main_arg1)) (lseArr xr c) := by
  show StableHlo.after (Tail.tailOps (F := Ideal)).flatten (exitV m xr c) (Proc.devRef .tc main_v76) = _
  rw [Tail.tail_value, exitV_arg0, exitV_arg1, exitV_v0]

/-- The second argument after the host operations: as launched (none of them writes it). -/
theorem afterTail_arg1 (c : Dev nD) :
    Pipeline.afterTail₀ cfgs (dats m xr) 0 (V₀ m) Tail.tailOps c main_arg1 = m ((c.tc : Thread nD τ).loc main_arg1) := by
  show StableHlo.after (Tail.tailOps (F := Ideal)).flatten (exitV m xr c) (Proc.devRef .tc main_arg1) = _
  rw [Tail.tail_arg1, exitV_arg1]

/-- The second argument and the program's result buffer bypass the region: unscoped, and no window's array. -/
theorem arg1_rest : main_arg1 ∈ Pipeline.restRefs sig (cfgs 0).spec :=
  Pipeline.mem_restRefs_of main_arg1 rfl arrRef_ne_arg1
theorem v76_rest : main_v76 ∈ Pipeline.restRefs sig (cfgs 0).spec :=
  Pipeline.mem_restRefs_of main_v76 rfl arrRef_ne_v76

/-! ## The run, read at the result and the arguments -/

/-- From any launch memory with zero counters, given the body obligation and the invariant's two ends: every weakly
    fair execution of @main terminates; the program's result buffer ends holding the host operations' term of the launch
    logits, the launch targets and the column of row log-sum-exps; both arguments end as launched. -/
theorem run_value_of
    (hbody : ∀ c, BodyObligationLoose (dats m xr 0 c) (defs₀ (F := Ideal)) Variants.none () Set.univ)
    (hin : ∀ c, (Pipeline.ΦA spec0 c : sProp 𝕄) ⊢ (dats m xr 0 c).Φ 0)
    (hout : ∀ c, (dats m xr 0 c).Φ (Fin.last cfg0.N) ⊢ (Pipeline.ΦA spec0 c : sProp 𝕄)) :
    θ_run defs (onTc (τ := τ) (main (F := Ideal))) ⟨m, fun _ => 0, ρ⟩ (fun r => ∀ c : Dev nD,
      r.2.mem ((c.tc : Thread nD τ).loc main_v76)
          = Tail.KTail (m ((c.tc : Thread nD τ).loc main_arg0)) (m ((c.tc : Thread nD τ).loc main_arg1)) (lseArr xr c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v76 v76_rest).trans (afterTail_v76 m xr c),
     ((h c).1 0).trans (in_final m xr c),
     ((h c).2 main_arg1 arg1_rest).trans (afterTail_arg1 m xr c)⟩) (run_main m xr ρ hbody hin hout)

end Cert.KernelIdeal.Hand

end
-- ==== Proof.KI.RunA.lean ====
/-
  The first column tile of a row block: the body seeds the maximum column with the finite stand-in
  for minus infinity and the sum column with zero (whatever the two columns held), then folds the
  tile exactly as a middle tile does; the output block's buffer is not touched. Each column ends with
  two whole stores (the seed, then the fold), found by running the body.
-/
import proofs.«131330_j46755013984641_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on any whole memrefs: the input block at `x0`, the output's buffer at
    `xi1` (handed back untouched), the two scratch columns at anything; it ends with the two columns
    overwritten by the pieces `LS0`, `LS1` (found by the run). -/
noncomputable def kernelRun0_A (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : cond0_1 i) (hc2 : ¬cond0_2 i)
    (x0 : Vec F S1024x1920 .f32) :
    Σ' (LS0 : List (View.Piece (Elt F) S1024x1 .f32)), { LS1 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Hand

end
-- ==== Proof.KI.RunB.lean ====
/-
  A middle column tile (not the first, not the last): the body loads the input block and both scratch
  columns, folds the tile into them — new maximum, rescaled sum plus the tile's sum of exponentials —
  and stores both columns whole; the output block's buffer is not touched. The stores each column ends
  with are found by running the body.
-/
import proofs.«131330_j46755013984641_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile, on any whole memrefs: the input block at `x0`, the output's buffer at
    `xi1` (handed back untouched), the maximum column at `xs0`, the sum column at `xs1`; it ends with the
    two columns overwritten by the pieces `LS0`, `LS1` (found by the run). -/
noncomputable def kernelRun0_B (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (hc2 : ¬cond0_2 i)
    (x0 : Vec F S1024x1920 .f32) (xs0 : Vec F S1024x1 .f32) (xs1 : Vec F S1024x1 .f32) :
    Σ' (LS0 : List (View.Piece (Elt F) S1024x1 .f32)), { LS1 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Hand

end
-- ==== Proof.KI.RunC.lean ====
/-
  The last column tile of a row block: only the columns inside the array count, so the body masks
  the block by a select (the stand-in for minus infinity under the maximum, zero under the sum), folds
  it into the two scratch columns, stores them, reads the sum column back and stores
  maximum + log(sum) to the output block — one whole store. What each buffer ends with is found by
  running the body.
-/
import proofs.«131330_j46755013984641_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile, on any whole memrefs: the input block at `x0`, the output's buffer at
    anything, the maximum column at `xs0`, the sum column at `xs1`; it ends with the output's buffer
    overwritten by the pieces `L1` and the two columns by `LS0`, `LS1` (found by the run). -/
noncomputable def kernelRun0_C (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (hc2 : cond0_2 i)
    (x0 : Vec F S1024x1920 .f32) (xs0 : Vec F S1024x1 .f32) (xs1 : Vec F S1024x1 .f32) :
    Σ' (L1 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg2 harg2 arg3 harg3 arg4 harg4 arg5 harg5) K } := by
  refine ⟨?_, ?_, ?_, fun E K => ?run⟩
  case run =>
    simp only [cc0_kernel_eq_skeleton]; unfold cc0_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1 | exact hc2)
    sl_step
    iapply Hk
    isplitl [H0]
    · iexists _; isplitr; · ipureintro; exact harg2.read_unread _
      iexact H0
    isplitl [H1]
    · iexists _; iexact H1
    isplitl [HS0]
    · iexists _; iexact HS0
    iexists _; iexact HS1

end Cert.KernelIdeal.Hand

end
-- ==== Proof.KI.Pieces.lean ====
/-
  What the body's stores leave, as the kernel's own arithmetic.

  Each of the three runs ends with every stored buffer covered by whole-block stores; read back, a
  buffer holds its LAST store's payload, and every payload is one of the kernel's pure functions of
  the values the body loaded — the input block and the two scratch columns as the point found them
  (at a first tile: as the seeds just stored left them). So after a first tile the maximum column is
  the fold of the block into the seed column and the sum column the fold into the zero column; after
  a middle tile they are the folds into what the point before left; after a last tile likewise with
  the masked fold, and the output block is (new maximum) + log (new sum).
-/
import proofs.«131330_j46755013984641_2_alg».proof.Proof.KI.RunA
import proofs.«131330_j46755013984641_2_alg».proof.Proof.KI.RunB
import proofs.«131330_j46755013984641_2_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block access, however they are spelt. -/
theorem hz2 : (![0, 0] : Fin 2 → Nat) = fun _ => 0 := funext fun a => by fin_cases a <;> rfl

section
variable (c : Dev nD) (i : grid0.Coords) (arg2 : Memref sig .tc .vmem S1024x1920 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1 .f32) (harg5 : arg5.IsWhole)

/-- Every buffer a run stores into is covered by its stores (each is a whole-block store). -/
theorem coverA_max (hc0 : cond0_0 i) (hc1 : cond0_1 i) (hc2 : ¬cond0_2 i) (x0 : Vec F S1024x1920 .f32) (y : S1024x1.Idx) :
    ∃ pc ∈ (kernelRun0_A c i arg2 harg2 arg3 harg3 arg4 harg4 arg5 harg5 hc0 hc1 hc2 x0).1, y ∈ pc.1.set :=
  View.cover_of_tiledL _ S1024x1.size (by sl_kernel_rfl) y
theorem coverA_sum (hc0 : cond0_0 i) (hc1 : cond0_1 i) (hc2 : ¬cond0_2 i) (x0 : Vec F S1024x1920 .f32) (y : S1024x1.Idx) :
    ∃ pc ∈ (kernelRun0_A c i arg2 harg2 arg3 harg3 arg4 harg4 arg5 harg5 hc0 hc1 hc2 x0).2.1, y ∈ pc.1.set :=
  View.cover_of_tiledL _ S1024x1.size (by sl_kernel_rfl) y
theorem coverB_max (hc0 : ¬cond0_0 i) (hc1 : cond0_1 i) (hc2 : ¬cond0_2 i) (x0 : Vec F S1024x1920 .f32) (xs0 xs1 : Vec F S1024x1 .f32) (y : S1024x1.Idx) :
    ∃ pc ∈ (kernelRun0_B c i arg2 harg2 arg3 harg3 arg4 harg4 arg5 harg5 hc0 hc1 hc2 x0 xs0 xs1).1, y ∈ pc.1.set :=
  View.cover_of_tiledL _ S1024x1.size (by sl_kernel_rfl) y
theorem coverB_sum (hc0 : ¬cond0_0 i) (hc1 : cond0_1 i) (hc2 : ¬cond0_2 i) (x0 : Vec F S1024x1920 .f32) (xs0 xs1 : Vec F S1024x1 .f32) (y : S1024x1.Idx) :
    ∃ pc ∈ (kernelRun0_B c i arg2 harg2 arg3 harg3 arg4 harg4 arg5 harg5 hc0 hc1 hc2 x0 xs0 xs1).2.1, y ∈ pc.1.set :=
  View.cover_of_tiledL _ S1024x1.size (by sl_kernel_rfl) y
theorem coverC_out (hc0 : ¬cond0_0 i) (hc1 : ¬cond0_1 i) (hc2 : cond0_2 i) (x0 : Vec F S1024x1920 .f32) (xs0 xs1 : Vec F S1024x1 .f32) (y : S1024x1.Idx) :
    ∃ pc ∈ (kernelRun0_C c i arg2 harg2 arg3 harg3 arg4 harg4 arg5 harg5 hc0 hc1 hc2 x0 xs0 xs1).1, y ∈ pc.1.set :=
  View.cover_of_tiledL _ S1024x1.size (by sl_kernel_rfl) y
theorem coverC_max (hc0 : ¬cond0_0 i) (hc1 : ¬cond0_1 i) (hc2 : cond0_2 i) (x0 : Vec F S1024x1920 .f32) (xs0 xs1 : Vec F S1024x1 .f32) (y : S1024x1.Idx) :
    ∃ pc ∈ (kernelRun0_C c i arg2 harg2 arg3 harg3 arg4 harg4 arg5 harg5 hc0 hc1 hc2 x0 xs0 xs1).2.1, y ∈ pc.1.set :=
  View.cover_of_tiledL _ S1024x1.size (by sl_kernel_rfl) y
theorem coverC_sum (hc0 : ¬cond0_0 i) (hc1 : ¬cond0_1 i) (hc2 : cond0_2 i) (x0 : Vec F S1024x1920 .f32) (xs0 xs1 : Vec F S1024x1 .f32) (y : S1024x1.Idx) :
    ∃ pc ∈ (kernelRun0_C c i arg2 harg2 arg3 harg3 arg4 harg4 arg5 harg5 hc0 hc1 hc2 x0 xs0 xs1).2.2.1, y ∈ pc.1.set :=
  View.cover_of_tiledL _ S1024x1.size (by sl_kernel_rfl) y

/-- After a first tile the maximum column is the block folded into the seed column, -/
theorem pieceA_max (hc0 : cond0_0 i) (hc1 : cond0_1 i) (hc2 : ¬cond0_2 i) (x0 : Vec F S1024x1920 .f32) :
    View.canon (kernelRun0_A c i arg2 harg2 arg3 harg3 arg4 harg4 arg5 harg5 hc0 hc1 hc2 x0).1 = k0_pay5 x0 k0_pay1 := by
  unfold kernelRun0_A; dsimp only; sl_unfold_words
  rw [View.canon_cons_unit_zero hz2]
  simp only [View.readCov_unit_zero (S := S1024x1) _ hz2, View.readAt_eq_ld, harg2.read_unread, View.ld_unit_zero (S := S1024x1920) hz2]
/-- and the sum column the block folded into the zero column at the seed maximum. -/
theorem pieceA_sum (hc0 : cond0_0 i) (hc1 : cond0_1 i) (hc2 : ¬cond0_2 i) (x0 : Vec F S1024x1920 .f32) :
    View.canon (kernelRun0_A c i arg2 harg2 arg3 harg3 arg4 harg4 arg5 harg5 hc0 hc1 hc2 x0).2.1 = k0_pay4 x0 k0_pay1 k0_pay1 k0_pay2 := by
  unfold kernelRun0_A; dsimp only; sl_unfold_words
  rw [View.canon_cons_unit_zero hz2]
  simp only [View.readCov_unit_zero (S := S1024x1) _ hz2, View.readAt_eq_ld, harg2.read_unread, View.ld_unit_zero (S := S1024x1920) hz2]

/-- After a middle tile: the folds into what the columns held. -/
theorem pieceB_max (hc0 : ¬cond0_0 i) (hc1 : cond0_1 i) (hc2 : ¬cond0_2 i) (x0 : Vec F S1024x1920 .f32) (xs0 xs1 : Vec F S1024x1 .f32) :
    View.canon (kernelRun0_B c i arg2 harg2 arg3 harg3 arg4 harg4 arg5 harg5 hc0 hc1 hc2 x0 xs0 xs1).1 = k0_pay5 x0 xs0 := by
  unfold kernelRun0_B; dsimp only; sl_unfold_words
  rw [View.canon_cons_unit_zero hz2]
  simp only [View.readAt_eq_ld, harg2.read_unread, harg4.read_unread, View.ld_unit_zero (S := S1024x1920) hz2, View.ld_unit_zero (S := S1024x1) hz2]
theorem pieceB_sum (hc0 : ¬cond0_0 i) (hc1 : cond0_1 i) (hc2 : ¬cond0_2 i) (x0 : Vec F S1024x1920 .f32) (xs0 xs1 : Vec F S1024x1 .f32) :
    View.canon (kernelRun0_B c i arg2 harg2 arg3 harg3 arg4 harg4 arg5 harg5 hc0 hc1 hc2 x0 xs0 xs1).2.1 = k0_pay4 x0 xs0 xs0 xs1 := by
  unfold kernelRun0_B; dsimp only; sl_unfold_words
  rw [View.canon_cons_unit_zero hz2]
  simp only [View.readAt_eq_ld, harg2.read_unread, harg4.read_unread, harg5.read_unread, View.ld_unit_zero (S := S1024x1920) hz2, View.ld_unit_zero (S := S1024x1) hz2]

/-- After a last tile: the masked folds, and the output block is the new maximum plus the logarithm
    of the new sum (the sum column read back after its store). -/
theorem pieceC_max (hc0 : ¬cond0_0 i) (hc1 : ¬cond0_1 i) (hc2 : cond0_2 i) (x0 : Vec F S1024x1920 .f32) (xs0 xs1 : Vec F S1024x1 .f32) :
    View.canon (kernelRun0_C c i arg2 harg2 arg3 harg3 arg4 harg4 arg5 harg5 hc0 hc1 hc2 x0 xs0 xs1).2.1 = k0_pay9 i x0 xs0 := by
  unfold kernelRun0_C; dsimp only; sl_unfold_words
  rw [View.canon_cons_unit_zero hz2]
  simp only [View.readAt_eq_ld, harg2.read_unread, harg4.read_unread, View.ld_unit_zero (S := S1024x1920) hz2, View.ld_unit_zero (S := S1024x1) hz2]
theorem pieceC_sum (hc0 : ¬cond0_0 i) (hc1 : ¬cond0_1 i) (hc2 : cond0_2 i) (x0 : Vec F S1024x1920 .f32) (xs0 xs1 : Vec F S1024x1 .f32) :
    View.canon (kernelRun0_C c i arg2 harg2 arg3 harg3 arg4 harg4 arg5 harg5 hc0 hc1 hc2 x0 xs0 xs1).2.2.1 = k0_pay8 i x0 xs0 xs0 xs1 := by
  unfold kernelRun0_C; dsimp only; sl_unfold_words
  rw [View.canon_cons_unit_zero hz2]
  simp only [View.readAt_eq_ld, harg2.read_unread, harg4.read_unread, harg5.read_unread, View.ld_unit_zero (S := S1024x1920) hz2, View.ld_unit_zero (S := S1024x1) hz2]
theorem pieceC_out (hc0 : ¬cond0_0 i) (hc1 : ¬cond0_1 i) (hc2 : cond0_2 i) (x0 : Vec F S1024x1920 .f32) (xs0 xs1 : Vec F S1024x1 .f32) :
    View.canon (kernelRun0_C c i arg2 harg2 arg3 harg3 arg4 harg4 arg5 harg5 hc0 hc1 hc2 x0 xs0 xs1).1 = k0_pay10 i x0 xs0 (k0_pay8 i x0 xs0 xs0 xs1) := by
  unfold kernelRun0_C; dsimp only; sl_unfold_words
  rw [View.canon_cons_unit_zero hz2]
  simp only [View.readCov_unit_zero (S := S1024x1) _ hz2, View.readAt_eq_ld, harg2.read_unread, harg4.read_unread, harg5.read_unread, View.ld_unit_zero (S := S1024x1920) hz2, View.ld_unit_zero (S := S1024x1) hz2]

end

end Cert.KernelIdeal.Hand

end
-- ==== Proof.Pay.Basic.lean ====
/-
  Reading the body's values at one row, at the exact instance: the words of the two constants, the
  pointwise exponential and logarithm, and the coercion of a finite real sum into the extended reals.
  The two seeds of the running pair: the running maximum starts at a finite real (the word 0xF149F2CA),
  the running sum at 0.
-/
import proofs.«131330_j46755013984641_2_alg».proof.Proof.Gen.KernelIdeal.Skeleton
import Idealize.ShloMosaic.Lib.Pipeline.Value
import Idealize.ShloMosaic.Lib.ValueIdx
import Idealize.ShloMosaic.PureOps.Ideal.Laws

set_option synthInstance.maxSize 4096

noncomputable section

namespace Cert.KernelIdeal.Pay

open Idealize.ShloMosaic Idealize.SL.Sem Idealize.ShloMosaic.ValueIdx
open Cert.KernelIdeal Cert.KernelIdeal.Gen

/-- The word of -∞ denotes ⊥. -/
theorem negInf_f32 : Ideal.ofBits .f32 0xFF800000#32 = ⊥ := by simp [Ideal.ofBits, Ideal.ieee]

/-- The exponential of an array, read at an index. -/
theorem exp_apply {s : Shape} {φ : FTy} (v : FVec Ideal s φ) (i : s.Idx) : exp v i = Ideal.exp (v i) := rfl

/-- The logarithm of an array, read at an index. -/
theorem log_apply {s : Shape} {φ : FTy} (v : FVec Ideal s φ) (i : s.Idx) : log v i = Ideal.log (v i) := rfl

/-- A finite sum of reals, taken in the extended reals, is the real sum. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert k t hk ih => rw [Finset.sum_insert hk, Finset.sum_insert hk, ih, EReal.coe_add]

/-- The running maximum's seed, at every row: the word 0xF149F2CA. -/
theorem seed_max (r : Fin 1024) :
    k0_pay1 (F := Ideal) (ix2 r (0 : Fin 1)) = Ideal.ofBits .f32 0xF149F2CA#32 := by
  unfold k0_pay1
  rw [shapeCast_self]
  rfl

/-- The running sum's seed, at every row: 0. -/
theorem seed_sum (r : Fin 1024) : k0_pay2 (F := Ideal) (ix2 r (0 : Fin 1)) = 0 := by
  unfold k0_pay2
  rw [shapeCast_self]
  exact Ideal.ofBits_zero_f32

end Cert.KernelIdeal.Pay

end
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibOnlineSoftmax.lean ====
/-
# Online (tiled, running-maximum) softmax equals the one-pass softmax

General real-analysis lemmas, independent of any program.

Keys come in n tiles of T keys.  Scores s : Fin n → Fin T → ℝ and one column of values
v : Fin n → Fin T → ℝ.  The running state after some tiles is a triple (m, l, acc):

* first tile:  m₁ = max_k s 0 k,  l₁ = ∑ k, exp (s 0 k - m₁),  acc₁ = ∑ k, exp (s 0 k - m₁) * v 0 k;
* step, tile j:  m' = max m (max_k s j k),  a = exp (m - m'),
  l' = a * l + ∑ k, exp (s j k - m'),  acc' = a * acc + ∑ k, exp (s j k - m') * v j k.

The invariant: after j ≥ 1 tiles, m is the maximum of the scores of the first j tiles, and
l, acc are the sums over the first j tiles of exp (s - m) and exp (s - m) * v.
The corollary: after all n tiles acc / l is the softmax-weighted mean of the values,
∑ j k, (exp (s j k - M) / L) * v j k  with  L = ∑ j k, exp (s j k - M),  for EVERY shift M
(the weighted mean does not depend on the shift), in particular for M the maximum of all scores.
The same is stated over one flat key index through any bijection Fin n × Fin T ≃ ι.

Also: the maximum of finitely many reals, seen in the extended reals, is the fold of max from ⊥,
and the three extended-real identities that start the recurrence from the state (⊥, 0, 0).
-/
import Mathlib.Analysis.SpecialFunctions.Exp
import Mathlib.Algebra.BigOperators.Fin
import Mathlib.Data.EReal.Operations
import Mathlib.Logic.Equiv.Fin.Basic
import Mathlib.Order.Fin.Basic

namespace OnlineSoftmax

open Finset

/-! ## The maximum of a tile, and the two transition functions -/

/-- The maximum of the T scores of one tile (T ≠ 0). -/
noncomputable def tileMax {T : ℕ} [NeZero T] (f : Fin T → ℝ) : ℝ :=
  Finset.univ.sup' Finset.univ_nonempty f

/-- The state (m, l, acc) after the first tile. -/
noncomputable def first {T : ℕ} [NeZero T] (s v : Fin T → ℝ) : ℝ × ℝ × ℝ :=
  (tileMax s, ∑ k, Real.exp (s k - tileMax s), ∑ k, Real.exp (s k - tileMax s) * v k)

/-- One step of the recurrence: absorb the tile (s, v) into the state (m, l, acc). -/
noncomputable def step {T : ℕ} [NeZero T] (st : ℝ × ℝ × ℝ) (s v : Fin T → ℝ) : ℝ × ℝ × ℝ :=
  (max st.1 (tileMax s),
   Real.exp (st.1 - max st.1 (tileMax s)) * st.2.1 + ∑ k, Real.exp (s k - max st.1 (tileMax s)),
   Real.exp (st.1 - max st.1 (tileMax s)) * st.2.2
     + ∑ k, Real.exp (s k - max st.1 (tileMax s)) * v k)

/-- The maximum of the scores of the tiles 0, …, j-1 (for j = 0 the value is that of j = 1). -/
noncomputable def pmax {T : ℕ} [NeZero T] (s : ℕ → Fin T → ℝ) : ℕ → ℝ
  | 0 => tileMax (s 0)
  | j + 1 => max (pmax s j) (tileMax (s j))

variable {n T : ℕ} [NeZero T]

/-! ## The running maximum -/

theorem pmax_succ (s : ℕ → Fin T → ℝ) (j : ℕ) :
    pmax s (j + 1) = max (pmax s j) (tileMax (s j)) := rfl

theorem pmax_one (s : ℕ → Fin T → ℝ) : pmax s 1 = tileMax (s 0) := by
  show max (tileMax (s 0)) (tileMax (s 0)) = tileMax (s 0)
  exact max_self _

/-- Every key of a tile is below the maximum of the tile. -/
theorem le_tileMax (f : Fin T → ℝ) (k : Fin T) : f k ≤ tileMax f :=
  Finset.le_sup' f (Finset.mem_univ k)

/-- pmax s j is above the maximum of each of the first j tiles. -/
theorem tileMax_le_pmax (s : ℕ → Fin T → ℝ) {j j' : ℕ} (h : j' < j) :
    tileMax (s j') ≤ pmax s j := by
  induction j with
  | zero => omega
  | succ j ih =>
    rw [pmax_succ]
    rcases Nat.lt_succ_iff_lt_or_eq.mp h with h' | rfl
    · exact le_max_of_le_left (ih h')
    · exact le_max_right _ _

/-- pmax s j is an upper bound of the first j tiles. -/
theorem le_pmax (s : ℕ → Fin T → ℝ) {j j' : ℕ} (h : j' < j) (k : Fin T) : s j' k ≤ pmax s j :=
  (le_tileMax (s j') k).trans (tileMax_le_pmax s h)

/-- pmax s j is the least upper bound of the maxima of the first j tiles (j ≥ 1). -/
theorem pmax_le (s : ℕ → Fin T → ℝ) {j : ℕ} (hj : 1 ≤ j) (B : ℝ)
    (h : ∀ j' < j, tileMax (s j') ≤ B) : pmax s j ≤ B := by
  induction j, hj using Nat.le_induction with
  | base => rw [pmax_one]; exact h 0 (by omega)
  | succ j hj ih =>
    rw [pmax_succ]
    exact max_le (ih fun j' hj' => h j' (by omega)) (h j (by omega))

/-! ## The invariant, tiles indexed by ℕ -/

/-- **The invariant.**  Any sequence of states that starts with the first-tile state and follows the
step equations has, after j tiles, the running maximum pmax s j and the partial sums shifted by
that maximum. -/
theorem invariant (s v : ℕ → Fin T → ℝ) (st : ℕ → ℝ × ℝ × ℝ)
    (h1 : st 1 = first (s 0) (v 0))
    (hstep : ∀ j, 1 ≤ j → j < n → st (j + 1) = step (st j) (s j) (v j))
    (j : ℕ) (hj1 : 1 ≤ j) (hjn : j ≤ n) :
    (st j).1 = pmax s j ∧
    (st j).2.1 = ∑ j' ∈ range j, ∑ k, Real.exp (s j' k - pmax s j) ∧
    (st j).2.2 = ∑ j' ∈ range j, ∑ k, Real.exp (s j' k - pmax s j) * v j' k := by
  induction j, hj1 using Nat.le_induction with
  | base =>
    rw [h1, pmax_one]
    refine ⟨rfl, ?_, ?_⟩
    · rw [Finset.sum_range_one]; rfl
    · rw [Finset.sum_range_one]; rfl
  | succ j hj ih =>
    obtain ⟨hm, hl, ha⟩ := ih (by omega)
    rw [hstep j hj (by omega), pmax_succ]
    refine ⟨?_, ?_, ?_⟩
    · show max (st j).1 (tileMax (s j)) = _
      rw [hm]
    · show Real.exp ((st j).1 - max (st j).1 (tileMax (s j))) * (st j).2.1
        + ∑ k, Real.exp (s j k - max (st j).1 (tileMax (s j))) = _
      rw [hm, hl, Finset.sum_range_succ, Finset.mul_sum]
      congr 1
      refine Finset.sum_congr rfl fun j' _ => ?_
      rw [Finset.mul_sum]
      refine Finset.sum_congr rfl fun k _ => ?_
      rw [← Real.exp_add]
      congr 1
      ring
    · show Real.exp ((st j).1 - max (st j).1 (tileMax (s j))) * (st j).2.2
        + ∑ k, Real.exp (s j k - max (st j).1 (tileMax (s j))) * v j k = _
      rw [hm, ha, Finset.sum_range_succ, Finset.mul_sum]
      congr 1
      refine Finset.sum_congr rfl fun j' _ => ?_
      rw [Finset.mul_sum]
      refine Finset.sum_congr rfl fun k _ => ?_
      rw [← mul_assoc, ← Real.exp_add]
      congr 2
      ring

/-! ## Shift invariance of the softmax-weighted mean -/

/-- The softmax-weighted mean does not depend on the shift. -/
theorem weighted_shift {ι : Type*} (t : Finset ι) (f g : ι → ℝ) (M M' : ℝ) :
    (∑ i ∈ t, Real.exp (f i - M) * g i) / (∑ i ∈ t, Real.exp (f i - M)) =
    (∑ i ∈ t, Real.exp (f i - M') * g i) / (∑ i ∈ t, Real.exp (f i - M')) := by
  have h : ∀ i, Real.exp (f i - M) = Real.exp (M' - M) * Real.exp (f i - M') := fun i => by
    rw [← Real.exp_add]
    congr 1
    ring
  simp only [h, mul_assoc, ← Finset.mul_sum]
  exact mul_div_mul_left _ _ (Real.exp_pos _).ne'

/-- Normalised weights: ∑ (e_i / L) * g_i = (∑ e_i * g_i) / L. -/
theorem sum_div_mul {ι : Type*} (t : Finset ι) (e g : ι → ℝ) (L : ℝ) :
    ∑ i ∈ t, (e i / L) * g i = (∑ i ∈ t, e i * g i) / L := by
  simp only [div_eq_mul_inv, Finset.sum_mul]
  exact Finset.sum_congr rfl fun i _ => by ring

/-- The normaliser is positive on a nonempty index set. -/
theorem normaliser_pos {ι : Type*} (t : Finset ι) (ht : t.Nonempty) (f : ι → ℝ) (M : ℝ) :
    0 < ∑ i ∈ t, Real.exp (f i - M) :=
  Finset.sum_pos (fun _ _ => Real.exp_pos _) ht

/-! ## The corollary, tiles indexed by Fin n -/

/-- A family of n tiles continued to all of ℕ by zero tiles. -/
noncomputable def extend (s : Fin n → Fin T → ℝ) (j : ℕ) : Fin T → ℝ :=
  if h : j < n then s ⟨j, h⟩ else fun _ => 0

theorem extend_of_lt (s : Fin n → Fin T → ℝ) {j : ℕ} (hj : j < n) : extend s j = s ⟨j, hj⟩ :=
  dif_pos hj

theorem extend_val (s : Fin n → Fin T → ℝ) (j : Fin n) : extend s (j : ℕ) = s j :=
  extend_of_lt s j.2

theorem extend_zero [NeZero n] (s : Fin n → Fin T → ℝ) : extend s 0 = s 0 := by
  rw [extend_of_lt s (NeZero.pos n)]
  congr 1

/-- The invariant after all n tiles, tiles indexed by Fin n. -/
theorem invariant_fin [NeZero n] (s v : Fin n → Fin T → ℝ) (st : ℕ → ℝ × ℝ × ℝ)
    (h1 : st 1 = first (s 0) (v 0))
    (hstep : ∀ j (hj : j < n), 1 ≤ j → st (j + 1) = step (st j) (s ⟨j, hj⟩) (v ⟨j, hj⟩)) :
    (st n).1 = pmax (extend s) n ∧
    (st n).2.1 = ∑ j, ∑ k, Real.exp (s j k - pmax (extend s) n) ∧
    (st n).2.2 = ∑ j, ∑ k, Real.exp (s j k - pmax (extend s) n) * v j k := by
  have h1' : st 1 = first (extend s 0) (extend v 0) := by rw [h1, extend_zero, extend_zero]
  have hs' : ∀ j, 1 ≤ j → j < n → st (j + 1) = step (st j) (extend s j) (extend v j) :=
    fun j h1j hjn => by rw [hstep j hjn h1j, extend_of_lt s hjn, extend_of_lt v hjn]
  obtain ⟨hm, hl, ha⟩ := invariant (n := n) (extend s) (extend v) st h1' hs' n NeZero.one_le le_rfl
  refine ⟨hm, ?_, ?_⟩
  · rw [hl, ← Fin.sum_univ_eq_sum_range
      (fun j' => ∑ k, Real.exp (extend s j' k - pmax (extend s) n)) n]
    simp only [extend_val]
  · rw [ha, ← Fin.sum_univ_eq_sum_range
      (fun j' => ∑ k, Real.exp (extend s j' k - pmax (extend s) n) * extend v j' k) n]
    simp only [extend_val]

/-- **Online softmax = softmax**, two-level index, any shift M.
st is any sequence with st 1 the first-tile state and st (j+1) the step of st j by tile j. -/
theorem online_eq_softmax [NeZero n] (s v : Fin n → Fin T → ℝ) (st : ℕ → ℝ × ℝ × ℝ)
    (h1 : st 1 = first (s 0) (v 0))
    (hstep : ∀ j (hj : j < n), 1 ≤ j → st (j + 1) = step (st j) (s ⟨j, hj⟩) (v ⟨j, hj⟩))
    (M : ℝ) :
    (st n).2.2 / (st n).2.1 =
      ∑ j, ∑ k, (Real.exp (s j k - M) / (∑ j', ∑ k', Real.exp (s j' k' - M))) * v j k := by
  obtain ⟨-, hl, ha⟩ := invariant_fin s v st h1 hstep
  calc (st n).2.2 / (st n).2.1
      = (∑ x : Fin n × Fin T, Real.exp (s x.1 x.2 - pmax (extend s) n) * v x.1 x.2) /
          (∑ x : Fin n × Fin T, Real.exp (s x.1 x.2 - pmax (extend s) n)) := by
        rw [ha, hl]; simp only [Fintype.sum_prod_type]
    _ = (∑ x : Fin n × Fin T, Real.exp (s x.1 x.2 - M) * v x.1 x.2) /
          (∑ x : Fin n × Fin T, Real.exp (s x.1 x.2 - M)) :=
        weighted_shift Finset.univ (fun x : Fin n × Fin T => s x.1 x.2)
          (fun x : Fin n × Fin T => v x.1 x.2) _ M
    _ = ∑ x : Fin n × Fin T,
          (Real.exp (s x.1 x.2 - M) / (∑ x : Fin n × Fin T, Real.exp (s x.1 x.2 - M))) * v x.1 x.2 :=
        (sum_div_mul Finset.univ (fun x : Fin n × Fin T => Real.exp (s x.1 x.2 - M))
          (fun x : Fin n × Fin T => v x.1 x.2) _).symm
    _ = _ := by simp only [Fintype.sum_prod_type]

/-- The normaliser of online_eq_softmax is positive. -/
theorem normaliser2_pos [NeZero n] (s : Fin n → Fin T → ℝ) (M : ℝ) :
    0 < ∑ j, ∑ k, Real.exp (s j k - M) :=
  Finset.sum_pos (fun _ _ => Finset.sum_pos (fun _ _ => Real.exp_pos _) Finset.univ_nonempty)
    Finset.univ_nonempty

/-- The final running maximum is the maximum over all tiles and keys. -/
theorem final_max [NeZero n] (s v : Fin n → Fin T → ℝ) (st : ℕ → ℝ × ℝ × ℝ)
    (h1 : st 1 = first (s 0) (v 0))
    (hstep : ∀ j (hj : j < n), 1 ≤ j → st (j + 1) = step (st j) (s ⟨j, hj⟩) (v ⟨j, hj⟩)) :
    (st n).1 = Finset.univ.sup' Finset.univ_nonempty fun j => tileMax (s j) := by
  rw [(invariant_fin s v st h1 hstep).1]
  apply le_antisymm
  · refine pmax_le _ NeZero.one_le _ fun j' hj' => ?_
    rw [extend_of_lt s hj']
    exact Finset.le_sup' (fun j => tileMax (s j)) (Finset.mem_univ _)
  · refine Finset.sup'_le _ _ fun j _ => ?_
    rw [← extend_val s j]
    exact tileMax_le_pmax _ j.2

/-! ## The corollary over one flat key index -/

/-- **Online softmax = softmax**, flat index: the keys are indexed by ι, cut in n tiles of T
through a bijection e : Fin n × Fin T ≃ ι; tile j holds the keys e (j, ·). -/
theorem online_eq_softmax_flat [NeZero n] {ι : Type*} [Fintype ι] (e : Fin n × Fin T ≃ ι)
    (sf vf : ι → ℝ) (st : ℕ → ℝ × ℝ × ℝ)
    (h1 : st 1 = first (fun k => sf (e (0, k))) (fun k => vf (e (0, k))))
    (hstep : ∀ j (hj : j < n), 1 ≤ j →
      st (j + 1) = step (st j) (fun k => sf (e (⟨j, hj⟩, k))) (fun k => vf (e (⟨j, hj⟩, k))))
    (M : ℝ) :
    (st n).2.2 / (st n).2.1 =
      ∑ κ, (Real.exp (sf κ - M) / (∑ κ', Real.exp (sf κ' - M))) * vf κ := by
  have key : ∀ g : ι → ℝ, ∑ j, ∑ k, g (e (j, k)) = ∑ κ, g κ := fun g =>
    (Fintype.sum_prod_type fun x => g (e x)).symm.trans (Equiv.sum_comp e g)
  rw [online_eq_softmax (fun j k => sf (e (j, k))) (fun j k => vf (e (j, k))) st h1 hstep M,
    key fun κ => Real.exp (sf κ - M)]
  exact key fun κ => Real.exp (sf κ - M) / (∑ κ', Real.exp (sf κ' - M)) * vf κ

/-- The instance of the flat statement for ι = Fin (n * T) with key κ in tile κ / T at place
κ % T (finProdFinEquiv (j, k) = k + T * j). -/
theorem online_eq_softmax_fin [NeZero n]
    (sf vf : Fin (n * T) → ℝ) (st : ℕ → ℝ × ℝ × ℝ)
    (h1 : st 1 = first (fun k => sf (finProdFinEquiv (0, k))) (fun k => vf (finProdFinEquiv (0, k))))
    (hstep : ∀ j (hj : j < n), 1 ≤ j →
      st (j + 1) = step (st j) (fun k => sf (finProdFinEquiv (⟨j, hj⟩, k)))
        (fun k => vf (finProdFinEquiv (⟨j, hj⟩, k))))
    (M : ℝ) :
    (st n).2.2 / (st n).2.1 =
      ∑ κ, (Real.exp (sf κ - M) / (∑ κ', Real.exp (sf κ' - M))) * vf κ :=
  online_eq_softmax_flat finProdFinEquiv sf vf st h1 hstep M

/-! ## Extended reals: the maximum as a fold of max from ⊥, and the initial state -/

/-- The inclusion of the reals in the extended reals commutes with nonempty finite maxima. -/
theorem coe_sup' {ι : Type*} (t : Finset ι) (ht : t.Nonempty) (f : ι → ℝ) :
    ((t.sup' ht f : ℝ) : EReal) = t.sup fun i => ((f i : ℝ) : EReal) := by
  rw [Finset.apply_sup'_eq_sup'_comp ht (fun x : ℝ => (x : EReal))
    (fun x y => EReal.coe_strictMono.monotone.map_max), Finset.sup'_eq_sup]
  rfl

/-- The maximum of finitely many reals, in the extended reals, is the fold of max from ⊥. -/
theorem fold_max_coe (f : Fin T → ℝ) :
    (Finset.univ.fold max (⊥ : EReal) fun k => ((f k : ℝ) : EReal)) = ((tileMax f : ℝ) : EReal) :=
  (coe_sup' Finset.univ Finset.univ_nonempty f).symm

/-- The same over any nonempty finite index type (all keys at once). -/
theorem fold_max_coe_univ {ι : Type*} [Fintype ι] [Nonempty ι] (f : ι → ℝ) :
    (Finset.univ.fold max (⊥ : EReal) fun i => ((f i : ℝ) : EReal)) =
      ((Finset.univ.sup' Finset.univ_nonempty f : ℝ) : EReal) :=
  (coe_sup' Finset.univ Finset.univ_nonempty f).symm

/-- The fold of max from ⊥ of extended reals that are all real. -/
theorem fold_max_of_coe {ι : Type*} [Fintype ι] [Nonempty ι] (g : ι → EReal) (f : ι → ℝ)
    (h : ∀ i, g i = ((f i : ℝ) : EReal)) :
    Finset.univ.fold max (⊥ : EReal) g = ((Finset.univ.sup' Finset.univ_nonempty f : ℝ) : EReal) := by
  rw [show g = fun i => ((f i : ℝ) : EReal) from funext h]
  exact fold_max_coe_univ f

/-- A left fold of max along a list is the maximum over the members of the list. -/
theorem foldl_max_eq_sup {ι : Type*} [DecidableEq ι] (l : List ι) (g : ι → EReal) (a : EReal) :
    l.foldl (fun a i => max a (g i)) a = max a (l.toFinset.sup g) := by
  induction l generalizing a with
  | nil => simp
  | cons x tl ih =>
    rw [List.foldl_cons, ih, List.toFinset_cons, Finset.sup_insert, max_assoc]

/-- The same for a left fold along any nonempty list. -/
theorem foldl_max_coe {ι : Type*} [DecidableEq ι] (l : List ι) (hl : l ≠ []) (f : ι → ℝ) :
    l.foldl (fun a i => max a ((f i : ℝ) : EReal)) ⊥ =
      (((l.toFinset.sup' (by simpa using hl) f : ℝ)) : EReal) := by
  rw [foldl_max_eq_sup l (fun i => ((f i : ℝ) : EReal)) ⊥, coe_sup']
  exact bot_sup_eq _

/-- Along the list of all places of a tile. -/
theorem foldl_max_coe_finRange (f : Fin T → ℝ) :
    (List.finRange T).foldl (fun a i => max a ((f i : ℝ) : EReal)) ⊥ = ((tileMax f : ℝ) : EReal) := by
  rw [foldl_max_eq_sup (List.finRange T) (fun i => ((f i : ℝ) : EReal)) ⊥, List.toFinset_finRange]
  exact (bot_sup_eq _).trans (coe_sup' Finset.univ Finset.univ_nonempty f).symm

theorem bot_max_coe (x : ℝ) : max (⊥ : EReal) (x : EReal) = x := bot_sup_eq _

theorem bot_sub_coe (x : ℝ) : (⊥ : EReal) - (x : EReal) = ⊥ := EReal.bot_sub _

theorem zero_mul_zero_add (y : EReal) : (0 : EReal) * 0 + y = y := by simp

end OnlineSoftmax
-- ==== Proof.Pay.Full.lean ====
/-
  One full column tile, at one row. With the tile's row a family of 1920 reals xr, the running maximum
  a real a and the running sum a real s, the tile's new running maximum is a' = max a (max_q xr q) and
  its new running sum is s · exp (a − a') + ∑_q exp (xr q − a').
-/
import proofs.«131330_j46755013984641_2_alg».proof.Proof.Pay.Basic
import proofs.«131330_j46755013984641_2_alg».proof.Proof.LibRowReduce
import proofs.«131330_j46755013984641_2_alg».proof.Proof.LibKeepdims
import proofs.«131330_j46755013984641_2_alg».proof.Proof.LibOnlineSoftmax

set_option synthInstance.maxSize 4096

noncomputable section

namespace Cert.KernelIdeal.Pay

open Idealize.ShloMosaic Idealize.SL.Sem Idealize.ShloMosaic.ValueIdx
open Cert.KernelIdeal Cert.KernelIdeal.Gen

/-- The maximum of the running maximum and the tile's row maximum, at row r. -/
theorem pay3_apply (r : Fin 1024) (x : Vec Ideal S1024x1920 .f32) (mp : Vec Ideal S1024x1 .f32)
    (xr : Fin 1920 → ℝ) (a : ℝ)
    (hx : ∀ q : Fin 1920, x (ix2 r q) = ((xr q : ℝ) : EReal))
    (hm : mp (ix2 r (0 : Fin 1)) = ((a : ℝ) : EReal)) :
    k0_pay3 x mp (ix2 r (0 : Fin 1)) = ((max a (Finset.univ.sup' Finset.univ_nonempty xr) : ℝ) : EReal) := by
  unfold k0_pay3
  rw [maximumf_apply, shapeCast_a_a1_apply, multiReduction_maximumf_row, hm, negInf_f32,
    OnlineSoftmax.fold_max_of_coe _ xr hx]
  exact (EReal.coe_strictMono.monotone.map_max).symm

/-- The new running maximum of a full tile, at row r. -/
theorem full_max (r : Fin 1024) (x : Vec Ideal S1024x1920 .f32) (mp : Vec Ideal S1024x1 .f32)
    (xr : Fin 1920 → ℝ) (a : ℝ)
    (hx : ∀ q : Fin 1920, x (ix2 r q) = ((xr q : ℝ) : EReal))
    (hm : mp (ix2 r (0 : Fin 1)) = ((a : ℝ) : EReal)) :
    k0_pay5 x mp (ix2 r (0 : Fin 1)) = ((max a (Finset.univ.sup' Finset.univ_nonempty xr) : ℝ) : EReal) := by
  unfold k0_pay5
  rw [shapeCast_self]
  exact pay3_apply r x mp xr a hx hm

/-- The new running sum of a full tile, at row r. -/
theorem full_sum (r : Fin 1024) (x : Vec Ideal S1024x1920 .f32) (mp sp : Vec Ideal S1024x1 .f32)
    (xr : Fin 1920 → ℝ) (a s : ℝ)
    (hx : ∀ q : Fin 1920, x (ix2 r q) = ((xr q : ℝ) : EReal))
    (hm : mp (ix2 r (0 : Fin 1)) = ((a : ℝ) : EReal))
    (hs : sp (ix2 r (0 : Fin 1)) = ((s : ℝ) : EReal)) :
    k0_pay4 x mp mp sp (ix2 r (0 : Fin 1)) =
      ((s * Real.exp (a - max a (Finset.univ.sup' Finset.univ_nonempty xr))
        + ∑ q, Real.exp (xr q - max a (Finset.univ.sup' Finset.univ_nonempty xr)) : ℝ) : EReal) := by
  unfold k0_pay4
  rw [shapeCast_self, addf_apply, shapeCast_a_a1_apply, multiReduction_add_row, mulf_apply, exp_apply, subf_apply,
    pay3_apply r x mp xr a hx hm, hm, hs]
  have hsum : ∀ t : Fin 1920,
      exp (subf x (broadcastTo S1024x1920 (k0_pay3 x mp) broadcasts_S1024x1_S1024x1920)) (ix2 r t)
        = ((Real.exp (xr t - max a (Finset.univ.sup' Finset.univ_nonempty xr)) : ℝ) : EReal) := fun t => by
    rw [exp_apply, subf_apply, broadcastTo_a1_ab_apply, pay3_apply r x mp xr a hx hm, hx, ← EReal.coe_sub,
      Ideal.exp_coe]
  rw [Finset.sum_congr rfl (fun t _ => hsum t), coe_sum, ← EReal.coe_sub, Ideal.exp_coe, ← EReal.coe_mul,
    ← EReal.coe_add]

end Cert.KernelIdeal.Pay

end
-- ==== Proof.Pay.Mask.lean ====
/-
  The last column tile's mask and the stand-in constant.

  At grid column 26 the tile's place q is column 26 · 1920 + q = 49920 + q of the array, and the mask compares it,
  as a signed 32-bit word, with the array's width 50257: it is set exactly for q < 337 (all words involved are
  below 2³¹, so the signed comparison is the comparison of the naturals).

  The word 0xF149F2CA has exponent field 226, neither 0 nor 255: it denotes a real number (a normal one), whose
  value is never needed.
-/
import proofs.«131330_j46755013984641_2_alg».proof.Proof.Pay.Basic

set_option synthInstance.maxSize 4096

noncomputable section

namespace Cert.KernelIdeal.Pay

open Idealize.ShloMosaic Idealize.SL.Sem Idealize.ShloMosaic.ValueIdx
open Cert.KernelIdeal Cert.KernelIdeal.Gen

/-- The mask's word arithmetic at a place n < 1920 of tile 26. -/
theorem mask_word (n : ℕ) (hn : n < 1920) :
    IntOp.cmpi .slt (IntOp.addi (Scalar.muli (BitVec.ofNat 32 26) 1920#32) (BitVec.ofNat 32 n)) 50257#32 = 1#1
      ↔ n < 337 := by
  have h1 : Scalar.muli (BitVec.ofNat 32 26) 1920#32 = BitVec.ofNat 32 49920 := by decide
  rw [h1]
  show BitVec.ofBool ((BitVec.ofNat 32 49920 + BitVec.ofNat 32 n).slt 50257#32) = 1#1 ↔ n < 337
  rw [← BitVec.ofNat_add]
  have hnat : (BitVec.ofNat 32 (49920 + n)).toNat = 49920 + n := by
    rw [BitVec.toNat_ofNat]; omega
  have hint : (BitVec.ofNat 32 (49920 + n)).toInt = ((49920 + n : ℕ) : ℤ) := by
    rw [BitVec.toInt_eq_toNat_of_lt (by rw [hnat]; omega), hnat]
  have h2 : (50257#32).toInt = 50257 := by decide
  unfold BitVec.slt
  rw [hint, h2]
  clear hint hnat h2 h1
  by_cases h : n < 337
  · have h3 : ((49920 + n : ℕ) : ℤ) < 50257 := by omega
    rw [decide_eq_true h3]
    exact iff_of_true rfl h
  · have h3 : ¬ ((49920 + n : ℕ) : ℤ) < 50257 := by omega
    rw [decide_eq_false h3]
    exact iff_of_false (by decide) h

/-- The mask at grid column 26: set exactly at the places q < 337 of every row. -/
theorem mask_iff (i : grid0.Coords) (hi : (i 1).val = 26) (r : Fin 1024) (q : Fin 1920) :
    k0_pay6 i (ix2 r q) = 1#1 ↔ q.val < 337 := by
  unfold k0_pay6
  show IntOp.cmpi .slt (IntOp.addi (Scalar.muli (BitVec.ofNat 32 (i 1).val) 1920#32)
    (iota .tc S1024x1920 32 [1] iota_S1024x1920_d1_w32 (ix2 r q))) 50257#32 = 1#1 ↔ _
  rw [iota_single_apply, hi]
  exact mask_word q.val q.isLt

/-- The word 0xF149F2CA denotes a real number. -/
theorem negBig_real : ∃ nb : ℝ, Ideal.ofBits .f32 0xF149F2CA#32 = ((nb : ℝ) : EReal) := by
  show ∃ nb : ℝ, Ideal.ieee 8 23 (0xF149F2CA#32 : BitVec 32) = ((nb : ℝ) : EReal)
  unfold Ideal.ieee
  have hex : ((0xF149F2CA#32 : BitVec 32).extractLsb' 23 8).toNat = 226 := by decide
  simp only [hex]
  rw [if_neg (by decide), if_neg (by decide)]
  exact ⟨_, rfl⟩

/-- The real the word 0xF149F2CA denotes. -/
def negBig : ℝ := (Ideal.ofBits .f32 0xF149F2CA#32).toReal

theorem negBig_eq : Ideal.ofBits .f32 0xF149F2CA#32 = ((negBig : ℝ) : EReal) := by
  obtain ⟨nb, h⟩ := negBig_real
  unfold negBig
  rw [h, EReal.toReal_coe]

/-- The running maximum's seed as a real. -/
theorem seed_max_real (r : Fin 1024) : k0_pay1 (F := Ideal) (ix2 r (0 : Fin 1)) = ((negBig : ℝ) : EReal) :=
  (seed_max r).trans negBig_eq

end Cert.KernelIdeal.Pay

end
-- ==== Proof.Pay.Last.lean ====
/-
  The last, masked column tile, at one row. Only the places q < 337 lie inside the array; the row's other entries
  are arbitrary extended reals and are removed by the selects before anything is computed from them. With xr the
  row's 337 valid entries (xr is arbitrary elsewhere), the running maximum a and the running sum s:
  the new running maximum is a' = max a (max_q (if q < 337 then xr q else nb)), nb the real of the word 0xF149F2CA;
  the new running sum is s · exp (a − a') + ∑_q (if q < 337 then exp (xr q − a') else 0);
  and the stored value, read from a running sum s' > 0, is a' + log s'.
-/
import proofs.«131330_j46755013984641_2_alg».proof.Proof.Pay.Mask
import proofs.«131330_j46755013984641_2_alg».proof.Proof.LibRowReduce
import proofs.«131330_j46755013984641_2_alg».proof.Proof.LibKeepdims
import proofs.«131330_j46755013984641_2_alg».proof.Proof.LibOnlineSoftmax

set_option synthInstance.maxSize 4096

noncomputable section

namespace Cert.KernelIdeal.Pay

open Idealize.ShloMosaic Idealize.SL.Sem Idealize.ShloMosaic.ValueIdx
open Cert.KernelIdeal Cert.KernelIdeal.Gen

/-- The last tile's row with the places outside the array replaced by the stand-in. -/
def lastRow (xr : Fin 1920 → ℝ) : Fin 1920 → ℝ := fun q => if q.val < 337 then xr q else negBig

/-- The last tile's new running maximum. -/
def lastMax (xr : Fin 1920 → ℝ) (a : ℝ) : ℝ := max a (Finset.univ.sup' Finset.univ_nonempty (lastRow xr))

theorem sel_row (i : grid0.Coords) (hi : (i 1).val = 26) (r : Fin 1024) (x : Vec Ideal S1024x1920 .f32)
    (xr : Fin 1920 → ℝ) (hx : ∀ q : Fin 1920, q.val < 337 → x (ix2 r q) = ((xr q : ℝ) : EReal)) (t : Fin 1920) :
    select (k0_pay6 i) x (broadcast S1024x1920 (Scalar.ofBits (F := Ideal) .f32 0xF149F2CA#32)) (ix2 r t)
      = ((lastRow xr t : ℝ) : EReal) := by
  rw [select_apply]
  unfold lastRow
  by_cases h : t.val < 337
  · rw [(mask_iff i hi r t).mpr h, select_one, if_pos h, hx t h]
  · rw [eq_zero_of_ne_one (fun hc => h ((mask_iff i hi r t).mp hc)), select_zero, if_neg h]
    exact negBig_eq

theorem pay7_apply (i : grid0.Coords) (hi : (i 1).val = 26) (r : Fin 1024) (x : Vec Ideal S1024x1920 .f32)
    (mp : Vec Ideal S1024x1 .f32) (xr : Fin 1920 → ℝ) (a : ℝ)
    (hx : ∀ q : Fin 1920, q.val < 337 → x (ix2 r q) = ((xr q : ℝ) : EReal))
    (hm : mp (ix2 r (0 : Fin 1)) = ((a : ℝ) : EReal)) :
    k0_pay7 i x mp (ix2 r (0 : Fin 1)) = ((lastMax xr a : ℝ) : EReal) := by
  unfold k0_pay7
  rw [maximumf_apply, shapeCast_a_a1_apply, multiReduction_maximumf_row, hm, negInf_f32,
    OnlineSoftmax.fold_max_of_coe _ (lastRow xr) (sel_row i hi r x xr hx)]
  exact (EReal.coe_strictMono.monotone.map_max).symm

theorem last_max (i : grid0.Coords) (hi : (i 1).val = 26) (r : Fin 1024) (x : Vec Ideal S1024x1920 .f32)
    (mp : Vec Ideal S1024x1 .f32) (xr : Fin 1920 → ℝ) (a : ℝ)
    (hx : ∀ q : Fin 1920, q.val < 337 → x (ix2 r q) = ((xr q : ℝ) : EReal))
    (hm : mp (ix2 r (0 : Fin 1)) = ((a : ℝ) : EReal)) :
    k0_pay9 i x mp (ix2 r (0 : Fin 1)) = ((lastMax xr a : ℝ) : EReal) := by
  unfold k0_pay9
  rw [shapeCast_self]
  exact pay7_apply i hi r x mp xr a hx hm

theorem last_sum (i : grid0.Coords) (hi : (i 1).val = 26) (r : Fin 1024) (x : Vec Ideal S1024x1920 .f32)
    (mp sp : Vec Ideal S1024x1 .f32) (xr : Fin 1920 → ℝ) (a s : ℝ)
    (hx : ∀ q : Fin 1920, q.val < 337 → x (ix2 r q) = ((xr q : ℝ) : EReal))
    (hm : mp (ix2 r (0 : Fin 1)) = ((a : ℝ) : EReal))
    (hs : sp (ix2 r (0 : Fin 1)) = ((s : ℝ) : EReal)) :
    k0_pay8 i x mp mp sp (ix2 r (0 : Fin 1)) =
      ((s * Real.exp (a - lastMax xr a)
        + ∑ q : Fin 1920, (if q.val < 337 then Real.exp (xr q - lastMax xr a) else 0) : ℝ) : EReal) := by
  unfold k0_pay8
  rw [shapeCast_self, addf_apply, shapeCast_a_a1_apply, multiReduction_add_row, mulf_apply, exp_apply, subf_apply,
    pay7_apply i hi r x mp xr a hx hm, hm, hs]
  have hsum : ∀ t : Fin 1920,
      select (k0_pay6 i)
          (exp (subf x (broadcastTo S1024x1920 (k0_pay7 i x mp) broadcasts_S1024x1_S1024x1920)))
          (broadcast S1024x1920 (Scalar.ofBits (F := Ideal) .f32 0x00000000#32)) (ix2 r t)
        = (((if t.val < 337 then Real.exp (xr t - lastMax xr a) else 0) : ℝ) : EReal) := fun t => by
    rw [select_apply]
    by_cases h : t.val < 337
    · rw [(mask_iff i hi r t).mpr h, select_one, if_pos h, exp_apply, subf_apply, broadcastTo_a1_ab_apply,
        pay7_apply i hi r x mp xr a hx hm, hx t h, ← EReal.coe_sub, Ideal.exp_coe]
    · rw [eq_zero_of_ne_one (fun hc => h ((mask_iff i hi r t).mp hc)), select_zero, if_neg h, broadcast_apply]
      exact Ideal.ofBits_zero_f32
  rw [Finset.sum_congr rfl (fun t _ => hsum t), coe_sum, ← EReal.coe_sub, Ideal.exp_coe, ← EReal.coe_mul,
    ← EReal.coe_add]

theorem last_out (i : grid0.Coords) (hi : (i 1).val = 26) (r : Fin 1024) (x : Vec Ideal S1024x1920 .f32)
    (mp sl : Vec Ideal S1024x1 .f32) (xr : Fin 1920 → ℝ) (a s' : ℝ)
    (hx : ∀ q : Fin 1920, q.val < 337 → x (ix2 r q) = ((xr q : ℝ) : EReal))
    (hm : mp (ix2 r (0 : Fin 1)) = ((a : ℝ) : EReal))
    (hsl : sl (ix2 r (0 : Fin 1)) = ((s' : ℝ) : EReal)) (hpos : 0 < s') :
    k0_pay10 i x mp sl (ix2 r (0 : Fin 1)) = ((lastMax xr a + Real.log s' : ℝ) : EReal) := by
  unfold k0_pay10
  rw [addf_apply, log_apply, pay7_apply i hi r x mp xr a hx hm, hsl, Ideal.log_coe, if_neg (not_le.mpr hpos),
    ← EReal.coe_add]

end Cert.KernelIdeal.Pay

end
-- ==== Proof.Pay.Math.lean ====
/-
  Real-analysis facts for the streamed log-sum-exp of 50257 terms taken in tiles of 1920.

  Splitting sums: the terms with index below 1920 · (j + 1) are those below 1920 · j and the 1920 terms
  1920 · j + q (for j ≤ 25, as 1920 · 26 = 49920 ≤ 50257); all 50257 terms are those below 49920 and the 337 terms
  49920 + q, q < 337 (49920 + 337 = 50257).
  Rescaling: (s · exp (a − a') + ∑ exp (y q − a')) · exp a' = s · exp a + ∑ exp (y q), for every a'.
  The end: if s · exp a = ∑ₖ exp (y k) over a nonempty family then s > 0 and a + log s = log ∑ₖ exp (y k).
-/
import proofs.«131330_j46755013984641_2_alg».proof.Proof.Spec
import Mathlib.Algebra.BigOperators.Intervals
import Mathlib.Algebra.BigOperators.Fin

namespace Cert.KernelIdeal.Pay

open Finset

/-- A family over the 50257 indices, continued by 0 to all naturals. -/
noncomputable def ext0 (f : Fin 50257 → ℝ) (i : ℕ) : ℝ := if h : i < 50257 then f ⟨i, h⟩ else 0

theorem ext0_val (f : Fin 50257 → ℝ) (k : Fin 50257) : ext0 f k.val = f k := dif_pos k.isLt

theorem ext0_of_lt (f : Fin 50257 → ℝ) {i : ℕ} (h : i < 50257) : ext0 f i = f ⟨i, h⟩ := dif_pos h

/-- The terms with index below n, as a sum over the naturals below n. -/
theorem sum_prefix (f : Fin 50257 → ℝ) (n : ℕ) (hn : n ≤ 50257) :
    ∑ k ∈ (Finset.univ.filter fun k : Fin 50257 => k.val < n), f k = ∑ i ∈ range n, ext0 f i := by
  rw [Finset.sum_filter,
    Finset.sum_congr rfl (fun k _ => by
      show (if k.val < n then f k else 0) = if k.val < n then ext0 f k.val else 0
      rw [ext0_val] :
      ∀ k ∈ (Finset.univ : Finset (Fin 50257)), (if k.val < n then f k else 0)
        = (fun i : ℕ => if i < n then ext0 f i else 0) k.val),
    Fin.sum_univ_eq_sum_range (fun i => if i < n then ext0 f i else 0) 50257,
    show (50257 : ℕ) = n + (50257 - n) from by omega, Finset.sum_range_add,
    Finset.sum_congr rfl (fun i hi => if_pos (Finset.mem_range.mp hi)),
    Finset.sum_eq_zero (fun i _ => if_neg (by omega)), add_zero]

/-- All the terms, as a sum over the naturals below 50257. -/
theorem sum_all (f : Fin 50257 → ℝ) : ∑ k : Fin 50257, f k = ∑ i ∈ range 50257, ext0 f i := by
  rw [Finset.sum_congr rfl (fun k _ => (ext0_val f k).symm :
      ∀ k ∈ (Finset.univ : Finset (Fin 50257)), f k = (fun i : ℕ => ext0 f i) k.val),
    Fin.sum_univ_eq_sum_range (fun i => ext0 f i) 50257]

theorem tile_bound {j : ℕ} (hj : j ≤ 25) (q : Fin 1920) : 1920 * j + q.val < 50257 := by
  have := q.isLt; omega

theorem last_bound {q : Fin 1920} (h : q.val < 337) : 49920 + q.val < 50257 := by omega

/-- (M1) One more full tile of columns. -/
theorem split_cols (f : Fin 50257 → ℝ) (j : ℕ) (hj : j ≤ 25) :
    ∑ k ∈ (Finset.univ.filter fun k : Fin 50257 => k.val < 1920 * (j + 1)), f k
      = (∑ k ∈ (Finset.univ.filter fun k : Fin 50257 => k.val < 1920 * j), f k)
        + ∑ q : Fin 1920, f ⟨1920 * j + q.val, tile_bound hj q⟩ := by
  rw [sum_prefix f (1920 * (j + 1)) (by omega), sum_prefix f (1920 * j) (by omega), Nat.mul_succ,
    Finset.sum_range_add,
    Finset.sum_congr rfl (fun q _ => (ext0_of_lt f (tile_bound hj q)).symm :
      ∀ q ∈ (Finset.univ : Finset (Fin 1920)), f ⟨1920 * j + q.val, tile_bound hj q⟩
        = (fun i : ℕ => ext0 f (1920 * j + i)) q.val),
    Fin.sum_univ_eq_sum_range (fun i => ext0 f (1920 * j + i)) 1920]

/-- A masked sum over the 1920 places of the last tile is the sum over its first 337 places. -/
theorem sum_masked337 (g : ℕ → ℝ) :
    (∑ q : Fin 1920, if q.val < 337 then g q.val else 0) = ∑ i ∈ range 337, g i := by
  rw [Fin.sum_univ_eq_sum_range (fun i => if i < 337 then g i else 0) 1920,
    show (1920 : ℕ) = 337 + 1583 from rfl, Finset.sum_range_add,
    Finset.sum_congr rfl (fun i hi => if_pos (Finset.mem_range.mp hi)),
    Finset.sum_eq_zero (fun i _ => if_neg (by omega)), add_zero]

/-- (M2) The last tile: its first 337 places complete the 50257 columns. -/
theorem split_last (f : Fin 50257 → ℝ) :
    ∑ k : Fin 50257, f k
      = (∑ k ∈ (Finset.univ.filter fun k : Fin 50257 => k.val < 49920), f k)
        + ∑ q : Fin 1920, if h : q.val < 337 then f ⟨49920 + q.val, last_bound h⟩ else 0 := by
  have hmask : ∀ q ∈ (Finset.univ : Finset (Fin 1920)),
      (if h : q.val < 337 then f ⟨49920 + q.val, last_bound h⟩ else 0)
        = if q.val < 337 then (fun i : ℕ => ext0 f (49920 + i)) q.val else 0 := fun q _ => by
    by_cases h : q.val < 337
    · rw [dif_pos h, if_pos h]; exact (ext0_of_lt f (last_bound h)).symm
    · rw [dif_neg h, if_neg h]
  rw [sum_all f, sum_prefix f 49920 (by omega), Finset.sum_congr rfl hmask,
    sum_masked337 (fun i => ext0 f (49920 + i)), show (50257 : ℕ) = 49920 + 337 from rfl, Finset.sum_range_add]

/-- (M2, the left side as the prefix below 50257.) -/
theorem split_last' (f : Fin 50257 → ℝ) :
    ∑ k ∈ (Finset.univ.filter fun k : Fin 50257 => k.val < 50257), f k
      = (∑ k ∈ (Finset.univ.filter fun k : Fin 50257 => k.val < 49920), f k)
        + ∑ q : Fin 1920, if h : q.val < 337 then f ⟨49920 + q.val, last_bound h⟩ else 0 := by
  rw [Finset.filter_true_of_mem (fun k _ => k.isLt)]
  exact split_last f

/-- (M3) Rescaling to any new shift a'. -/
theorem rescale (a s a' : ℝ) {ι : Type*} (t : Finset ι) (y : ι → ℝ) :
    (s * Real.exp (a - a') + ∑ q ∈ t, Real.exp (y q - a')) * Real.exp a'
      = s * Real.exp a + ∑ q ∈ t, Real.exp (y q) := by
  rw [add_mul, Finset.sum_mul, mul_assoc, ← Real.exp_add, sub_add_cancel]
  refine congrArg (fun z => s * Real.exp a + z) (Finset.sum_congr rfl fun k _ => ?_)
  rw [← Real.exp_add, sub_add_cancel]

/-- (M3, masked.) The same with the sum over the first 337 of 1920 places. -/
theorem rescale_masked (a s a' : ℝ) (y : Fin 1920 → ℝ) :
    (s * Real.exp (a - a') + ∑ q : Fin 1920, if q.val < 337 then Real.exp (y q - a') else 0) * Real.exp a'
      = s * Real.exp a + ∑ q : Fin 1920, if q.val < 337 then Real.exp (y q) else 0 := by
  rw [← Finset.sum_filter, ← Finset.sum_filter]
  exact rescale a s a' _ y

/-- (M4) The end: a pair with s · exp a = ∑ₖ exp (y k) has s > 0 and a + log s = log ∑ₖ exp (y k). -/
theorem finish (a s : ℝ) (y : Fin 50257 → ℝ) (h : s * Real.exp a = ∑ k, Real.exp (y k)) :
    0 < s ∧ a + Real.log s = Cert.Lse.lse y := by
  have hpos : 0 < s * Real.exp a := h ▸ Cert.Lse.sum_exp_pos y
  have hs : 0 < s := pos_of_mul_pos_left hpos (Real.exp_pos a).le
  refine ⟨hs, ?_⟩
  unfold Cert.Lse.lse
  rw [← h, Real.log_mul hs.ne' (Real.exp_pos a).ne', Real.log_exp, add_comm]

end Cert.KernelIdeal.Pay
-- ==== Proof.KI.Step.lean ====
/-
  The invariant's three steps.

  Write R for the array row of row r of the block, a' for the new shift the tile produces (the
  maximum of the old shift and the tile's entries; at the last tile the entries outside the array
  count as the finite stand-in for −∞), and T for the tile's columns. The kernel's update is

      s' = s · exp (a − a') + ∑_{k ∈ T} exp (x k − a'),

  so s' · exp a' = s · exp a + ∑_{k ∈ T} exp (x k): the product gains exactly the tile's
  exponentials, whatever a' is. The seed is s = 0 (product 0, the empty sum). After the last tile
  the product is the whole row's sum of exponentials, the sum column is positive, and
  a' + log s' = log ∑ₖ exp (x k).
-/
import proofs.«131330_j46755013984641_2_alg».proof.Proof.KI.Data
import proofs.«131330_j46755013984641_2_alg».proof.Proof.Pay.Basic
import proofs.«131330_j46755013984641_2_alg».proof.Proof.Pay.Full
import proofs.«131330_j46755013984641_2_alg».proof.Proof.Pay.Mask
import proofs.«131330_j46755013984641_2_alg».proof.Proof.Pay.Last
import proofs.«131330_j46755013984641_2_alg».proof.Proof.Pay.Math

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx

variable (xr : Dev nD → Fin 4096 → Fin 50257 → ℝ)

theorem colsDone_mid {n : ℕ} (h : n % 27 ≤ 25) : colsDone n = 1920 * (n % 27 + 1) := by
  unfold colsDone; exact Nat.min_eq_left (by omega)
theorem colsDone_last {n : ℕ} (h : n % 27 = 26) : colsDone n = 50257 := by
  unfold colsDone; rw [h]; exact Nat.min_eq_right (by norm_num)
theorem colsDone_pred {n : ℕ} (h : 1 ≤ n % 27) : colsDone (n - 1) = 1920 * (n % 27) := by
  have e : (n - 1) % 27 = n % 27 - 1 := by omega
  unfold colsDone; rw [e]
  have : n % 27 < 27 := Nat.mod_lt _ (by norm_num)
  rw [Nat.min_eq_left (by omega)]; congr 1; omega
theorem rowOf_pred {n : ℕ} (h : 1 ≤ n % 27) (q : ℕ) : rowOf (n - 1) q = rowOf n q := by
  have e : (n - 1) / 27 = n / 27 := by omega
  unfold rowOf; simp only [e]

/-- The first column tile of a row block: the seeds, then one fold. -/
theorem good_first (c : Dev nD) (n : ℕ) (hn : n % 27 = 0) (x0 : Vec Ideal S1024x1920 .f32)
    (hx0 : ∀ (r : Fin 1024) (q : Fin 1920), x0 (ix2 r q) = ((xr c (rowOf n r.val) ⟨1920 * (n % 27) + q.val, by rw [hn]; have := q.isLt; omega⟩ : ℝ) : EReal)) :
    Good xr c n (k0_pay5 x0 (k0_pay1 (F := Ideal))) (k0_pay4 x0 (k0_pay1 (F := Ideal)) (k0_pay1 (F := Ideal)) (k0_pay2 (F := Ideal))) := by
  intro r
  let xrow : Fin 1920 → ℝ := fun q => xr c (rowOf n r.val) ⟨1920 * (n % 27) + q.val, by rw [hn]; have := q.isLt; omega⟩
  have hs0 : k0_pay2 (F := Ideal) (ix2 r (0 : Fin 1)) = (((0 : ℝ)) : EReal) := by rw [seed_sum r]; exact EReal.coe_zero.symm
  refine ⟨_, _, full_max r x0 _ xrow negBig (hx0 r) (seed_max_real r), full_sum r x0 _ _ xrow negBig 0 (hx0 r) (seed_max_real r) hs0, ?_⟩
  rw [rescale, colsDone_mid (by omega), hn]
  have hsplit := split_cols (fun k => Real.exp (xr c (rowOf n r.val) k)) 0 (by norm_num)
  rw [show 1920 * (0 + 1) = 1920 * (0 + 1) from rfl] at hsplit
  rw [hsplit]
  have hempty : (Finset.univ.filter fun k : Fin 50257 => k.val < 1920 * 0) = ∅ := by
    apply Finset.filter_false_of_mem; intro k _; omega
  rw [hempty, Finset.sum_empty, zero_mul]
  refine congrArg _ (Finset.sum_congr rfl fun q _ => ?_)
  simp only [xrow, hn]

/-- A middle column tile: one fold into what the point before left. -/
theorem good_mid (c : Dev nD) (n : ℕ) (h1 : 1 ≤ n % 27) (h2 : n % 27 ≤ 25) (x0 : Vec Ideal S1024x1920 .f32)
    (hx0 : ∀ (r : Fin 1024) (q : Fin 1920), x0 (ix2 r q) = ((xr c (rowOf n r.val) ⟨1920 * (n % 27) + q.val, tile_bound h2 q⟩ : ℝ) : EReal))
    (sm ss : Vec Ideal S1024x1 .f32) (hg : Good xr c (n - 1) sm ss) :
    Good xr c n (k0_pay5 x0 sm) (k0_pay4 x0 sm sm ss) := by
  intro r
  obtain ⟨a, s, hm, hs, hrep⟩ := hg r
  let xrow : Fin 1920 → ℝ := fun q => xr c (rowOf n r.val) ⟨1920 * (n % 27) + q.val, tile_bound h2 q⟩
  refine ⟨_, _, full_max r x0 sm xrow a (hx0 r) hm, full_sum r x0 sm ss xrow a s (hx0 r) hm hs, ?_⟩
  rw [rescale, hrep, colsDone_pred h1, rowOf_pred h1, colsDone_mid h2]
  exact (split_cols (fun k => Real.exp (xr c (rowOf n r.val) k)) (n % 27) h2).symm

/-- The last column tile: the masked fold; every column is then in, the sum is positive, and the
    stored output is the row's log-sum-exp. -/
theorem good_last (c : Dev nD) (n : ℕ) (hn : n % 27 = 26) (i : grid0.Coords) (hi : (i 1).val = 26) (x0 : Vec Ideal S1024x1920 .f32)
    (hx0 : ∀ (r : Fin 1024) (q : Fin 1920) (h : q.val < 337), x0 (ix2 r q) = ((xr c (rowOf n r.val) ⟨49920 + q.val, last_bound h⟩ : ℝ) : EReal))
    (sm ss : Vec Ideal S1024x1 .f32) (hg : Good xr c (n - 1) sm ss) :
    Good xr c n (k0_pay9 i x0 sm) (k0_pay8 i x0 sm sm ss)
      ∧ ∀ r : Fin 1024, k0_pay10 i x0 sm (k0_pay8 i x0 sm sm ss) (ix2 r (0 : Fin 1)) = ((Cert.Lse.lse (xr c (rowOf n r.val)) : ℝ) : EReal) := by
  have key : ∀ r : Fin 1024, ∃ a' s' : ℝ, k0_pay9 i x0 sm (ix2 r (0 : Fin 1)) = ((a' : ℝ) : EReal)
      ∧ k0_pay8 i x0 sm sm ss (ix2 r (0 : Fin 1)) = ((s' : ℝ) : EReal)
      ∧ s' * Real.exp a' = ∑ k : Fin 50257, Real.exp (xr c (rowOf n r.val) k)
      ∧ k0_pay10 i x0 sm (k0_pay8 i x0 sm sm ss) (ix2 r (0 : Fin 1)) = ((a' + Real.log s' : ℝ) : EReal) := by
    intro r
    obtain ⟨a, s, hm, hs, hrep⟩ := hg r
    let xrow : Fin 1920 → ℝ := fun q => if h : q.val < 337 then xr c (rowOf n r.val) ⟨49920 + q.val, last_bound h⟩ else 0
    have hxr : ∀ q : Fin 1920, q.val < 337 → x0 (ix2 r q) = ((xrow q : ℝ) : EReal) := fun q h => by
      rw [hx0 r q h]; simp only [xrow, dif_pos h]
    have hsum := last_sum i hi r x0 sm ss xrow a s hxr hm hs
    have hrep' : (s * Real.exp (a - lastMax xrow a) + ∑ q : Fin 1920, if q.val < 337 then Real.exp (xrow q - lastMax xrow a) else 0) * Real.exp (lastMax xrow a)
        = ∑ k : Fin 50257, Real.exp (xr c (rowOf n r.val) k) := by
      rw [rescale_masked, hrep, colsDone_pred (by omega), rowOf_pred (by omega), hn, split_last (fun k => Real.exp (xr c (rowOf n r.val) k))]
      refine congrArg _ (Finset.sum_congr rfl fun q _ => ?_)
      by_cases h : q.val < 337
      · simp only [if_pos h, dif_pos h, xrow]
      · simp only [if_neg h, dif_neg h]
    have hfin := finish _ _ (fun k => xr c (rowOf n r.val) k) hrep'
    refine ⟨_, _, last_max i hi r x0 sm xrow a hxr hm, hsum, hrep', ?_⟩
    exact last_out i hi r x0 sm _ xrow a _ hxr hm hsum hfin.1
  refine ⟨fun r => ?_, fun r => ?_⟩
  · obtain ⟨a', s', h1, h2, h3, -⟩ := key r
    refine ⟨a', s', h1, h2, ?_⟩
    rw [h3, colsDone_last hn]
    exact (Finset.sum_congr (Finset.filter_true_of_mem fun k _ => k.isLt).symm fun _ _ => rfl)
  · obtain ⟨a', s', -, -, h3, h4⟩ := key r
    rw [h4]
    exact congrArg _ (finish a' s' (fun k => xr c (rowOf n r.val) k) h3).2

end Cert.KernelIdeal.Hand

end
-- ==== Proof.Blk.Read.lean ====
/-
  An entry of the input's staging buffer is an entry of the array.

  At point t the fetch lands block (t / 27, t % 27) of the input — rows 1024 * (t / 27) + r, columns
  1920 * (t % 27) + q — in the staging buffer; at the last column tile only the columns below 50257
  are moved. So wherever 1920 * (t % 27) + q < 50257, entry (r, q) of the staging buffer is entry
  (1024 * (t / 27) + r, 1920 * (t % 27) + q) of the array, whatever the buffer held before.
-/
import proofs.«131330_j46755013984641_2_alg».proof.Proof.Blk.Facts
import proofs.«131330_j46755013984641_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (xr : Dev nD → Fin 4096 → Fin 50257 → ℝ)

/-- Entry (r, q) of the input's staging buffer after the fetch at point t, for a column inside the
    array, is the array's entry at row 1024 * (t / 27) + r, column 1920 * (t % 27) + q. -/
theorem fill_read (c : Dev nD) (t : Fin cfg0.N) (d : S1024x1920.Idx → EReal) (r : Fin 1024) (q : Fin 1920)
    (hq : 1920 * (t.val % 27) + q.val < 50257) :
    win0_0.fill (grid0.coords t) d (iblk m c 0 t) (ix2 r q)
      = V m c main_arg0 (ix2 (rowOf t.val r.val) ⟨1920 * (t.val % 27) + q.val, hq⟩) := by
  obtain ⟨x0, x1⟩ := xsize0_0 t
  obtain ⟨i0, i1⟩ := index0_0 t
  have hN : t.val < 108 := N_0 ▸ t.isLt
  -- the entry is among those the transfer moves: r < 1024, and q is below the cut on the column axis
  have hmv : win0_0.moved (grid0.coords t) (ix2 r q) = true := by
    rw [Window.moved_iff]
    intro a
    match a with
    | ⟨0, _⟩ => show r.val < win0_0.xsize (grid0.coords t) (0 : Fin 2); rw [x0]; exact r.isLt
    | ⟨1, _⟩ => show q.val < win0_0.xsize (grid0.coords t) (1 : Fin 2); rw [x1]; split <;> omega
  unfold Window.fill
  rw [dif_pos hmv]
  unfold iblk
  -- the block's entry sits in the array at block index * block size + its own coordinate, per axis
  show V m c main_arg0 (((cfg0.win 0).blk t).view.emb _) = V m c main_arg0 _
  refine congrArg (V m c main_arg0) ?_
  funext a; apply Fin.ext
  match a with
  | ⟨0, _⟩ =>
    show win0_0.index t (0 : Fin 2) * 1024 + 1 * r.val = (1024 * (t.val / 27) + r.val) % 4096
    rw [i0]; have := r.isLt; omega
  | ⟨1, _⟩ =>
    show win0_0.index t (1 : Fin 2) * 1920 + 1 * q.val = 1920 * (t.val % 27) + q.val
    rw [i1]; omega

/-- The same, when the array holds the reals xr. -/
theorem fill_read_real (c : Dev nD)
    (hx : ∀ (R : Fin 4096) (k : Fin 50257), V m c main_arg0 (ix2 R k) = ((xr c R k : ℝ) : EReal))
    (t : Fin cfg0.N) (d : S1024x1920.Idx → EReal) (r : Fin 1024) (q : Fin 1920)
    (hq : 1920 * (t.val % 27) + q.val < 50257) :
    win0_0.fill (grid0.coords t) d (iblk m c 0 t) (ix2 r q)
      = ((xr c (rowOf t.val r.val) ⟨1920 * (t.val % 27) + q.val, hq⟩ : ℝ) : EReal) :=
  (fill_read m c t d r q hq).trans (hx _ _)

end Cert.KernelIdeal.Hand

end
-- ==== Proof.KI.Body.lean ====
/-
  The body obligation of the idealized kernel on real inputs.

  At every grid point the body is handed the input block (the array's entries where the block lies
  inside the array, contents nothing names past its edge), the output block's buffer, and the two
  scratch columns under the invariant of the point before. By the column tile the point is a first,
  a middle or the last tile; the matching run applies; what the run leaves in the scratch columns
  is the kernel's fold of the block, which carries the invariant one tile further; at the last tile
  the stored output block is the rows' log-sum-exp. The entries past the array's edge never matter:
  the last tile reads the block only under its mask.
-/
import proofs.«131330_j46755013984641_2_alg».proof.Proof.KI.Pieces
import proofs.«131330_j46755013984641_2_alg».proof.Proof.KI.Step
import proofs.«131330_j46755013984641_2_alg».proof.Proof.Blk.Read

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (xr : Dev nD → Fin 4096 → Fin 50257 → ℝ)

/-- Whatever the invariant says of the scratch columns, they are owned at SOME contents. -/
theorem PhiS_any (c : Dev nD) (n : ℕ) :
    PhiS xr c n ⊢ (iprop(iprop((∃ d, owns (c : Thread nD τ) scM0_0 fullShare d) ∗ (∃ d, owns (c : Thread nD τ) scM0_1 fullShare d)) ∗ (∃ r, prngReg c r)) : sProp 𝕄) := by
  cases n with
  | zero => rw [PhiS_zero, PhiA0_eq]
  | succ n =>
    rw [PhiS_succ]
    iintro ⟨⟨%sm, %ss, %hg, H0, H1⟩, Hg⟩
    isplitl [H0 H1]
    · isplitl [H0]
      · iexists _; iexact H0
      · iexists _; iexact H1
    iexact Hg

/-- What the obligation asks of the output window's buffer after the body: off the last column tile,
    that it is as the body found it; at the last column tile, the rows' log-sum-exp. -/
def post1 (c : Dev nD) (t : Fin cfg0.N) : sProp 𝕄 :=
  match idle0 1 (grid0.coords t) with
  | true =>
    match (win0 1).flush t with
    | false => iprop(∃ d, owns (c : Thread nD τ) (ms0_1 t) fullShare ((dats m xr 0 c).before 1 t d))
    | true => owns (c : Thread nD τ) (ms0_1 t) fullShare (lseBlk xr c t.val)
  | false => owns (c : Thread nD τ) (ms0_1 t) fullShare (lseBlk xr c t.val)

theorem post1_idle (c : Dev nD) (t : Fin cfg0.N) (h : ¬cond0_2 (grid0.coords t)) :
    post1 m xr c t = iprop(∃ d, owns (c : Thread nD τ) (ms0_1 t) fullShare ((dats m xr 0 c).before 1 t d)) := by
  have h1 : idle0 1 (grid0.coords t) = true := idleAt0_1 t h
  have h2 : (win0 1).flush t = false := noFlush0_1 t h
  unfold post1; rw [h1, h2]
theorem post1_live (c : Dev nD) (t : Fin cfg0.N) (h : cond0_2 (grid0.coords t)) :
    post1 m xr c t = owns (c : Thread nD τ) (ms0_1 t) fullShare (lseBlk xr c t.val) := by
  have h1 : idle0 1 (grid0.coords t) = false := liveAt0_1 t h
  unfold post1; rw [h1]

set_option maxHeartbeats 4000000 in
/-- The body at any point. -/
theorem sound_body (hx : ∀ (c : Dev nD) (R : Fin 4096) (k : Fin 50257), V m c main_arg0 (ix2 R k) = ((xr c R k : ℝ) : EReal)) (c : Dev nD) (t : Fin cfg0.N) :
    (iprop(PhiS xr c t.val ∗ (dats m xr 0 c).owesAt () t.castSucc
        ∗ (∃ d, owns (c : Thread nD τ) (ms0_0 t) fullShare (win0_0.fill (grid0.coords t) d (iblk m c 0 t)))
        ∗ (∃ d, owns (c : Thread nD τ) (ms0_1 t) fullShare ((dats m xr 0 c).before 1 t d))) : sProp 𝕄)
      ⊢ wp frame (wpE (defs₀ (F := Ideal)) Variants.none c none) Set.univ (bodyAt0 t) (fun _ =>
          iprop(PhiS xr c (t.val + 1) ∗ (dats m xr 0 c).owesAt () t.castSucc
            ∗ (∃ d, owns (c : Thread nD τ) (ms0_0 t) fullShare (win0_0.fill (grid0.coords t) d (iblk m c 0 t)))
            ∗ post1 m xr c t)) := by
  have hN : t.val < 108 := lt_of_lt_of_eq t.isLt (show cfg0.N = 108 from N_0)
  have hcol := coords_col t
  unfold bodyAt0
  rw [PhiS_succ]
  by_cases hA : t.val % 27 = 0
  · -- a first tile
    have hc0 : cond0_0 (grid0.coords t) := (hcond0_0 t).mpr hA
    have hc1 : cond0_1 (grid0.coords t) := (hcond0_1 t).mpr (by omega)
    have hc2 : ¬cond0_2 (grid0.coords t) := fun h => by have := (hcond0_2 t).mp h; omega
    rw [post1_idle m xr c t hc2]
    refine (sep_mono (PhiS_any xr c t.val) .rfl).trans ?_
    iintro ⟨⟨⟨HS0, HS1⟩, Hg⟩, Ho, ⟨%d0, H0⟩, ⟨%d1, H1⟩⟩
    iapply ((kernelRun0_A c (grid0.coords t) (ms0_0 t) (hs0_0 t) (ms0_1 t) (hs0_1 t) scM0_0 (Memref.isWhole_whole _) scM0_1 (Memref.isWhole_whole _) hc0 hc1 hc2 (win0_0.fill (grid0.coords t) d0 (iblk m c 0 t))).2.2 ((dats m xr 0 c).before 1 t d1) Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hg]
    · isplitl [HS0 HS1]
      · iexists (k0_pay5 (win0_0.fill (grid0.coords t) d0 (iblk m c 0 t)) (k0_pay1 (F := Ideal)))
        iexists (k0_pay4 (win0_0.fill (grid0.coords t) d0 (iblk m c 0 t)) (k0_pay1 (F := Ideal)) (k0_pay1 (F := Ideal)) (k0_pay2 (F := Ideal)))
        isplitr
        · ipureintro
          exact good_first xr c t.val hA _ fun r q => fill_read_real m xr c (hx c) t d0 r q _
        isplitl [HS0]
        · unfold owns; iexists _; isplitr
          swap; · iexact HS0
          ipureintro; exact (View.read_writes_eq_canon _ _ _ (coverA_max c _ _ _ _ _ _ _ _ _ hc0 hc1 hc2 _)).trans (pieceA_max c _ _ _ _ _ _ _ _ _ hc0 hc1 hc2 _)
        · unfold owns; iexists _; isplitr
          swap; · iexact HS1
          ipureintro; exact (View.read_writes_eq_canon _ _ _ (coverA_sum c _ _ _ _ _ _ _ _ _ hc0 hc1 hc2 _)).trans (pieceA_sum c _ _ _ _ _ _ _ _ _ hc0 hc1 hc2 _)
      · iexact Hg
    isplitl [Ho]; · iexact Ho
    isplitl [H0]; · iexists d0; iexact H0
    iexists d1; iexact H1
  · by_cases hC : t.val % 27 = 26
    · -- the last tile
      have hc0 : ¬cond0_0 (grid0.coords t) := fun h => hA ((hcond0_0 t).mp h)
      have hc1 : ¬cond0_1 (grid0.coords t) := fun h => by have := (hcond0_1 t).mp h; omega
      have hc2 : cond0_2 (grid0.coords t) := (hcond0_2 t).mpr hC
      have hz : t.val ≠ 0 := fun h => by rw [h] at hC; norm_num at hC
      have hi : ((grid0.coords t) 1).val = 26 := hcol.trans hC
      rw [post1_live m xr c t hc2, PhiS_pos xr c _ hz]
      iintro ⟨⟨⟨%sm, %ss, %hg, HS0, HS1⟩, Hg⟩, Ho, ⟨%d0, H0⟩, ⟨%d1, H1⟩⟩
      have hlast := good_last xr c t.val hC (grid0.coords t) hi (win0_0.fill (grid0.coords t) d0 (iblk m c 0 t))
        (fun r q h => by
          have hq : 1920 * (t.val % 27) + q.val < 50257 := by omega
          have e : (⟨1920 * (t.val % 27) + q.val, hq⟩ : Fin 50257) = ⟨49920 + q.val, last_bound h⟩ := Fin.ext (by show 1920 * (t.val % 27) + q.val = 49920 + q.val; omega)
          rw [fill_read_real m xr c (hx c) t d0 r q hq, e]) sm ss hg
      iapply ((kernelRun0_C c (grid0.coords t) (ms0_0 t) (hs0_0 t) (ms0_1 t) (hs0_1 t) scM0_0 (Memref.isWhole_whole _) scM0_1 (Memref.isWhole_whole _) hc0 hc1 hc2 (win0_0.fill (grid0.coords t) d0 (iblk m c 0 t)) sm ss).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hg]
      · isplitl [HS0 HS1]
        · iexists (k0_pay9 (grid0.coords t) (win0_0.fill (grid0.coords t) d0 (iblk m c 0 t)) sm)
          iexists (k0_pay8 (grid0.coords t) (win0_0.fill (grid0.coords t) d0 (iblk m c 0 t)) sm sm ss)
          isplitr
          · ipureintro; exact hlast.1
          isplitl [HS0]
          · unfold owns; iexists _; isplitr
            swap; · iexact HS0
            ipureintro; exact (View.read_writes_eq_canon _ _ _ (coverC_max c _ _ _ _ _ _ _ _ _ hc0 hc1 hc2 _ _ _)).trans (pieceC_max c _ _ _ _ _ _ _ _ _ hc0 hc1 hc2 _ _ _)
          · unfold owns; iexists _; isplitr
            swap; · iexact HS1
            ipureintro; exact (View.read_writes_eq_canon _ _ _ (coverC_sum c _ _ _ _ _ _ _ _ _ hc0 hc1 hc2 _ _ _)).trans (pieceC_sum c _ _ _ _ _ _ _ _ _ hc0 hc1 hc2 _ _ _)
        · iexact Hg
      isplitl [Ho]; · iexact Ho
      isplitl [H0]; · iexists d0; iexact H0
      unfold owns; iexists _; isplitr
      swap; · iexact H1
      ipureintro
      refine ((View.read_writes_eq_canon _ _ _ (coverC_out c _ _ _ _ _ _ _ _ _ hc0 hc1 hc2 _ _ _)).trans (pieceC_out c _ _ _ _ _ _ _ _ _ hc0 hc1 hc2 _ _ _)).trans ?_
      funext y
      obtain ⟨r, u, rfl⟩ : ∃ (r : Fin 1024) (u : Fin 1), y = ix2 r u := ⟨y 0, y 1, eq_ix2 y⟩
      obtain rfl : u = 0 := Subsingleton.elim _ _
      exact hlast.2 r
    · -- a middle tile
      have hc0 : ¬cond0_0 (grid0.coords t) := fun h => hA ((hcond0_0 t).mp h)
      have hc1 : cond0_1 (grid0.coords t) := (hcond0_1 t).mpr (by omega)
      have hc2 : ¬cond0_2 (grid0.coords t) := fun h => hC ((hcond0_2 t).mp h)
      have hz : t.val ≠ 0 := fun h => by rw [h] at hA; exact hA rfl
      have h1 : 1 ≤ t.val % 27 := by omega
      have h2 : t.val % 27 ≤ 25 := by omega
      rw [post1_idle m xr c t hc2, PhiS_pos xr c _ hz]
      iintro ⟨⟨⟨%sm, %ss, %hg, HS0, HS1⟩, Hg⟩, Ho, ⟨%d0, H0⟩, ⟨%d1, H1⟩⟩
      iapply ((kernelRun0_B c (grid0.coords t) (ms0_0 t) (hs0_0 t) (ms0_1 t) (hs0_1 t) scM0_0 (Memref.isWhole_whole _) scM0_1 (Memref.isWhole_whole _) hc0 hc1 hc2 (win0_0.fill (grid0.coords t) d0 (iblk m c 0 t)) sm ss).2.2 ((dats m xr 0 c).before 1 t d1) Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · iexists (k0_pay5 (win0_0.fill (grid0.coords t) d0 (iblk m c 0 t)) sm)
          iexists (k0_pay4 (win0_0.fill (grid0.coords t) d0 (iblk m c 0 t)) sm sm ss)
          isplitr
          · ipureintro
            exact good_mid xr c t.val h1 h2 _ (fun r q => fill_read_real m xr c (hx c) t d0 r q _) sm ss hg
          isplitl [HS0]
          · unfold owns; iexists _; isplitr
            swap; · iexact HS0
            ipureintro; exact (View.read_writes_eq_canon _ _ _ (coverB_max c _ _ _ _ _ _ _ _ _ hc0 hc1 hc2 _ _ _)).trans (pieceB_max c _ _ _ _ _ _ _ _ _ hc0 hc1 hc2 _ _ _)
          · unfold owns; iexists _; isplitr
            swap; · iexact HS1
            ipureintro; exact (View.read_writes_eq_canon _ _ _ (coverB_sum c _ _ _ _ _ _ _ _ _ hc0 hc1 hc2 _ _ _)).trans (pieceB_sum c _ _ _ _ _ _ _ _ _ hc0 hc1 hc2 _ _ _)
        · iexact Hg
      isplitl [Ho]; · iexact Ho
      isplitl [H0]; · iexists d0; iexact H0
      iexists d1; iexact H1

/-- The library's (loose) body obligation, at every point. -/
theorem body_obligation (hx : ∀ (c : Dev nD) (R : Fin 4096) (k : Fin 50257), V m c main_arg0 (ix2 R k) = ((xr c R k : ℝ) : EReal)) (c : Dev nD) :
    Pipeline.BodyObligationLoose (dats m xr 0 c) (defs₀ (F := Ideal)) Variants.none () Set.univ := fun t => by
  rw [bigSep_W0, bigSep_W0]
  simp only
  simp only [before0_0, after0_0, after0_1, Pipeline.Window.cut_fill, Phi_eq, Fin.coe_castSucc, Fin.val_succ]
  exact sound_body m xr hx c t

/-- What the launch hands the region is the invariant before the first point. -/
theorem hin (c : Dev nD) : Pipeline.ΦA spec0 c ⊢ (dats m xr 0 c).Φ 0 := by
  rw [Phi_eq]; exact .rfl

/-- After the last point the invariant gives the region's own back: the columns' contents are forgotten. -/
theorem hout (c : Dev nD) : (dats m xr 0 c).Φ (Fin.last cfg0.N) ⊢ Pipeline.ΦA spec0 c := by
  rw [Phi_eq, PhiA0_eq]; exact PhiS_any xr c _

end Cert.KernelIdeal.Hand

end
-- ==== Proof.KI.Value.lean ====
/-
  The idealized kernel's run on real inputs, closed: with every entry of the first argument a real number, the
  body meets its obligation at every point and the invariant starts from and ends in the region's own; so the
  program's result buffer ends holding the host operations' term of the launch logits, the launch targets and the
  column of row log-sum-exps, and both arguments end as launched.
-/
import proofs.«131330_j46755013984641_2_alg».proof.Proof.KI.Frame
import proofs.«131330_j46755013984641_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (xr : Dev nD → Fin 4096 → Fin 50257 → ℝ)

/-- The run on real inputs, read at the result and the arguments. -/
theorem run_value
    (hx : ∀ (c : Dev nD) (R : Fin 4096) (k : Fin 50257), V m c main_arg0 (ix2 R k) = ((xr c R k : ℝ) : EReal))
    (ρ : Dev nD → PrngReg) :
    θ_run defs (onTc (τ := τ) (main (F := Ideal))) ⟨m, fun _ => 0, ρ⟩ (fun r => ∀ c : Dev nD,
      r.2.mem ((c.tc : Thread nD τ).loc main_v76)
          = Tail.KTail (m ((c.tc : Thread nD τ).loc main_arg0)) (m ((c.tc : Thread nD τ).loc main_arg1)) (lseArr xr c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value_of m xr ρ (fun c => body_obligation m xr hx c) (hin m xr) (hout m xr)

end Cert.KernelIdeal.Hand

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Pre.Real.lean ====
/-
  From the precondition to real entries. The precondition says that, on every device, the all-reduction over the
  whole first argument of "the entry's absolute value is below +∞" is 1. An all-reduction by `and` that is 1 has every
  compared entry 1, and an extended real whose absolute value is below +∞ is a real number: so every entry of the
  first argument is a real, and choosing one real per device, row and column names the matrix.
-/
import proofs.«131330_j46755013984641_2_alg».proof.Defs
import proofs.«131330_j46755013984641_2_alg».proof.Proof.LibFiniteInputs

set_option maxRecDepth 16384

noncomputable section

namespace Cert.KernelIdeal.Hand

open Cert.KernelIdeal
open Idealize.ShloMosaic Idealize.ShloMosaic.TcCoe Idealize.ShloMosaic.ValueIdx
open Idealize.SL.Sem

/-- Under the precondition every entry of the first argument, on every device, is a real number. -/
theorem pred_real [hP : Cert.Pre_finite_inputs.Facts]
    (m : (ℓ : Loc nD τ sig) → Buf (Elt Ideal) ℓ) (h : Cert.Pre_KernelIdeal m) :
    ∃ xr : Dev nD → Fin 4096 → Fin 50257 → ℝ, ∀ (c : Dev nD) (R : Fin 4096) (k : Fin 50257),
      m ((c.tc : Thread nD τ).loc main_arg0) (ix2 R k) = ((xr c R k : ℝ) : EReal) := by
  have key : ∀ (c : Dev nD) (R : Fin 4096) (k : Fin 50257), ∃ r : ℝ,
      m ((c.tc : Thread nD τ).loc main_arg0) (ix2 R k) = ((r : ℝ) : EReal) := fun c R k =>
    Cert.FiniteInputs.all_real (s := Cert.Pre_finite_inputs.S4096x50257) (axes := [0, 1])
      (m ((c.tc : Thread nD τ).loc main_arg0))
      Cert.Pre_finite_inputs.Facts.bcast_S_S4096x50257 Cert.Pre_finite_inputs.Facts.reducesTo_S4096x50257_S_d0_1
      Cert.Pre_finite_inputs.Facts.h_S_ (congrFun (h c) ix0) (ix2 R k)
  choose xr hxr using key
  exact ⟨xr, hxr⟩

end Cert.KernelIdeal.Hand

end
-- ==== Proof.RefValue.lean ====
/-
  The reference's result, read off the fold of its 134 operations.

  The run of the reference states its result buffer as the fold of the operations' result functions over the launch
  contents. Here that fold, read at the result buffer, is shown to be the last of the stages val_… — each stage the
  operation's function applied to the stages of its operands — of the two arguments' contents.

  The operations of a called function pass contents through a transport along "the buffer's type is the value's type";
  such a transport is the identity at each literal buffer, and a value put into a buffer and read back is unchanged.
  With the transports removed, what the fold leaves at a buffer is, term for term, the buffer's stage.

  The list is cut into five parts — the log-softmax (15 operations), one part per gathered entry (19, 29 and 29
  operations) and the weights, products, sum, negation and mean (42) — and each part is run over contents known only
  at the buffers it reads, so that a stage computed by an earlier part stays a single named term in the later ones. A
  part that gathers is cut once more before the join of its two index columns: the pair of columns handed to the join
  is first computed as two ordinary buffers, and the join and the gather are then read from contents known at those.
-/
import proofs.«131330_j46755013984641_2_alg».proof.Proof.RefRead
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- Contents put into a typed reference's buffer and read back are the contents. -/
theorem ofBuf_toBuf {sig' : RefSig} {Val : EltTy → Type} {T : BufTy} (x : TRef sig' T) (v : T.Contents Val) :
    x.ofBuf (x.toBuf v) = v := by
  obtain ⟨r, h, _, _⟩ := x
  subst h
  rfl

theorem ofBuf_main_arg0 (p1 p2 p3) (u : (main_arg0 : Ref sig .tc).ty.Contents (Elt F)) :
    (TRef.of (T := ⟨S4096x50257, .f32⟩) main_arg0 p1 p2 p3).ofBuf u = u := rfl
theorem ofBuf_main_c_4 (p1 p2 p3) (u : (main_c_4 : Ref sig .tc).ty.Contents (Elt F)) :
    (TRef.of (T := ⟨S_, .i32⟩) main_c_4 p1 p2 p3).ofBuf u = u := rfl
theorem ofBuf_main_c_5 (p1 p2 p3) (u : (main_c_5 : Ref sig .tc).ty.Contents (Elt F)) :
    (TRef.of (T := ⟨S_, .i32⟩) main_c_5 p1 p2 p3).ofBuf u = u := rfl
theorem ofBuf_main_v17 (p1 p2 p3) (u : (main_v17 : Ref sig .tc).ty.Contents (Elt F)) :
    (TRef.of (T := ⟨S4096, .i32⟩) main_v17 p1 p2 p3).ofBuf u = u := rfl
theorem ofBuf_main_c_11 (p1 p2 p3) (u : (main_c_11 : Ref sig .tc).ty.Contents (Elt F)) :
    (TRef.of (T := ⟨S_, .i32⟩) main_c_11 p1 p2 p3).ofBuf u = u := rfl
theorem ofBuf_main_c_12 (p1 p2 p3) (u : (main_c_12 : Ref sig .tc).ty.Contents (Elt F)) :
    (TRef.of (T := ⟨S_, .i32⟩) main_c_12 p1 p2 p3).ofBuf u = u := rfl
theorem ofBuf_main_v34 (p1 p2 p3) (u : (main_v34 : Ref sig .tc).ty.Contents (Elt F)) :
    (TRef.of (T := ⟨S4096, .i32⟩) main_v34 p1 p2 p3).ofBuf u = u := rfl
theorem ofBuf_main_cst (p1 p2 p3) (u : (main_cst : Ref sig .tc).ty.Contents (Elt F)) :
    (TRef.of (T := ⟨S_, .f32⟩) main_cst p1 p2 p3).ofBuf u = u := rfl
theorem ofBuf_main_cst_19 (p1 p2 p3) (u : (main_cst_19 : Ref sig .tc).ty.Contents (Elt F)) :
    (TRef.of (T := ⟨S_, .f32⟩) main_cst_19 p1 p2 p3).ofBuf u = u := rfl
theorem ofBuf_main_v53 (p1 p2 p3) (u : (main_v53 : Ref sig .tc).ty.Contents (Elt F)) :
    (TRef.of (T := ⟨S4096, .i1⟩) main_v53 p1 p2 p3).ofBuf u = u := rfl
theorem ofBuf_main_cst_20 (p1 p2 p3) (u : (main_cst_20 : Ref sig .tc).ty.Contents (Elt F)) :
    (TRef.of (T := ⟨S_, .f32⟩) main_cst_20 p1 p2 p3).ofBuf u = u := rfl
theorem ofBuf_main_v51 (p1 p2 p3) (u : (main_v51 : Ref sig .tc).ty.Contents (Elt F)) :
    (TRef.of (T := ⟨S4096, .i1⟩) main_v51 p1 p2 p3).ofBuf u = u := rfl
theorem ofBuf_main_cst_23 (p1 p2 p3) (u : (main_cst_23 : Ref sig .tc).ty.Contents (Elt F)) :
    (TRef.of (T := ⟨S_, .f32⟩) main_cst_23 p1 p2 p3).ofBuf u = u := rfl
theorem ofBuf_main_cst_24 (p1 p2 p3) (u : (main_cst_24 : Ref sig .tc).ty.Contents (Elt F)) :
    (TRef.of (T := ⟨S_, .f32⟩) main_cst_24 p1 p2 p3).ofBuf u = u := rfl
theorem ofBuf_main_v59 (p1 p2 p3) (u : (main_v59 : Ref sig .tc).ty.Contents (Elt F)) :
    (TRef.of (T := ⟨S4096, .i1⟩) main_v59 p1 p2 p3).ofBuf u = u := rfl
theorem ofBuf_main_cst_25 (p1 p2 p3) (u : (main_cst_25 : Ref sig .tc).ty.Contents (Elt F)) :
    (TRef.of (T := ⟨S_, .f32⟩) main_cst_25 p1 p2 p3).ofBuf u = u := rfl
theorem ofBuf_main_v57 (p1 p2 p3) (u : (main_v57 : Ref sig .tc).ty.Contents (Elt F)) :
    (TRef.of (T := ⟨S4096, .i1⟩) main_v57 p1 p2 p3).ofBuf u = u := rfl
theorem toBuf_main_v0 (p1 p2 p3) (v : (⟨S4096x50257, .f32⟩ : BufTy).Contents (Elt F)) :
    (TRef.of (T := ⟨S4096x50257, .f32⟩) main_v0 p1 p2 p3).toBuf v = v := rfl
theorem toBuf_main_v18 (p1 p2 p3) (v : (⟨S4096, .i32⟩ : BufTy).Contents (Elt F)) :
    (TRef.of (T := ⟨S4096, .i32⟩) main_v18 p1 p2 p3).toBuf v = v := rfl
theorem toBuf_main_v35 (p1 p2 p3) (v : (⟨S4096, .i32⟩ : BufTy).Contents (Elt F)) :
    (TRef.of (T := ⟨S4096, .i32⟩) main_v35 p1 p2 p3).toBuf v = v := rfl
theorem toBuf_main_v55 (p1 p2 p3) (v : (⟨S4096, .f32⟩ : BufTy).Contents (Elt F)) :
    (TRef.of (T := ⟨S4096, .f32⟩) main_v55 p1 p2 p3).toBuf v = v := rfl
theorem toBuf_main_v61 (p1 p2 p3) (v : (⟨S4096, .f32⟩ : BufTy).Contents (Elt F)) :
    (TRef.of (T := ⟨S4096, .f32⟩) main_v61 p1 p2 p3).toBuf v = v := rfl

/-- The operations after the first 15 (the log-softmax), after the first 34 (to the first gather), after the first 63
    (to the second gather), after the first 92 (to the third gather). -/
abbrev rest1 : List (HloOp τ sig (Elt F)) := (ops (F := F)).drop 15
abbrev rest2 : List (HloOp τ sig (Elt F)) := (rest1 (F := F)).drop 19
abbrev rest3 : List (HloOp τ sig (Elt F)) := (rest2 (F := F)).drop 29
abbrev segA : List (HloOp τ sig (Elt F)) := (ops (F := F)).take 15
abbrev segB : List (HloOp τ sig (Elt F)) := (rest1 (F := F)).take 19
abbrev segC : List (HloOp τ sig (Elt F)) := (rest2 (F := F)).take 29
abbrev segD : List (HloOp τ sig (Elt F)) := (rest3 (F := F)).take 29
abbrev segE : List (HloOp τ sig (Elt F)) := (rest3 (F := F)).drop 29

/-- The fold over a list is the fold over its tail part after the fold over its head part. -/
theorem after_take_drop (l : List (HloOp τ sig (Elt F))) (k : ℕ) (V : Valuation τ sig (Elt F)) :
    after l V = after (l.drop k) (after (l.take k) V) := by
  rw [← StableHlo.after_append, List.take_append_drop]

theorem after_ops_split (V : Valuation τ sig (Elt F)) :
    after ops V = after segE (after segD (after segC (after segB (after segA V)))) := by
  rw [after_take_drop ops 15 V, after_take_drop (rest1 (F := F)) 19, after_take_drop (rest2 (F := F)) 29,
    after_take_drop (rest3 (F := F)) 29]

set_option maxRecDepth 131072 in
set_option maxHeartbeats 800000 in
theorem segA_v0 (W : Valuation τ sig (Elt F)) (x0 : (⟨S4096x50257, .f32⟩ : BufTy).Contents (Elt F)) (x1 : (⟨S4096, .i32⟩ : BufTy).Contents (Elt F)) (ha0 : W (Proc.devRef .tc main_arg0) = x0) :
    after segA W (Proc.devRef .tc main_v0) = val_main_v0 (F := F) x0 := by
  show after [_, _, _, _, _, _, _, _, _, _, _, _, _, _, _] W _ = _
  generalize hX : val_main_v0 (F := F) x0 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  try simp only [ha0]
  subst hX
  rfl

theorem segA_arg1 (W : Valuation τ sig (Elt F)) : after segA W (Proc.devRef .tc main_arg1) = W (Proc.devRef .tc main_arg1) := by
  show after [_, _, _, _, _, _, _, _, _, _, _, _, _, _, _] W _ = _
  after_results_simp

theorem segB_v0 (W : Valuation τ sig (Elt F)) : after segB W (Proc.devRef .tc main_v0) = W (Proc.devRef .tc main_v0) := by
  show after [_, _, _, _, _, _, _, _, _, _, _, _, _, _, _, _, _, _, _] W _ = _
  after_results_simp

theorem segB_arg1 (W : Valuation τ sig (Elt F)) : after segB W (Proc.devRef .tc main_arg1) = W (Proc.devRef .tc main_arg1) := by
  show after [_, _, _, _, _, _, _, _, _, _, _, _, _, _, _, _, _, _, _] W _ = _
  after_results_simp

set_option maxRecDepth 131072 in
set_option maxHeartbeats 800000 in
theorem segB_v1 (W : Valuation τ sig (Elt F)) (x0 : (⟨S4096x50257, .f32⟩ : BufTy).Contents (Elt F)) (x1 : (⟨S4096, .i32⟩ : BufTy).Contents (Elt F)) :
    after segB W (Proc.devRef .tc main_v1) = val_main_v1 (F := F) := by
  show after [_, _, _, _, _, _, _, _, _, _, _, _, _, _, _, _, _, _, _] W _ = _
  generalize hX : val_main_v1 (F := F) = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  try simp only [ofBuf_toBuf]
  subst hX
  rfl

set_option maxRecDepth 131072 in
set_option maxHeartbeats 800000 in
/-- The part's first 17 operations leave the wrapped row numbers, as a column, in main_v12. -/
theorem segB_main_v12 (W : Valuation τ sig (Elt F)) :
    after ((segB (F := F)).take 17) W (Proc.devRef .tc main_v12) = val_main_v12 (F := F) := by
  show after [_, _, _, _, _, _, _, _, _, _, _, _, _, _, _, _, _] W _ = _
  generalize hX : val_main_v12 (F := F) = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  subst hX
  rfl

set_option maxRecDepth 131072 in
set_option maxHeartbeats 800000 in
/-- The part's first 17 operations leave the wrapped target column, as a column, in main_v13. -/
theorem segB_main_v13 (W : Valuation τ sig (Elt F)) (x1 : (⟨S4096, .i32⟩ : BufTy).Contents (Elt F))
    (ha1 : W (Proc.devRef .tc main_arg1) = x1) :
    after ((segB (F := F)).take 17) W (Proc.devRef .tc main_v13) = val_main_v13 (F := F) x1 := by
  show after [_, _, _, _, _, _, _, _, _, _, _, _, _, _, _, _, _] W _ = _
  generalize hX : val_main_v13 (F := F) x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  simp only [ha1]
  subst hX
  rfl

/-- The part's first 17 operations do not write the log-softmax's buffer. -/
theorem segB_head_v0 (W : Valuation τ sig (Elt F)) :
    after ((segB (F := F)).take 17) W (Proc.devRef .tc main_v0) = W (Proc.devRef .tc main_v0) := by
  show after [_, _, _, _, _, _, _, _, _, _, _, _, _, _, _, _, _] W _ = _
  after_results_simp

set_option maxRecDepth 131072 in
set_option maxHeartbeats 800000 in
/-- The part's last two operations — join the two columns, gather — from contents holding the log-softmax and the columns. -/
theorem segB_tail_main_v15 (V : Valuation τ sig (Elt F)) (x0 : (⟨S4096x50257, .f32⟩ : BufTy).Contents (Elt F)) (x1 : (⟨S4096, .i32⟩ : BufTy).Contents (Elt F))
    (h0 : V (Proc.devRef .tc main_v0) = val_main_v0 (F := F) x0)
    (hA : V (Proc.devRef .tc main_v12) = val_main_v12 (F := F))
    (hB : V (Proc.devRef .tc main_v13) = val_main_v13 (F := F) x1) :
    after ((segB (F := F)).drop 17) V (Proc.devRef .tc main_v15) = val_main_v15 (F := F) x0 x1 := by
  show after [_, _] V _ = _
  generalize hX : val_main_v15 (F := F) x0 x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  rw [h0, hA, hB]
  subst hX
  rfl

/-- The part to main_v15: 17 operations to the two columns, then the join and the gather. -/
theorem segB_v15 (W : Valuation τ sig (Elt F)) (x0 : (⟨S4096x50257, .f32⟩ : BufTy).Contents (Elt F)) (x1 : (⟨S4096, .i32⟩ : BufTy).Contents (Elt F)) (h0 : W (Proc.devRef .tc main_v0) = val_main_v0 (F := F) x0) (ha1 : W (Proc.devRef .tc main_arg1) = x1) :
    after segB W (Proc.devRef .tc main_v15) = val_main_v15 (F := F) x0 x1 := by
  rw [after_take_drop (segB (F := F)) 17 W]
  exact segB_tail_main_v15 _ x0 x1 ((segB_head_v0 W).trans h0) (segB_main_v12 W) (segB_main_v13 W x1 ha1)

theorem segC_v0 (W : Valuation τ sig (Elt F)) : after segC W (Proc.devRef .tc main_v0) = W (Proc.devRef .tc main_v0) := by
  show after [_, _, _, _, _, _, _, _, _, _, _, _, _, _, _, _, _, _, _, _, _, _, _, _, _, _, _, _, _] W _ = _
  after_results_simp

theorem segC_arg1 (W : Valuation τ sig (Elt F)) : after segC W (Proc.devRef .tc main_arg1) = W (Proc.devRef .tc main_arg1) := by
  show after [_, _, _, _, _, _, _, _, _, _, _, _, _, _, _, _, _, _, _, _, _, _, _, _, _, _, _, _, _] W _ = _
  after_results_simp

theorem segC_v1 (W : Valuation τ sig (Elt F)) : after segC W (Proc.devRef .tc main_v1) = W (Proc.devRef .tc main_v1) := by
  show after [_, _, _, _, _, _, _, _, _, _, _, _, _, _, _, _, _, _, _, _, _, _, _, _, _, _, _, _, _] W _ = _
  after_results_simp

theorem segC_v15 (W : Valuation τ sig (Elt F)) : after segC W (Proc.devRef .tc main_v15) = W (Proc.devRef .tc main_v15) := by
  show after [_, _, _, _, _, _, _, _, _, _, _, _, _, _, _, _, _, _, _, _, _, _, _, _, _, _, _, _, _] W _ = _
  after_results_simp

set_option maxRecDepth 131072 in
set_option maxHeartbeats 800000 in
/-- The part's first 27 operations leave the wrapped row numbers, as a column, in main_v29. -/
theorem segC_main_v29 (W : Valuation τ sig (Elt F)) (h1 : W (Proc.devRef .tc main_v1) = val_main_v1 (F := F)) :
    after ((segC (F := F)).take 27) W (Proc.devRef .tc main_v29) = val_main_v29 (F := F) := by
  show after [_, _, _, _, _, _, _, _, _, _, _, _, _, _, _, _, _, _, _, _, _, _, _, _, _, _, _] W _ = _
  generalize hX : val_main_v29 (F := F) = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  simp only [h1]
  subst hX
  rfl

set_option maxRecDepth 131072 in
set_option maxHeartbeats 800000 in
/-- The part's first 27 operations leave the clipped and wrapped neighbour column, as a column, in main_v30. -/
theorem segC_main_v30 (W : Valuation τ sig (Elt F)) (x1 : (⟨S4096, .i32⟩ : BufTy).Contents (Elt F))
    (ha1 : W (Proc.devRef .tc main_arg1) = x1) :
    after ((segC (F := F)).take 27) W (Proc.devRef .tc main_v30) = val_main_v30 (F := F) x1 := by
  show after [_, _, _, _, _, _, _, _, _, _, _, _, _, _, _, _, _, _, _, _, _, _, _, _, _, _, _] W _ = _
  generalize hX : val_main_v30 (F := F) x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  simp only [ha1]
  subst hX
  rfl

/-- The part's first 27 operations do not write the log-softmax's buffer. -/
theorem segC_head_v0 (W : Valuation τ sig (Elt F)) :
    after ((segC (F := F)).take 27) W (Proc.devRef .tc main_v0) = W (Proc.devRef .tc main_v0) := by
  show after [_, _, _, _, _, _, _, _, _, _, _, _, _, _, _, _, _, _, _, _, _, _, _, _, _, _, _] W _ = _
  after_results_simp

set_option maxRecDepth 131072 in
set_option maxHeartbeats 800000 in
/-- The part's last two operations — join the two columns, gather — from contents holding the log-softmax and the columns. -/
theorem segC_tail_main_v32 (V : Valuation τ sig (Elt F)) (x0 : (⟨S4096x50257, .f32⟩ : BufTy).Contents (Elt F)) (x1 : (⟨S4096, .i32⟩ : BufTy).Contents (Elt F))
    (h0 : V (Proc.devRef .tc main_v0) = val_main_v0 (F := F) x0)
    (hA : V (Proc.devRef .tc main_v29) = val_main_v29 (F := F))
    (hB : V (Proc.devRef .tc main_v30) = val_main_v30 (F := F) x1) :
    after ((segC (F := F)).drop 27) V (Proc.devRef .tc main_v32) = val_main_v32 (F := F) x0 x1 := by
  show after [_, _] V _ = _
  generalize hX : val_main_v32 (F := F) x0 x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  rw [h0, hA, hB]
  subst hX
  rfl

/-- The part to main_v32: 27 operations to the two columns, then the join and the gather. -/
theorem segC_v32 (W : Valuation τ sig (Elt F)) (x0 : (⟨S4096x50257, .f32⟩ : BufTy).Contents (Elt F)) (x1 : (⟨S4096, .i32⟩ : BufTy).Contents (Elt F)) (h0 : W (Proc.devRef .tc main_v0) = val_main_v0 (F := F) x0) (ha1 : W (Proc.devRef .tc main_arg1) = x1) (h1 : W (Proc.devRef .tc main_v1) = val_main_v1 (F := F)) :
    after segC W (Proc.devRef .tc main_v32) = val_main_v32 (F := F) x0 x1 := by
  rw [after_take_drop (segC (F := F)) 27 W]
  exact segC_tail_main_v32 _ x0 x1 ((segC_head_v0 W).trans h0) (segC_main_v29 W h1) (segC_main_v30 W x1 ha1)

theorem segD_arg1 (W : Valuation τ sig (Elt F)) : after segD W (Proc.devRef .tc main_arg1) = W (Proc.devRef .tc main_arg1) := by
  show after [_, _, _, _, _, _, _, _, _, _, _, _, _, _, _, _, _, _, _, _, _, _, _, _, _, _, _, _, _] W _ = _
  after_results_simp

theorem segD_v15 (W : Valuation τ sig (Elt F)) : after segD W (Proc.devRef .tc main_v15) = W (Proc.devRef .tc main_v15) := by
  show after [_, _, _, _, _, _, _, _, _, _, _, _, _, _, _, _, _, _, _, _, _, _, _, _, _, _, _, _, _] W _ = _
  after_results_simp

theorem segD_v32 (W : Valuation τ sig (Elt F)) : after segD W (Proc.devRef .tc main_v32) = W (Proc.devRef .tc main_v32) := by
  show after [_, _, _, _, _, _, _, _, _, _, _, _, _, _, _, _, _, _, _, _, _, _, _, _, _, _, _, _, _] W _ = _
  after_results_simp

set_option maxRecDepth 131072 in
set_option maxHeartbeats 800000 in
/-- The part's first 27 operations leave the wrapped row numbers, as a column, in main_v46. -/
theorem segD_main_v46 (W : Valuation τ sig (Elt F)) (h1 : W (Proc.devRef .tc main_v1) = val_main_v1 (F := F)) :
    after ((segD (F := F)).take 27) W (Proc.devRef .tc main_v46) = val_main_v46 (F := F) := by
  show after [_, _, _, _, _, _, _, _, _, _, _, _, _, _, _, _, _, _, _, _, _, _, _, _, _, _, _] W _ = _
  generalize hX : val_main_v46 (F := F) = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  simp only [h1]
  subst hX
  rfl

set_option maxRecDepth 131072 in
set_option maxHeartbeats 800000 in
/-- The part's first 27 operations leave the clipped and wrapped neighbour column, as a column, in main_v47. -/
theorem segD_main_v47 (W : Valuation τ sig (Elt F)) (x1 : (⟨S4096, .i32⟩ : BufTy).Contents (Elt F))
    (ha1 : W (Proc.devRef .tc main_arg1) = x1) :
    after ((segD (F := F)).take 27) W (Proc.devRef .tc main_v47) = val_main_v47 (F := F) x1 := by
  show after [_, _, _, _, _, _, _, _, _, _, _, _, _, _, _, _, _, _, _, _, _, _, _, _, _, _, _] W _ = _
  generalize hX : val_main_v47 (F := F) x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  simp only [ha1]
  subst hX
  rfl

/-- The part's first 27 operations do not write the log-softmax's buffer. -/
theorem segD_head_v0 (W : Valuation τ sig (Elt F)) :
    after ((segD (F := F)).take 27) W (Proc.devRef .tc main_v0) = W (Proc.devRef .tc main_v0) := by
  show after [_, _, _, _, _, _, _, _, _, _, _, _, _, _, _, _, _, _, _, _, _, _, _, _, _, _, _] W _ = _
  after_results_simp

set_option maxRecDepth 131072 in
set_option maxHeartbeats 800000 in
/-- The part's last two operations — join the two columns, gather — from contents holding the log-softmax and the columns. -/
theorem segD_tail_main_v49 (V : Valuation τ sig (Elt F)) (x0 : (⟨S4096x50257, .f32⟩ : BufTy).Contents (Elt F)) (x1 : (⟨S4096, .i32⟩ : BufTy).Contents (Elt F))
    (h0 : V (Proc.devRef .tc main_v0) = val_main_v0 (F := F) x0)
    (hA : V (Proc.devRef .tc main_v46) = val_main_v46 (F := F))
    (hB : V (Proc.devRef .tc main_v47) = val_main_v47 (F := F) x1) :
    after ((segD (F := F)).drop 27) V (Proc.devRef .tc main_v49) = val_main_v49 (F := F) x0 x1 := by
  show after [_, _] V _ = _
  generalize hX : val_main_v49 (F := F) x0 x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  rw [h0, hA, hB]
  subst hX
  rfl

/-- The part to main_v49: 27 operations to the two columns, then the join and the gather. -/
theorem segD_v49 (W : Valuation τ sig (Elt F)) (x0 : (⟨S4096x50257, .f32⟩ : BufTy).Contents (Elt F)) (x1 : (⟨S4096, .i32⟩ : BufTy).Contents (Elt F)) (h0 : W (Proc.devRef .tc main_v0) = val_main_v0 (F := F) x0) (ha1 : W (Proc.devRef .tc main_arg1) = x1) (h1 : W (Proc.devRef .tc main_v1) = val_main_v1 (F := F)) :
    after segD W (Proc.devRef .tc main_v49) = val_main_v49 (F := F) x0 x1 := by
  rw [after_take_drop (segD (F := F)) 27 W]
  exact segD_tail_main_v49 _ x0 x1 ((segD_head_v0 W).trans h0) (segD_main_v46 W h1) (segD_main_v47 W x1 ha1)

set_option maxRecDepth 131072 in
set_option maxHeartbeats 800000 in
theorem segE_v72 (W : Valuation τ sig (Elt F)) (x0 : (⟨S4096x50257, .f32⟩ : BufTy).Contents (Elt F)) (x1 : (⟨S4096, .i32⟩ : BufTy).Contents (Elt F)) (ha1 : W (Proc.devRef .tc main_arg1) = x1) (h15 : W (Proc.devRef .tc main_v15) = val_main_v15 (F := F) x0 x1) (h32 : W (Proc.devRef .tc main_v32) = val_main_v32 (F := F) x0 x1) (h49 : W (Proc.devRef .tc main_v49) = val_main_v49 (F := F) x0 x1) :
    after segE W (Proc.devRef .tc main_v72) = val_main_v72 (F := F) x0 x1 := by
  show after [_, _, _, _, _, _, _, _, _, _, _, _, _, _, _, _, _, _, _, _, _, _, _, _, _, _, _, _, _, _, _, _, _, _, _, _, _, _, _, _, _, _] W _ = _
  generalize hX : val_main_v72 (F := F) x0 x1 = X
  after_results_simp
  try simp only [ofBuf_toBuf]
  try simp only [ofBuf_main_arg0, ofBuf_main_c_4, ofBuf_main_c_5, ofBuf_main_v17, ofBuf_main_c_11, ofBuf_main_c_12, ofBuf_main_v34, ofBuf_main_cst, ofBuf_main_cst_19, ofBuf_main_v53, ofBuf_main_cst_20, ofBuf_main_v51, ofBuf_main_cst_23, ofBuf_main_cst_24, ofBuf_main_v59, ofBuf_main_cst_25, ofBuf_main_v57, toBuf_main_v0, toBuf_main_v18, toBuf_main_v35, toBuf_main_v55, toBuf_main_v61]
  try simp only [ha1, h15, h32, h49]
  subst hX
  rfl

/-- The reference's result buffer after its 134 operations, from any launch contents V: the last stage of the
    arguments' contents. The list is cut after the log-softmax and after each of the three gathers; each part is
    run over a valuation known only at the buffers the later parts read. -/
theorem stage (V : Valuation τ sig (Elt F)) :
    after ops V (Proc.devRef .tc main_v72)
      = val_main_v72 (F := F) (V (Proc.devRef .tc main_arg0)) (V (Proc.devRef .tc main_arg1)) := by
  have hA0 := segA_v0 V (V (Proc.devRef .tc main_arg0)) (V (Proc.devRef .tc main_arg1)) rfl
  have hA1 := segA_arg1 V
  have hB0 := (segB_v0 (after segA V)).trans hA0
  have hB1 := (segB_arg1 (after segA V)).trans hA1
  have hBv1 := segB_v1 (after segA V) (V (Proc.devRef .tc main_arg0)) (V (Proc.devRef .tc main_arg1))
  have hB15 := segB_v15 (after segA V) _ _ hA0 hA1
  have hC0 := (segC_v0 (after segB (after segA V))).trans hB0
  have hC1 := (segC_arg1 (after segB (after segA V))).trans hB1
  have hCv1 := (segC_v1 (after segB (after segA V))).trans hBv1
  have hC15 := (segC_v15 (after segB (after segA V))).trans hB15
  have hC32 := segC_v32 (after segB (after segA V)) _ _ hB0 hB1 hBv1
  have hD1 := (segD_arg1 (after segC (after segB (after segA V)))).trans hC1
  have hD15 := (segD_v15 (after segC (after segB (after segA V)))).trans hC15
  have hD32 := (segD_v32 (after segC (after segB (after segA V)))).trans hC32
  have hD49 := segD_v49 (after segC (after segB (after segA V))) _ _ hC0 hC1 hCv1
  rw [after_ops_split]
  exact segE_v72 (after segD (after segC (after segB (after segA V)))) _ _ hD1 hD15 hD32 hD49

/-- The run's result term is the last stage of the launch contents of the two arguments. -/
theorem res_eq (m : (ℓ : Loc nD τ sig) → Buf (Elt F) ℓ) (c : Dev nD) :
    Cert.ReferenceIdeal.Value.res_main_v72 m c
      = Cert.ReferenceIdeal.Read.val_main_v72 (F := F) (m ((c.tc : Thread nD τ).loc main_arg0))
          (m ((c.tc : Thread nD τ).loc main_arg1)) := by
  unfold Cert.ReferenceIdeal.Value.res_main_v72
  exact stage (launchContents m c)

end Cert.ReferenceIdeal.RefValue

end
-- ==== Proof.LibPointGather.lean ====
import Idealize.ShloMosaic.Lib.Pipeline.Value
import Idealize.ShloMosaic.Lib.ValueIdx
import Idealize.ShloMosaic.PureOps.Ideal

/-!
  A gather that reads ONE entry of a matrix per result row: the operand is `[R, C]`, the start indices are
  `[R, 2]` (a row number and a column number per result row), both operand axes are collapsed, the slice is
  one element. Result entry `e` is the operand at (row, column), each read as a signed integer off the start
  indices and clamped into the matrix. When the row number stored for `e` is `e` itself, the entry comes from
  row `e`; so subtracting a per-row quantity from the matrix subtracts that row's quantity from the gathered
  entry, whatever column is named.
-/

namespace Cert.Bridge

open Idealize.ShloMosaic Idealize.ShloMosaic.ValueIdx

variable {α : Type}

/-- The dimension numbers of the one-entry-per-row gather. -/
abbrev pointDims (R C : Nat)
    (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at result row `e`: the operand at the stored (row, column), read signed and clamped. -/
theorem gather_point_apply {R C w : Nat} (hR : 0 < R) (hC : 0 < C)
    (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (e : Fin R) :
    Host.gather (pointDims R C wf) x idx (ix1 e)
      = x (ix2 ⟨min (idx (ix2 e (0 : Fin 2))).toInt.toNat (R - 1), by omega⟩
               ⟨min (idx (ix2 e (1 : Fin 2))).toInt.toNat (C - 1), by omega⟩) := by
  have h0 : (pointDims R C wf).start (ix1 e) idx (0 : Fin 2) + (pointDims R C wf).batchCoord (ix1 e) (0 : Fin 2)
      + (pointDims R C wf).offCoord (ix1 e) (0 : Fin 2) = min (idx (ix2 e (0 : Fin 2))).toInt.toNat (R - 1) := by
    rw [GatherDims.batchCoord_eq_zero _ _ _ List.not_mem_nil, GatherDims.offCoord_eq_zero _ _ _
      (fun h => ((GatherDims.mem_sKept _ _).mp h).1 (List.mem_cons_self))]
    simp only [Nat.add_zero]
    unfold GatherDims.start
    rw [dif_pos (show (0 : Fin 2) ∈ (pointDims R C wf).startIndexMap from List.mem_cons_self)]
    have hsi : (pointDims R C wf).siIdx (ix1 e) ⟨List.idxOf (0 : Fin 2) (pointDims R C wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  have h1 : (pointDims R C wf).start (ix1 e) idx (1 : Fin 2) + (pointDims R C wf).batchCoord (ix1 e) (1 : Fin 2)
      + (pointDims R C wf).offCoord (ix1 e) (1 : Fin 2) = min (idx (ix2 e (1 : Fin 2))).toInt.toNat (C - 1) := by
    rw [GatherDims.batchCoord_eq_zero _ _ _ List.not_mem_nil, GatherDims.offCoord_eq_zero _ _ _
      (fun h => ((GatherDims.mem_sKept _ _).mp h).1 (List.mem_cons_of_mem _ List.mem_cons_self))]
    simp only [Nat.add_zero]
    unfold GatherDims.start
    rw [dif_pos (show (1 : Fin 2) ∈ (pointDims R C wf).startIndexMap from List.mem_cons_of_mem _ List.mem_cons_self)]
    have hsi : (pointDims R C wf).siIdx (ix1 e) ⟨List.idxOf (1 : Fin 2) (pointDims R C wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0
  | ⟨1, _⟩ => exact h1

/-- When the row number stored for result row `e` is `e`, a matrix that differs from `x` by a per-row
    amount gathers to the gathered entry of `x` less row `e`'s amount, at the ideal instance. -/
theorem gather_point_sub {R C w : Nat} (hR : 0 < R) (hC : 0 < C)
    (wf : GatherDims.WF ⟨2, ![R, C]⟩ ⟨2, ![R, 2]⟩ ⟨1, ![R]⟩ [] [0, 1] [] [0, 1] [] 1 ![1, 1])
    (x y : (⟨2, ![R, C]⟩ : Shape).Idx → EReal) (l : (⟨1, ![R]⟩ : Shape).Idx → EReal)
    (hy : ∀ (r : Fin R) (k : Fin C), y (ix2 r k) = x (ix2 r k) - l (ix1 r))
    (idx : IVec ⟨2, ![R, 2]⟩ w) (e : Fin R) (hrow : (idx (ix2 e (0 : Fin 2))).toInt.toNat = e.val) :
    Host.gather (pointDims R C wf) y idx (ix1 e) = Host.gather (pointDims R C wf) x idx (ix1 e) - l (ix1 e) := by
  rw [gather_point_apply hR hC wf y idx e, gather_point_apply hR hC wf x idx e, hy]
  congr 2
  refine congrArg ix1 (Fin.ext ?_)
  show min (idx (ix2 e (0 : Fin 2))).toInt.toNat (R - 1) = e.val
  rw [hrow]; have := e.isLt; omega

end Cert.Bridge
-- ==== Proof.Bridge.GatherK.lean ====
import proofs.«131330_j46755013984641_2_alg».proof.Proof.Bridge.KTail
import proofs.«131330_j46755013984641_2_alg».proof.Proof.LibPointGather
import Idealize.ShloMosaic.Lib.IdealHost

/-!
  The host tail's three gathers read at a row. The index pairs are the wrapped row numbers beside a column
  vector; the row number stored for row `e` is `e` (row numbers are never negative, so the wrap leaves them,
  and `e < 4096` fits a signed word), so each gather reads row `e` of its operand.
-/

namespace Cert.Bridge

open Idealize.ShloMosaic Idealize.ShloMosaic.ValueIdx Cert.KernelIdeal Cert.KernelIdeal.Tail

variable [Facts]
open Facts₀ Facts

/-- The printed dimension numbers are those of the one-entry-per-row gather. -/
theorem gatherDims_eq :
    gather_S4096x50257_S4096x2_S4096_n_01_n_n_01_1_11
      = pointDims 4096 50257 gather_S4096x50257_S4096x2_S4096_n_01_n_n_01_1_11_wf := rfl

/-- A small natural number as a 32-bit word reads back, signed, as itself. -/
theorem toInt_ofNat_small (n : Nat) (h : n < 4096) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- The wrapped row numbers at row `e`: the word of `e`. -/
theorem rowIdx_apply (e : Fin 4096) : rowIdx (ix1 e) = BitVec.ofNat 32 e.val := by
  unfold rowIdx
  rw [select_apply]
  have hc : cmpi .slt iota (bI 0#32) (ix1 e) = 0#1 := by
    show IntOp.cmpi .slt (BitVec.ofNat 32 e.val) (0#32) = 0#1
    unfold IntOp.cmpi
    simp only [BitVec.slt, toInt_ofNat_small e.val e.isLt]
    have hn : ¬ ((e.val : Int) < 0) := by omega
    simp [hn]
  rw [hc, select_zero]
  rfl

/-- Two columns joined side by side, read in the first column. -/
theorem concat_col0 (a b : IVec S4096x1 32) (e : Fin 4096) :
    concatenate S4096x2 1 [⟨S4096x1, a⟩, ⟨S4096x1, b⟩] concatenates_S4096x1_S4096x1_S4096x2_d1 (ix2 e (0 : Fin 2))
      = a (ix2 e (0 : Fin 1)) :=
  concatenate_pair_apply_left (t := S4096x2) (s₁ := S4096x1) (s₂ := S4096x1) 1 a b
    concatenates_S4096x1_S4096x1_S4096x2_d1 (ix2 e (0 : Fin 2)) rfl (ix2 e (0 : Fin 1))
    (fun c => match c with
      | ⟨0, _⟩ => rfl
      | ⟨1, _⟩ => rfl)

/-- Two columns joined side by side, read in the second column. -/
theorem concat_col1 (a b : IVec S4096x1 32) (e : Fin 4096) :
    concatenate S4096x2 1 [⟨S4096x1, a⟩, ⟨S4096x1, b⟩] concatenates_S4096x1_S4096x1_S4096x2_d1 (ix2 e (1 : Fin 2))
      = b (ix2 e (0 : Fin 1)) :=
  concatenate_pair_apply_right (t := S4096x2) (s₁ := S4096x1) (s₂ := S4096x1) 1 a b
    concatenates_S4096x1_S4096x1_S4096x2_d1 (ix2 e (1 : Fin 2)) rfl rfl (ix2 e (0 : Fin 1))
    (fun c => match c with
      | ⟨0, _⟩ => fun _ => rfl
      | ⟨1, _⟩ => fun h => absurd rfl h)
    rfl

/-- A vector over the rows viewed as a column reads the vector's entry. -/
theorem bcast_col {α : Type} (v : S4096.Idx → α) (e : Fin 4096) :
    broadcastInDim S4096x1 ![0] bcast_S4096_S4096x1_0 v (ix2 e (0 : Fin 1)) = v (ix1 e) :=
  broadcastInDim_apply _ bcast_S4096_S4096x1_0 v (ix2 e (0 : Fin 1)) (ix1 e) (fun a => match a with
    | ⟨0, _⟩ => by show e.val = if (4096 : Nat) = 1 then 0 else e.val; rw [if_neg (by decide)])

/-- The index pairs at (e, 0): the wrapped row number of row `e`. -/
theorem idx_row (t : IVec S4096 32) (e : Fin 4096) : idx t (ix2 e (0 : Fin 2)) = BitVec.ofNat 32 e.val := by
  unfold idx
  rw [concat_col0, bcast_col]
  exact rowIdx_apply e

/-- The index pairs at (e, 1): the wrapped column of row `e`. -/
theorem idx_col (t : IVec S4096 32) (e : Fin 4096) : idx t (ix2 e (1 : Fin 2)) = wrap t (ix1 e) := by
  unfold idx
  rw [concat_col1, bcast_col]

/-- The row number the gather reads for row `e` is `e`. -/
theorem idx_row_toNat (t : IVec S4096 32) (e : Fin 4096) : (idx t (ix2 e (0 : Fin 2))).toInt.toNat = e.val := by
  rw [idx_row, toInt_ofNat_small e.val e.isLt]; rfl

/-- Gathering from a matrix that differs from `x` by a per-row amount `l`: the gathered entry of `x` less the
    row's amount, whatever the column vector `t`. -/
theorem gat_sub (x y : FVec Ideal S4096x50257 .f32) (l : FVec Ideal S4096 .f32)
    (hy : ∀ (r : Fin 4096) (k : Fin 50257), y (ix2 r k) = x (ix2 r k) - l (ix1 r))
    (t : IVec S4096 32) (e : Fin 4096) : gat y t (ix1 e) = gat x t (ix1 e) - l (ix1 e) := by
  unfold gat
  rw [gatherDims_eq]
  exact gather_point_sub (by decide) (by decide) _ x y l hy (idx t) e (idx_row_toNat t e)

end Cert.Bridge
-- ==== Proof.Bridge.RowLse.lean ====
import proofs.«131330_j46755013984641_2_alg».proof.Proof.Spec
import proofs.«131330_j46755013984641_2_alg».proof.Proof.LibOnlineSoftmax
import Idealize.ShloMosaic.PureOps.Ideal

/-!
  One row of a log-softmax over the extended reals, on a row of reals. The row maximum, taken as a fold of
  max from -∞ (and once more against -∞), is the real maximum m; each shifted entry x k - m is real; the sum of
  the exponentials (from 0) is a positive real S; so (x k - m) - log S is the real number x k - (m + log S),
  and m + log S is the row's log-sum-exp whatever m is.
-/

namespace Cert.Bridge

open Idealize.ShloMosaic

/-- The inclusion of the reals commutes with finite sums. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The log-softmax of a row of reals at entry k, as the two programs' operations compute it at the exact
    values, is the real number x k less the row's log-sum-exp. -/
theorem logsoftmax_row {n : ℕ} [NeZero n] (x : Fin n → ℝ) (k : Fin n) (M : EReal)
    (hM : M = max (⊥ : EReal) (Finset.univ.fold max (⊥ : EReal) fun t => ((x t : ℝ) : EReal))) :
    (((x k : ℝ) : EReal) - M) - Ideal.log (0 + ∑ t, Ideal.exp (((x t : ℝ) : EReal) - M))
      = ((x k - Cert.Lse.lse x : ℝ) : EReal) := by
  have hn : Nonempty (Fin n) := ⟨0⟩
  obtain ⟨m, hm⟩ : ∃ m : ℝ, M = ((m : ℝ) : EReal) :=
    ⟨Finset.univ.sup' Finset.univ_nonempty x, by
      rw [hM, OnlineSoftmax.fold_max_coe_univ x]; exact OnlineSoftmax.bot_max_coe _⟩
  subst hm
  have hexp : ∀ t, Ideal.exp (((x t : ℝ) : EReal) - ((m : ℝ) : EReal)) = ((Real.exp (x t - m) : ℝ) : EReal) :=
    fun t => by rw [← EReal.coe_sub]; rfl
  have hsum : (∑ t, Ideal.exp (((x t : ℝ) : EReal) - ((m : ℝ) : EReal)))
      = ((∑ t, Real.exp (x t - m) : ℝ) : EReal) := by
    rw [← coe_sum]; exact Finset.sum_congr rfl fun t _ => hexp t
  have hpos : 0 < ∑ t, Real.exp (x t - m) := Cert.Lse.sum_exp_pos fun t => x t - m
  rw [hsum, zero_add, Ideal.log_coe, if_neg (not_le.mpr hpos), ← EReal.coe_sub, ← EReal.coe_sub]
  congr 1
  rw [← Cert.Lse.shift_add_log x m]
  ring

end Cert.Bridge
-- ==== Proof.Bridge.RefLogp.lean ====
import proofs.«131330_j46755013984641_2_alg».proof.ReferenceIdeal
import proofs.«131330_j46755013984641_2_alg».proof.Proof.Bridge.RowLse
import Idealize.ShloMosaic.Lib.Pipeline.Value
import Idealize.ShloMosaic.Lib.IdealHost
import Idealize.ShloMosaic.PureOps.Ideal.Laws

/-!
  The reference's log-softmax of the whole matrix, as the composition of its operations, read at an entry of a
  matrix of reals: entry (R, k) is x R k less the log-sum-exp of row R.
-/

noncomputable section

namespace Cert.Bridge.Ref

open Idealize.ShloMosaic Idealize.ShloMosaic.ValueIdx Cert.ReferenceIdeal

variable [Cert.ReferenceIdeal.Facts]
open Cert.ReferenceIdeal.Facts₀ Cert.ReferenceIdeal.Facts

/-- The row maxima: the reduce with a maximum body from -∞, once more against -∞. -/
def rowMax (x0 : FVec Ideal S4096x50257 .f32) : FVec Ideal S4096 .f32 :=
  maximumf (broadcastInDim S4096 ![] bcast_S_S4096 (constant (F := Ideal) S_ .f32 0xFF800000#32))
    (Host.reduce FloatOps.maximumf x0 (constant (F := Ideal) S_ .f32 0xFF800000#32)
      reducesTo_S4096x50257_S4096_d1 h_S_)

/-- A per-row vector spread over the matrix: first as a column, then along the columns. -/
def spread (v : FVec Ideal S4096 .f32) : FVec Ideal S4096x50257 .f32 :=
  broadcastInDim S4096x50257 ![0, 1] bcast_S4096x1_S4096x50257_0_1
    (broadcastInDim S4096x1 ![0] bcast_S4096_S4096x1_0 v)

/-- The matrix less its row maxima. -/
def shifted (x0 : FVec Ideal S4096x50257 .f32) : FVec Ideal S4096x50257 .f32 := subf x0 (spread (rowMax x0))

/-- The row sums of the exponentials of the shifted matrix, from 0. -/
def rowSum (x0 : FVec Ideal S4096x50257 .f32) : FVec Ideal S4096 .f32 :=
  Host.reduceAdd (Host.exp (shifted x0)) (constant (F := Ideal) S_ .f32 0x00000000#32)
    reducesTo_S4096x50257_S4096_d1 h_S_

/-- The log-softmax: the shifted matrix less the logarithm of the row sums. -/
def logp (x0 : FVec Ideal S4096x50257 .f32) : FVec Ideal S4096x50257 .f32 :=
  subf (shifted x0)
    (broadcastInDim S4096x50257 ![0, 1] bcast_S4096x1_S4096x50257_0_1
      (Host.log (broadcastInDim S4096x1 ![0] bcast_S4096_S4096x1_0 (rowSum x0))))

/-- A column spread along the columns reads the column's entry of the row. -/
theorem bcast01_apply {α : Type} (v : S4096x1.Idx → α) (R : Fin 4096) (k : Fin 50257) :
    broadcastInDim S4096x50257 ![0, 1] bcast_S4096x1_S4096x50257_0_1 v (ix2 R k) = v (ix2 R (0 : Fin 1)) :=
  broadcastInDim_apply _ bcast_S4096x1_S4096x50257_0_1 v (ix2 R k) (ix2 R (0 : Fin 1)) (fun a => match a with
    | ⟨0, _⟩ => by show R.val = if (4096 : Nat) = 1 then 0 else R.val; rw [if_neg (by decide)]
    | ⟨1, _⟩ => by show 0 = if (1 : Nat) = 1 then 0 else k.val; rw [if_pos rfl])

/-- A vector over the rows viewed as a column reads the vector's entry. -/
theorem bcast_col {α : Type} (v : S4096.Idx → α) (R : Fin 4096) :
    broadcastInDim S4096x1 ![0] bcast_S4096_S4096x1_0 v (ix2 R (0 : Fin 1)) = v (ix1 R) :=
  broadcastInDim_apply _ bcast_S4096_S4096x1_0 v (ix2 R (0 : Fin 1)) (ix1 R) (fun a => match a with
    | ⟨0, _⟩ => by show R.val = if (4096 : Nat) = 1 then 0 else R.val; rw [if_neg (by decide)])

/-- A per-row vector spread over the matrix reads the row's entry. -/
theorem spread_apply (v : FVec Ideal S4096 .f32) (R : Fin 4096) (k : Fin 50257) : spread v (ix2 R k) = v (ix1 R) := by
  unfold spread
  rw [bcast01_apply, bcast_col]

/-- The row index with the column put back. -/
theorem lift_ix1 (h : S4096x50257.Reduces [1] S4096) (R : Fin 4096) (k : Fin (S4096x50257.size 1)) :
    h.lift (ix1 R) k = ix2 R (⟨k.val, k.isLt⟩ : Fin 50257) := by
  funext c; apply Fin.ext
  match c with
  | ⟨0, _⟩ => rfl
  | ⟨1, _⟩ => rfl

/-- The row maxima at row R: the fold of max from -∞ over the row, once more against -∞. -/
theorem rowMax_apply (x0 : FVec Ideal S4096x50257 .f32) (R : Fin 4096) :
    rowMax x0 (ix1 R)
      = max (⊥ : EReal) ((Finset.univ : Finset (Fin 50257)).fold max (⊥ : EReal) fun k => x0 (ix2 R k)) := by
  have hbot : Ideal.ofBits .f32 0xFF800000#32 = (⊥ : EReal) := by simp [Ideal.ofBits, Ideal.ieee]
  have h : S4096x50257.Reduces [1] S4096 := by decide
  unfold rowMax
  rw [maximumf_apply, broadcastInDim_scalar_apply, constant_apply, hbot,
    Host.reduce_eq_fold_single FloatOps.maximumf x0 _ reducesTo_S4096x50257_S4096_d1 h h_S_, constant_apply, hbot]
  have hf : (x0 ∘ h.lift (ix1 R)) = fun k : Fin 50257 => x0 (ix2 R k) :=
    funext fun k => congrArg x0 (lift_ix1 h R k)
  exact congrArg (fun f => max (⊥ : EReal) (Finset.fold max (⊥ : EReal) f (Finset.univ : Finset (Fin 50257)))) hf

/-- The row sums at row R: 0 plus the sum over the row of the exponentials of the shifted entries. -/
theorem rowSum_apply (x0 : FVec Ideal S4096x50257 .f32) (R : Fin 4096) :
    rowSum x0 (ix1 R) = 0 + ∑ k : Fin 50257, Ideal.exp (x0 (ix2 R k) - rowMax x0 (ix1 R)) := by
  have h : S4096x50257.Reduces [1] S4096 := by decide
  unfold rowSum
  rw [hostReduceAdd_apply, Ideal.hostReduceAdd_single reducesTo_S4096x50257_S4096_d1 h, constant_apply,
    Ideal.ofBits_zero_f32]
  refine congrArg (0 + ·) (Finset.sum_congr rfl fun k _ => ?_)
  rw [lift_ix1 h R k]
  show Ideal.exp (shifted x0 (ix2 R (⟨k.val, k.isLt⟩ : Fin 50257))) = _
  unfold shifted
  rw [subf_apply, spread_apply]
  rfl

/-- The host logarithm at an index. -/
theorem hostLog_apply {s : Shape} (v : FVec Ideal s .f32) (i : s.Idx) : Host.log v i = Ideal.log (v i) := rfl

/-- THE LOG-SOFTMAX AT AN ENTRY, on a matrix of reals: x R k less the log-sum-exp of row R. -/
theorem logp_apply (x0 : FVec Ideal S4096x50257 .f32) (xr : Fin 4096 → Fin 50257 → ℝ)
    (hx : ∀ R k, x0 (ix2 R k) = ((xr R k : ℝ) : EReal)) (R : Fin 4096) (k : Fin 50257) :
    logp x0 (ix2 R k) = ((xr R k - Cert.Lse.lse (xr R) : ℝ) : EReal) := by
  have hM : rowMax x0 (ix1 R)
      = max (⊥ : EReal) (Finset.univ.fold max (⊥ : EReal) fun t => ((xr R t : ℝ) : EReal)) := by
    rw [rowMax_apply]
    exact congrArg (fun f => max (⊥ : EReal) (Finset.fold max (⊥ : EReal) f (Finset.univ : Finset (Fin 50257))))
      (funext fun t => hx R t)
  unfold logp
  rw [subf_apply, bcast01_apply, hostLog_apply, bcast_col, rowSum_apply]
  unfold shifted
  rw [subf_apply, spread_apply, hx R k]
  have hs : (∑ t : Fin 50257, Ideal.exp (x0 (ix2 R t) - rowMax x0 (ix1 R)))
      = ∑ t : Fin 50257, Ideal.exp (((xr R t : ℝ) : EReal) - rowMax x0 (ix1 R)) :=
    Finset.sum_congr rfl fun t _ => by rw [hx R t]
  rw [hs]
  exact logsoftmax_row (xr R) k (rowMax x0 (ix1 R)) hM

end Cert.Bridge.Ref

end
-- ==== Proof.Bridge.Sub.lean ====
import proofs.«131330_j46755013984641_2_alg».proof.Proof.Bridge.GatherK
import proofs.«131330_j46755013984641_2_alg».proof.Proof.Bridge.RefLogp

/-!
  The kernel's three subtracted gathers are the three gathers from the reference's log-softmax. On a matrix
  of reals the log-softmax differs from the matrix by the row's log-sum-exp, the streamed column holds exactly
  that number per row, and each gather reads row e for result row e; so gathering first and subtracting the
  row's log-sum-exp afterwards is gathering from the log-softmax.
-/

noncomputable section

namespace Cert.Bridge

open Idealize.ShloMosaic Idealize.ShloMosaic.ValueIdx Cert.KernelIdeal Cert.KernelIdeal.Tail

variable [Cert.KernelIdeal.Facts] [Cert.ReferenceIdeal.Facts]
open Cert.KernelIdeal.Facts₀ Cert.KernelIdeal.Facts

/-- The log-sum-exp column read as a vector over the rows: row R's entry. -/
theorem lseVec_apply (L : FVec Ideal S4096x1 .f32) (R : Fin 4096) : lseVec L (ix1 R) = L (ix2 R (0 : Fin 1)) :=
  shapeCast_apply L shapeCasts_S4096x1_S4096 (ix1 R) (ix2 R (0 : Fin 1)) (by
    rw [Shape.rowMajor_val_two, Shape.rowMajor_val_one]
    show R.val * 1 + 0 = R.val
    omega)

/-- Gathering from the log-softmax is gathering from the matrix and subtracting the row's log-sum-exp. -/
theorem gat_logp (x0 : FVec Ideal S4096x50257 .f32) (L : FVec Ideal S4096x1 .f32)
    (xr : Fin 4096 → Fin 50257 → ℝ) (hx : ∀ R k, x0 (ix2 R k) = ((xr R k : ℝ) : EReal))
    (hL : ∀ R : Fin 4096, L (ix2 R (0 : Fin 1)) = ((Cert.Lse.lse (xr R) : ℝ) : EReal)) (t : IVec S4096 32) :
    gat (Ref.logp x0) t = subf (gat x0 t) (lseVec L) := by
  funext j
  obtain ⟨e, rfl⟩ : ∃ e : Fin 4096, j = ix1 e := ⟨j 0, eq_ix1 j⟩
  rw [subf_apply]
  refine gat_sub x0 (Ref.logp x0) (lseVec L) (fun r k => ?_) t e
  rw [Ref.logp_apply x0 xr hx r k, lseVec_apply, hL r, hx r k, EReal.coe_sub]

/-- The kernel's host tail is the shared weighted mean applied to the three gathers from the log-softmax. -/
theorem ktail_eq (x0 : FVec Ideal S4096x50257 .f32) (x1 : IVec S4096 32) (L : FVec Ideal S4096x1 .f32)
    (xr : Fin 4096 → Fin 50257 → ℝ) (hx : ∀ R k, x0 (ix2 R k) = ((xr R k : ℝ) : EReal))
    (hL : ∀ R : Fin 4096, L (ix2 R (0 : Fin 1)) = ((Cert.Lse.lse (xr R) : ℝ) : EReal)) :
    KTail x0 x1 L
      = loss3 (gat (Ref.logp x0) x1) (gat (Ref.logp x0) (colL x1)) (gat (Ref.logp x0) (colR x1)) (wL x1) (wR x1) := by
  unfold KTail
  rw [gat_logp x0 L xr hx hL x1, gat_logp x0 L xr hx hL (colL x1), gat_logp x0 L xr hx hL (colR x1)]

end Cert.Bridge

end
-- ==== Proof.Bridge.Bridge.lean ====
import proofs.«131330_j46755013984641_2_alg».proof.Proof.RefRead
import proofs.«131330_j46755013984641_2_alg».proof.Proof.Bridge.Sub

/-!
  The reference's stages are the same terms as the kernel's host tail, with the log-softmax where the tail has
  the raw matrix: its row numbers, wrapped and clipped columns, index pairs, weights and the final weighted
  mean are the same operations on the same arguments, so each equation below holds by unfolding the stage
  definitions (the shapes of the two programs are the same literal shapes, and their side conditions are
  propositions).
-/

noncomputable section

namespace Cert.Bridge

open Idealize.ShloMosaic Idealize.ShloMosaic.ValueIdx Cert.KernelIdeal Cert.KernelIdeal.Tail
open Cert.ReferenceIdeal.Read

variable [Cert.KernelIdeal.Facts] [Cert.ReferenceIdeal.Facts]

/-- The reference's log-softmax stage is the composed term read in `Ref.logp`. -/
theorem ref_v0 (x0 : FVec Ideal S4096x50257 .f32) : val_main_v0 (F := Ideal) x0 = Ref.logp x0 := rfl

/-- The reference's three index-pair stages. -/
theorem ref_v14 (x1 : IVec S4096 32) : val_main_v14 (F := Ideal) x1 = idx x1 := rfl
theorem ref_v31 (x1 : IVec S4096 32) : val_main_v31 (F := Ideal) x1 = idx (colL x1) := rfl
theorem ref_v48 (x1 : IVec S4096 32) : val_main_v48 (F := Ideal) x1 = idx (colR x1) := rfl

/-- The reference's three gathers, from the log-softmax. -/
theorem ref_v15 (x0 : FVec Ideal S4096x50257 .f32) (x1 : IVec S4096 32) :
    val_main_v15 (F := Ideal) x0 x1 = gat (Ref.logp x0) x1 := by
  unfold val_main_v15 gat
  rw [ref_v0, ref_v14]
  rfl
theorem ref_v32 (x0 : FVec Ideal S4096x50257 .f32) (x1 : IVec S4096 32) :
    val_main_v32 (F := Ideal) x0 x1 = gat (Ref.logp x0) (colL x1) := by
  unfold val_main_v32 gat
  rw [ref_v0, ref_v31]
  rfl
theorem ref_v49 (x0 : FVec Ideal S4096x50257 .f32) (x1 : IVec S4096 32) :
    val_main_v49 (F := Ideal) x0 x1 = gat (Ref.logp x0) (colR x1) := by
  unfold val_main_v49 gat
  rw [ref_v0, ref_v48]
  rfl

/-- The reference's two weight stages. -/
theorem ref_v55 (x1 : IVec S4096 32) : val_main_v55 (F := Ideal) x1 = wL x1 := rfl
theorem ref_v61 (x1 : IVec S4096 32) : val_main_v61 (F := Ideal) x1 = wR x1 := rfl

/-- The reference's result is the shared weighted mean of its three gathers. -/
theorem ref_v72 (x0 : FVec Ideal S4096x50257 .f32) (x1 : IVec S4096 32) :
    val_main_v72 (F := Ideal) x0 x1
      = loss3 (val_main_v15 (F := Ideal) x0 x1) (val_main_v32 (F := Ideal) x0 x1) (val_main_v49 (F := Ideal) x0 x1)
          (val_main_v55 (F := Ideal) x1) (val_main_v61 (F := Ideal) x1) := rfl

/-- THE BRIDGE: on a matrix of reals, with the streamed column holding each row's log-sum-exp, the kernel's
    host tail and the reference compute the same value. -/
theorem bridge (x0 : FVec Ideal S4096x50257 .f32) (x1 : IVec S4096 32) (L : FVec Ideal S4096x1 .f32)
    (xr : Fin 4096 → Fin 50257 → ℝ) (hx : ∀ R k, x0 (ix2 R k) = ((xr R k : ℝ) : EReal))
    (hL : ∀ R : Fin 4096, L (ix2 R (0 : Fin 1)) = ((Cert.Lse.lse (xr R) : ℝ) : EReal)) :
    KTail x0 x1 L = val_main_v72 (F := Ideal) x0 x1 := by
  rw [ktail_eq x0 x1 L xr hx hL, ref_v72, ref_v15, ref_v32, ref_v49, ref_v55, ref_v61]

end Cert.Bridge

end
-- ==== Proof.Claims.lean ====
/-
  The five claims, assembled.

  Frames. The word-level kernel's frame is proved with nothing said of values: the body runs in each
  of its three cases on whatever the buffers hold, and the host operations after the region write
  neither argument. The idealized kernel's frame is its valued run with the value dropped. The
  reference has no kernel: its frame is its run with the result dropped.

  Values. Under the precondition every entry of pred is a real. The kernel streams each row in 27
  column tiles, carrying a shift a and a sum s with s · exp a = ∑ exp x over the columns so far, and
  stores a + log s = log ∑ₖ exp (x k) per row; the host operations then subtract that column from
  the three gathered logits, weight, negate and average. The reference gathers the same three
  entries from x − max − log ∑ exp (x − max) = x − log ∑ₖ exp (x k), with the same weights and the
  same average: entry by entry the three subtracted gathers are the three gathers of the
  log-softmax, and the rest of the two chains is one function of them.
-/
import proofs.«131330_j46755013984641_2_alg».proof.Defs
import proofs.«131330_j46755013984641_2_alg».proof.Proof.Gen.Kernel
import proofs.«131330_j46755013984641_2_alg».proof.Proof.Gen.KernelIdeal
import proofs.«131330_j46755013984641_2_alg».proof.Proof.Gen.ReferenceIdeal
import proofs.«131330_j46755013984641_2_alg».proof.Proof.Gen.Pre_finite_inputs
import proofs.«131330_j46755013984641_2_alg».proof.Proof.K.Frame
import proofs.«131330_j46755013984641_2_alg».proof.Proof.KI.Value
import proofs.«131330_j46755013984641_2_alg».proof.Proof.Blk.Out
import proofs.«131330_j46755013984641_2_alg».proof.Proof.Pre.Real
import proofs.«131330_j46755013984641_2_alg».proof.Proof.RefRun
import proofs.«131330_j46755013984641_2_alg».proof.Proof.RefRead
import proofs.«131330_j46755013984641_2_alg».proof.Proof.RefValue
import proofs.«131330_j46755013984641_2_alg».proof.Proof.Bridge.Bridge

noncomputable section

namespace Cert.Proof.Claims

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ hpre => by
  obtain ⟨xr, hx⟩ := Cert.KernelIdeal.Hand.pred_real m hpre
  exact (θ_run Cert.KernelIdeal.defs _ _).mono (fun _ h c => ⟨(h c).2.1, (h c).2.2⟩) (Cert.KernelIdeal.Hand.run_value m xr hx ρ)

theorem frame_ri : Cert.frame_ReferenceIdeal := fun m ρ _ =>
  (θ_run Cert.ReferenceIdeal.defs _ _).mono (fun _ h c => ⟨(h c).2.1, (h c).2.2⟩) (Cert.ReferenceIdeal.Value.run (F := Ideal) m ρ)

theorem preserves : Cert.preserves_Kernel_KernelIdeal := trivial

theorem algebraic : Cert.algebraic_KernelIdeal_ReferenceIdeal := by
  intro m ρ m' ρ' hpre hagree
  obtain ⟨xr, hx⟩ := Cert.KernelIdeal.Hand.pred_real m hpre
  refine ⟨_, Cert.KernelIdeal.Hand.run_value m xr hx ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c, (hagree c).1, (hagree c).2]
  exact (Cert.Bridge.bridge _ _ _ (xr c) (hx c) (Cert.KernelIdeal.Hand.lseArr_apply xr c)).symm

end Cert.Proof.Claims

end
-- ==== Proof.lean ====
/-
  The certificate of a label-smoothing loss: a streaming log-sum-exp kernel against jax.nn.log_softmax.

  pred is f32[4096, 50257], target i32[4096]. The kernel walks each block of 1024 rows through 27
  column tiles of 1920 columns (the last holds 337 columns of the array; the rest of that tile is
  masked by selects), keeping per row a running shift and a running sum of exponentials, and stores
  per row shift + log(sum). For ANY real shift a, a + log ∑ₖ exp (xₖ − a) = log ∑ₖ exp xₖ: the
  kernel's shift (the maximum of a large negative finite number and the row's entries) and the
  reference's (the row maximum) give the same real number, the row's log-sum-exp. The host side of the
  kernel gathers pred at the target column and its two clipped neighbours, subtracts that number,
  weights the three differences (0.8 and the smoothing mass, all of it on one neighbour at either end
  of the vocabulary), negates and averages; the reference gathers the same three entries of
  pred − log-sum-exp directly. So the two results agree as extended reals whenever every entry of pred
  is a real, which the precondition states. The finiteness is used: pulling exp(shift) out of the sum
  and taking the logarithm of the product need real numbers.

  The five claims are assembled in Proof/Claims.lean; the witnesses of the programs' stated facts are
  the generated instances.
-/
import proofs.«131330_j46755013984641_2_alg».proof.Defs
import proofs.«131330_j46755013984641_2_alg».proof.Proof.Gen.Kernel
import proofs.«131330_j46755013984641_2_alg».proof.Proof.Gen.KernelIdeal
import proofs.«131330_j46755013984641_2_alg».proof.Proof.Gen.ReferenceIdeal
import proofs.«131330_j46755013984641_2_alg».proof.Proof.Gen.Pre_finite_inputs
import proofs.«131330_j46755013984641_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
